-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v52_1)) (v1 : (c : Dev Cert.KernelIdeal.nD) → Buf (Elt Ideal) ((c.tc : Thread Cert.KernelIdeal.nD Cert.KernelIdeal.τ).loc Cert.KernelIdeal.main_v52_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_1) = v0 c
          ∧ r.2.mem ((c.tc : Thread Cert.KernelIdeal.nD Cert.KernelIdeal.τ).loc Cert.KernelIdeal.main_v52_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S800000 : Shape := ⟨1, ![800000]⟩
abbrev S50000x128 : Shape := ⟨2, ![50000, 128]⟩
abbrev S64x128 : Shape := ⟨2, ![64, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x128 : S_.BroadcastsInDim S50000x128 (![] : Fin 0 → Fin S50000x128.rank)
  reducesTo_S50000x128_S_d0_1 : S50000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128 .f32) (main_arg16 : FVec F S128x64 .f32) (main_arg17 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S256x128 .f32) (main_arg13 : FVec F S128 .f32) (main_arg14 : FVec F S256x128 .f32) (main_arg15 : FVec F S128 .f32) (main_arg16 : FVec F S128x64 .f32) (main_arg17 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_v63 main_v67

def fn_part2 {F : FTy → Type} [FloatOps F] (main_arg8 : FVec F S64x128 .f32) (main_arg9 : FVec F S128 .f32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S128x64 .f32) (main_arg17 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S64x128 .f32) (main_arg7 : FVec F S128 .f32) (main_arg8 : FVec F S64x128 .f32) (main_arg9 : FVec F S128 .f32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S128x64 .f32) (main_arg17 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : IVec S2x800000 32) (main_arg1 : FVec F S50000x64 .f32) (main_arg2 : FVec F S800000 .f32) (main_arg3 : FVec F S50000x128 .f32) (main_arg4 : FVec F S64x128 .f32) (main_arg5 : FVec F S128 .f32) (main_arg6 : FVec F S64x128 .f32) (main_arg7 : FVec F S128 .f32) (main_arg8 : FVec F S64x128 .f32) (main_arg9 : FVec F S128 .f32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S128x64 .f32) (main_arg17 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S2x800000 : Shape := ⟨2, ![2, 800000]⟩
abbrev S50000x64 : Shape := ⟨2, ![50000, 64]⟩
abbrev S800000 : Shape := ⟨1, ![800000]⟩
abbrev S50000x128 : Shape := ⟨2, ![50000, 128]⟩
abbrev S64x128 : Shape := ⟨2, ![64, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S64x384 : Shape := ⟨2, ![64, 384]⟩
abbrev S384 : Shape := ⟨1, ![384]⟩
abbrev S1x384 : Shape := ⟨2, ![1, 384]⟩
abbrev S1x128 : Shape := ⟨2, ![1, 128]⟩
abbrev S1x64 : Shape := ⟨2, ![1, 64]⟩
abbrev S2000x64 : Shape := ⟨2, ![2000, 64]⟩
abbrev S2000x128 : Shape := ⟨2, ![2000, 128]⟩
abbrev S2000x384 : Shape := ⟨2, ![2000, 384]⟩
abbrev S2000x256 : Shape := ⟨2, ![2000, 256]⟩

abbrev nBuf : Space → Nat
  | .hbm => 85
  | .vmem => 18
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000, .f32⟩
  | .hbm, ⟨3, _⟩ => ⟨S50000x128, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S256x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000, .i32⟩
  | .hbm, ⟨23, _⟩ => ⟨S850000, .i32⟩
  | .hbm, ⟨24, _⟩ => ⟨S850000, .i32⟩
  | .hbm, ⟨25, _⟩ => ⟨S_, .f32⟩
  | .hbm, ⟨26, _⟩ => ⟨S50000, .f32⟩
  | .hbm, ⟨27, _⟩ => ⟨S850000, .f32⟩
  | .hbm, ⟨28, _⟩ => ⟨S_, .f32⟩
  | .hbm, ⟨29, _⟩ => ⟨S50000, .f32⟩
  | .hbm, ⟨30, _⟩ => ⟨S850000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x64, .f32⟩
  | .hbm, ⟨70, _⟩ => ⟨S850000x64, .f32⟩
  | .hbm, ⟨71, _⟩ => ⟨S850000x64, .f32⟩
  | .hbm, ⟨72, _⟩ => ⟨S_, .f32⟩
  | .hbm, ⟨73, _⟩ => ⟨S50000x64, .f32⟩
  | .hbm, ⟨74, _⟩ => ⟨S850000x1, .i32⟩
  | .hbm, ⟨75, _⟩ => ⟨S50000x64, .f32⟩
  | .hbm, ⟨76, _⟩ => ⟨S64x384, .f32⟩
  | .hbm, ⟨77, _⟩ => ⟨S384, .f32⟩
  | .hbm, ⟨78, _⟩ => ⟨S1x384, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x64, .f32⟩
  | .hbm, ⟨83, _⟩ => ⟨S50000x128, .f32⟩
  | .hbm, ⟨84, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x128, .f32⟩
  | .local _ .vmem, ⟨3, _⟩ => ⟨S2000x128, .f32⟩
  | .local _ .vmem, ⟨4, _⟩ => ⟨S64x384, .f32⟩
  | .local _ .vmem, ⟨5, _⟩ => ⟨S1x384, .f32⟩
  | .local _ .vmem, ⟨6, _⟩ => ⟨S256x128, .f32⟩
  | .local _ .vmem, ⟨7, _⟩ => ⟨S1x128, .f32⟩
  | .local _ .vmem, ⟨8, _⟩ => ⟨S256x128, .f32⟩
  | .local _ .vmem, ⟨9, _⟩ => ⟨S1x128, .f32⟩
  | .local _ .vmem, ⟨10, _⟩ => ⟨S256x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S2000x128, .f32⟩
  | .local _ .vmem, ⟨15, _⟩ => ⟨S2000x128, .f32⟩
  | .local _ .vmem, ⟨16, _⟩ => ⟨S2000x64, .f32⟩
  | .local _ .vmem, ⟨17, _⟩ => ⟨S2000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52_0 : Ref sig .tc := ⟨.hbm, 83, rfl⟩
abbrev main_v52_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  concatenates_S64x128_S64x128_S64x128_S64x384_d1 : Shape.Concatenates [S64x128, S64x128, S64x128] S64x384 1
  concatenates_S128_S128_S128_S384_d0 : Shape.Concatenates [S128, S128, S128] S384 0
  shapeCasts_S384_S1x384 : S384.ShapeCasts S1x384
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  inb_S256x128_S256x128_0_0 : ∀ a, (![0, 0] : Fin 2 → Nat) a + S256x128.size a ≤ S256x128.size a
  h_S256x128 : 0 < S256x128.numel
  inb_S128x64_S128x64_0_0 : ∀ a, (![0, 0] : Fin 2 → Nat) a + S128x64.size a ≤ S128x64.size a
  h_S128x64 : 0 < S128x64.numel
  concatenates_S2000x128_S2000x128_S2000x256_d1 : Shape.Concatenates [S2000x128, S2000x128] S2000x256 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x384_S2000x384_1_0_0_1_n_n_wf : DotDims.WF S2000x64 S64x384 S2000x384 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x384.size a ≤ S64x384.size a
  hwx0_2 : ∀ i : grid0.Coords, EltTy.bits .f32 = 32 ∨ (Rect.block (s := S64x384) S64x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x64.size a ≤ S50000x64.size a
  hwx0_13 : ∀ i : grid0.Coords, EltTy.bits .f32 = 32 ∨ (Rect.block (s := S50000x64) S2000x64.size (cc0_transform_13 i) (hinb0_13 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x384_S2000x384_1_0_0_1_n_n : DotDims S2000x64 S64x384 S2000x384 where
  lhsContracting := [1]
  rhsContracting := [0]
  lhsNonContracting := [0]
  rhsNonContracting := [1]
  lhsBatch := []
  rhsBatch := []
  wf := dot_S2000x64_S64x384_S2000x384_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v44) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S64x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v51) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v52_0) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v52_1) S2000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S800000 : Shape := ⟨1, ![800000]⟩
abbrev S50000x128 : Shape := ⟨2, ![50000, 128]⟩
abbrev S64x128 : Shape := ⟨2, ![64, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩
abbrev S1x64 : Shape := ⟨2, ![1, 64]⟩

abbrev nBuf : Space → Nat
  | .hbm => 166
  | .vmem => 0
  | .smem => 0
  | _ => 0

abbrev hbmTy0_0 (i : Nat) : BufTy := match i % 128 with
  | 0 => ⟨S2x800000, .i32⟩
  | 1 => ⟨S50000x64, .f32⟩
  | 2 => ⟨S800000, .f32⟩
  | 3 => ⟨S50000x128, .f32⟩
  | 4 => ⟨S64x128, .f32⟩
  | 5 => ⟨S128, .f32⟩
  | 6 => ⟨S64x128, .f32⟩
  | 7 => ⟨S128, .f32⟩
  | 8 => ⟨S64x128, .f32⟩
  | 9 => ⟨S128, .f32⟩
  | 10 => ⟨S256x128, .f32⟩
  | 11 => ⟨S128, .f32⟩
  | 12 => ⟨S256x128, .f32⟩
  | 13 => ⟨S128, .f32⟩
  | 14 => ⟨S256x128, .f32⟩
  | 15 => ⟨S128, .f32⟩
  | 16 => ⟨S128x64, .f32⟩
  | 17 => ⟨S64, .f32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S50000, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S50000x128, .f32⟩
  | 61 => ⟨S850000x1, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S50000x128, .f32⟩
  | 79 => ⟨S50000x128, .f32⟩
  | 80 => ⟨S50000x256, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S850000x1, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S50000x128, .f32⟩
  | 112 => ⟨S50000x128, .f32⟩
  | 113 => ⟨S50000x256, .f32⟩
  | 114 => ⟨S50000x128, .f32⟩
  | 115 => ⟨S1x128, .f32⟩
  | 116 => ⟨S50000x128, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S850000x1, .f32⟩
  | _ => ⟨S2x800000, .i32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x128, .f32⟩
  | 9 => ⟨S850000x128, .f32⟩
  | 10 => ⟨S850000x128, .f32⟩
  | 11 => ⟨S_, .f32⟩
  | 12 => ⟨S50000x128, .f32⟩
  | 13 => ⟨S850000x1, .i32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S50000x256, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x64, .f32⟩
  | 35 => ⟨S1x64, .f32⟩
  | 36 => ⟨S50000x64, .f32⟩
  | 37 => ⟨S50000x64, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_16 : Ref sig .tc := ⟨.hbm, 128, rfl⟩
abbrev main_v90 : Ref sig .tc := ⟨.hbm, 129, rfl⟩
abbrev main_v91 : Ref sig .tc := ⟨.hbm, 130, rfl⟩
abbrev main_c_17 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_18 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_19 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_call1_cst : Ref sig .tc := ⟨.hbm, 159, rfl⟩
abbrev main_call1_v0 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.FrameK.lean ====
/- The frame of `Kernel`: @main is three stretches of host operations and then one pipelined region over a grid of
   25 points with 14 windows (0 to 11 read, 12 and 13 written). The body loads every input window whole, computes,
   and stores each output window whole, so what it leaves in an output window is a closed function of the input
   blocks at the point. From that: the body's triple, the pipeline's proof data, the run of @main, and the frame
   claim (every argument array ends as launched), at any float instance `F`. -/
import proofs.«163961_j14181982011590_2_alg».proof.Proof.Gen.Kernel.Launch
import proofs.«163961_j14181982011590_2_alg».proof.Proof.Gen.Kernel.Skeleton
import proofs.«163961_j14181982011590_2_alg».proof.Proof.Gen.Kernel.Points
import Idealize.ShloMosaic.Lib.Pipeline.FrameBody
import Idealize.ShloMosaic.Lib.Ring
import Idealize.ShloMosaic.Lib.Tactic

-- membership of an index in a rectangle with an axis of 2000 recurses once per coordinate of that axis
set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: what the three stretches of host operations, run in
    order from the launch memory, leave. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches and then the region: it reaches the region with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- Every host operation writes its own result buffer only, and none of those is `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (then its block index has not moved), for any proof data on `V`'s array whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or not (then its block index has not moved), for any proof data on `V`'s array whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or not (then its block index has not moved), for any proof data on `V`'s array whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or not (then its block index has not moved), for any proof data on `V`'s array whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or not (then its block index has not moved), for any proof data on `V`'s array whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there
    or not (then its block index has not moved), for any proof data on `V`'s array whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the pipeline fetched it there
    or not (then its block index has not moved), for any proof data on `V`'s array whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the pipeline fetched it there
    or not (then its block index has not moved), for any proof data on `V`'s array whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the pipeline fetched it there
    or not (then its block index has not moved), for any proof data on `V`'s array whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the pipeline fetched it there
    or not (then its block index has not moved), for any proof data on `V`'s array whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether the pipeline fetched it there
    or not (then its block index has not moved), for any proof data on `V`'s array whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether the pipeline fetched it there
    or not (then its block index has not moved), for any proof data on `V`'s array whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post (each array of the pipeline at what the proof data computes, every other
    unscoped buffer as the region found it) to the frame claim's post: an argument a window stages is an input array,
    unchanged by the pipeline; any other argument is among the other unscoped buffers; and each is as launched by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 4).trans (((dats 0 c).arrAt_in 4 rfl _).trans ((hA c 4).trans (V_main_arg10 m c))),
      ((h c).2 main_arg11 (Pipeline.mem_restRefs_of main_arg11 (by decide) (by decide))).trans (V_main_arg11 m c),
      ((h c).1 6).trans (((dats 0 c).arrAt_in 6 rfl _).trans ((hA c 6).trans (V_main_arg12 m c))),
      ((h c).2 main_arg13 (Pipeline.mem_restRefs_of main_arg13 (by decide) (by decide))).trans (V_main_arg13 m c),
      ((h c).1 8).trans (((dats 0 c).arrAt_in 8 rfl _).trans ((hA c 8).trans (V_main_arg14 m c))),
      ((h c).2 main_arg15 (Pipeline.mem_restRefs_of main_arg15 (by decide) (by decide))).trans (V_main_arg15 m c),
      ((h c).1 10).trans (((dats 0 c).arrAt_in 10 rfl _).trans ((hA c 10).trans (V_main_arg16 m c))),
      ((h c).2 main_arg17 (Pipeline.mem_restRefs_of main_arg17 (by decide) (by decide))).trans (V_main_arg17 m c)⟩) h

/-! ## The body's accesses -/

/-- Each load and store of the body is through the whole rectangle of its buffer's shape. -/
abbrev r0_0 : Rect S2000x128 := Rect.unit (s := S2000x128) ![0, 0] S2000x128.size inb_S2000x128_S2000x128_0_0
abbrev r0_1 : Rect S2000x64 := Rect.unit (s := S2000x64) ![0, 0] S2000x64.size inb_S2000x64_S2000x64_0_0
abbrev r0_2 : Rect S64x384 := Rect.unit (s := S64x384) ![0, 0] S64x384.size inb_S64x384_S64x384_0_0
abbrev r0_3 : Rect S1x384 := Rect.unit (s := S1x384) ![0, 0] S1x384.size inb_S1x384_S1x384_0_0
abbrev r0_4 : Rect S256x128 := Rect.unit (s := S256x128) ![0, 0] S256x128.size inb_S256x128_S256x128_0_0
abbrev r0_5 : Rect S128x64 := Rect.unit (s := S128x64) ![0, 0] S128x64.size inb_S128x64_S128x64_0_0
abbrev r0_6 : Rect S1x128 := Rect.unit (s := S1x128) ![0, 0] S1x128.size inb_S1x128_S1x128_0_0
abbrev r0_7 : Rect S1x64 := Rect.unit (s := S1x64) ![0, 0] S1x64.size inb_S1x64_S1x64_0_0

/-! ## What the body leaves in each output window's buffer -/

/-- Window 12's staging buffer after the body, from the input windows' blocks: its one store, of the whole buffer. -/
def out0_12 (x0 : Vec F S2000x64 .f32) (x1 : Vec F S2000x128 .f32) (x2 : Vec F S64x384 .f32) (x3 : Vec F S1x384 .f32) (x4 : Vec F S256x128 .f32) (x5 : Vec F S1x128 .f32) (x6 : Vec F S256x128 .f32) (x7 : Vec F S1x128 .f32) (x8 : Vec F S256x128 .f32) (x9 : Vec F S1x128 .f32) (x10 : Vec F S128x64 .f32) (x11 : Vec F S1x64 .f32) : Vec F S2000x128 .f32 :=
  View.canon [⟨r0_0, k0_pay1 (View.ld x1 r0_0) (k0_pay4 (View.ld x0 r0_1) (View.ld x2 r0_2) (View.ld x3 r0_3)) (k0_pay5 (View.ld x8 r0_4)) (k0_pay7 (View.ld x1 r0_0) (View.ld x0 r0_1) (View.ld x2 r0_2) (View.ld x3 r0_3) (View.ld x4 r0_4) (View.ld x5 r0_6)) (k0_pay8 (View.ld x1 r0_0) (View.ld x0 r0_1) (View.ld x2 r0_2) (View.ld x3 r0_3) (View.ld x6 r0_4)) (k0_pay9 (View.ld x7 r0_6)) (View.ld x9 r0_6)⟩]

/-- Window 13's staging buffer after the body, from the input windows' blocks: its one store, of the whole buffer. -/
def out0_13 (x0 : Vec F S2000x64 .f32) (x1 : Vec F S2000x128 .f32) (x2 : Vec F S64x384 .f32) (x3 : Vec F S1x384 .f32) (x4 : Vec F S256x128 .f32) (x5 : Vec F S1x128 .f32) (x6 : Vec F S256x128 .f32) (x7 : Vec F S1x128 .f32) (x8 : Vec F S256x128 .f32) (x9 : Vec F S1x128 .f32) (x10 : Vec F S128x64 .f32) (x11 : Vec F S1x64 .f32) : Vec F S2000x64 .f32 :=
  View.canon [⟨r0_1, k0_pay2 (View.ld x1 r0_0) (k0_pay4 (View.ld x0 r0_1) (View.ld x2 r0_2) (View.ld x3 r0_3)) (k0_pay5 (View.ld x8 r0_4)) (k0_pay6 (View.ld x10 r0_5)) (k0_pay7 (View.ld x1 r0_0) (View.ld x0 r0_1) (View.ld x2 r0_2) (View.ld x3 r0_3) (View.ld x4 r0_4) (View.ld x5 r0_6)) (k0_pay8 (View.ld x1 r0_0) (View.ld x0 r0_1) (View.ld x2 r0_2) (View.ld x3 r0_3) (View.ld x6 r0_4)) (k0_pay9 (View.ld x7 r0_6)) (View.ld x9 r0_6) (View.ld x11 r0_7)⟩]

/-- The one store covers window 12's buffer, -/
theorem cover0_12 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- and the one store covers window 13's. -/
theorem cover0_13 (p0 : Vec F S2000x64 .f32) (y : S2000x64.Idx) :
    ∃ pc ∈ ([⟨r0_1, p0⟩] : List (View.Piece (Elt F) S2000x64 .f32)), y ∈ pc.1.set :=
  View.cover_of_tiled [⟨r0_1, p0⟩] S2000x64.size (by rfl) y

/-! ## The body's triple -/

set_option maxHeartbeats 4000000 in
/-- The body on whole staging memrefs, the inputs' at read contents `xW` and the outputs' at anything, runs to the
    continuation holding the inputs' as they were and the outputs' at `out0_12` and `out0_13` of the inputs': the two
    printed functions are their skeletons, run symbolically through the call of the first part. -/
theorem sound_kernel (c : Dev nD) (E : Set ℕ) (i : grid0.Coords) (arg1 : Memref sig .tc .vmem S2000x64 .f32) (harg1 : arg1.IsWhole) (arg2 : Memref sig .tc .vmem S2000x128 .f32) (harg2 : arg2.IsWhole) (arg3 : Memref sig .tc .vmem S64x384 .f32) (harg3 : arg3.IsWhole) (arg4 : Memref sig .tc .vmem S1x384 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S2000x128 .f32) (harg13 : arg13.IsWhole) (arg14 : Memref sig .tc .vmem S2000x64 .f32) (harg14 : arg14.IsWhole)
    (x0 : Vec F S2000x64 .f32) (x1 : Vec F S2000x128 .f32) (x2 : Vec F S64x384 .f32) (x3 : Vec F S1x384 .f32) (x4 : Vec F S256x128 .f32) (x5 : Vec F S1x128 .f32) (x6 : Vec F S256x128 .f32) (x7 : Vec F S1x128 .f32) (x8 : Vec F S256x128 .f32) (x9 : Vec F S1x128 .f32) (x10 : Vec F S128x64 .f32) (x11 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The pipeline's proof data -/

/-- The proof data of the pipeline on core `c`: the arrays as the region finds them (`V`); after the body at point `t`
    each input's buffer at its block and each output's at `out0_W` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents, by projecting the definition (`V` is never unfolded). -/
theorem A_eq (c : Dev nD) (w : Fin cfg0.W) : (dats m 0 c).A w = V m c (Pipeline.arrRef spec0 w) := by
  dsimp only [dats]

/-- What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks (`before0_W`), so `sound_kernel` applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.HFrame.run_main' depends on axioms: [propext, Classical.choice, Quot.sound] -/
#guard_msgs in #print axioms run_main

/-- The frame: @main runs (terminates, no fault) and its argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.HFrame

end
-- ==== Proof.FrameKI.lean ====
/- The frame of `KernelIdeal`: @main is three stretches of host operations and then one pipelined region over a grid of
   25 points with 14 windows (0 to 11 read, 12 and 13 written). The body loads every input window whole, computes,
   and stores each output window whole, so what it leaves in an output window is a closed function of the input
   blocks at the point. From that: the body's triple, the pipeline's proof data, the run of @main, and the frame
   claim (every argument array ends as launched), at any float instance `F`. -/
import proofs.«163961_j14181982011590_2_alg».proof.Proof.Gen.KernelIdeal.Launch
import proofs.«163961_j14181982011590_2_alg».proof.Proof.Gen.KernelIdeal.Skeleton
import proofs.«163961_j14181982011590_2_alg».proof.Proof.Gen.KernelIdeal.Points
import Idealize.ShloMosaic.Lib.Pipeline.FrameBody
import Idealize.ShloMosaic.Lib.Ring
import Idealize.ShloMosaic.Lib.Tactic

-- membership of an index in a rectangle with an axis of 2000 recurses once per coordinate of that axis
set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: what the three stretches of host operations, run in
    order from the launch memory, leave. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches and then the region: it reaches the region with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- Every host operation writes its own result buffer only, and none of those is `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer only, and none of those is `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (then its block index has not moved), for any proof data on `V`'s array whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or not (then its block index has not moved), for any proof data on `V`'s array whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or not (then its block index has not moved), for any proof data on `V`'s array whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or not (then its block index has not moved), for any proof data on `V`'s array whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or not (then its block index has not moved), for any proof data on `V`'s array whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there
    or not (then its block index has not moved), for any proof data on `V`'s array whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the pipeline fetched it there
    or not (then its block index has not moved), for any proof data on `V`'s array whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the pipeline fetched it there
    or not (then its block index has not moved), for any proof data on `V`'s array whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the pipeline fetched it there
    or not (then its block index has not moved), for any proof data on `V`'s array whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the pipeline fetched it there
    or not (then its block index has not moved), for any proof data on `V`'s array whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether the pipeline fetched it there
    or not (then its block index has not moved), for any proof data on `V`'s array whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether the pipeline fetched it there
    or not (then its block index has not moved), for any proof data on `V`'s array whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post (each array of the pipeline at what the proof data computes, every other
    unscoped buffer as the region found it) to the frame claim's post: an argument a window stages is an input array,
    unchanged by the pipeline; any other argument is among the other unscoped buffers; and each is as launched by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 4).trans (((dats 0 c).arrAt_in 4 rfl _).trans ((hA c 4).trans (V_main_arg10 m c))),
      ((h c).2 main_arg11 (Pipeline.mem_restRefs_of main_arg11 (by decide) (by decide))).trans (V_main_arg11 m c),
      ((h c).1 6).trans (((dats 0 c).arrAt_in 6 rfl _).trans ((hA c 6).trans (V_main_arg12 m c))),
      ((h c).2 main_arg13 (Pipeline.mem_restRefs_of main_arg13 (by decide) (by decide))).trans (V_main_arg13 m c),
      ((h c).1 8).trans (((dats 0 c).arrAt_in 8 rfl _).trans ((hA c 8).trans (V_main_arg14 m c))),
      ((h c).2 main_arg15 (Pipeline.mem_restRefs_of main_arg15 (by decide) (by decide))).trans (V_main_arg15 m c),
      ((h c).1 10).trans (((dats 0 c).arrAt_in 10 rfl _).trans ((hA c 10).trans (V_main_arg16 m c))),
      ((h c).2 main_arg17 (Pipeline.mem_restRefs_of main_arg17 (by decide) (by decide))).trans (V_main_arg17 m c)⟩) h

/-! ## The body's accesses -/

/-- Each load and store of the body is through the whole rectangle of its buffer's shape. -/
abbrev r0_0 : Rect S2000x128 := Rect.unit (s := S2000x128) ![0, 0] S2000x128.size inb_S2000x128_S2000x128_0_0
abbrev r0_1 : Rect S2000x64 := Rect.unit (s := S2000x64) ![0, 0] S2000x64.size inb_S2000x64_S2000x64_0_0
abbrev r0_2 : Rect S64x384 := Rect.unit (s := S64x384) ![0, 0] S64x384.size inb_S64x384_S64x384_0_0
abbrev r0_3 : Rect S1x384 := Rect.unit (s := S1x384) ![0, 0] S1x384.size inb_S1x384_S1x384_0_0
abbrev r0_4 : Rect S256x128 := Rect.unit (s := S256x128) ![0, 0] S256x128.size inb_S256x128_S256x128_0_0
abbrev r0_5 : Rect S128x64 := Rect.unit (s := S128x64) ![0, 0] S128x64.size inb_S128x64_S128x64_0_0
abbrev r0_6 : Rect S1x128 := Rect.unit (s := S1x128) ![0, 0] S1x128.size inb_S1x128_S1x128_0_0
abbrev r0_7 : Rect S1x64 := Rect.unit (s := S1x64) ![0, 0] S1x64.size inb_S1x64_S1x64_0_0

/-! ## What the body leaves in each output window's buffer -/

/-- Window 12's staging buffer after the body, from the input windows' blocks: its one store, of the whole buffer. -/
def out0_12 (x0 : Vec F S2000x64 .f32) (x1 : Vec F S2000x128 .f32) (x2 : Vec F S64x384 .f32) (x3 : Vec F S1x384 .f32) (x4 : Vec F S256x128 .f32) (x5 : Vec F S1x128 .f32) (x6 : Vec F S256x128 .f32) (x7 : Vec F S1x128 .f32) (x8 : Vec F S256x128 .f32) (x9 : Vec F S1x128 .f32) (x10 : Vec F S128x64 .f32) (x11 : Vec F S1x64 .f32) : Vec F S2000x128 .f32 :=
  View.canon [⟨r0_0, k0_pay1 (View.ld x1 r0_0) (k0_pay4 (View.ld x0 r0_1) (View.ld x2 r0_2) (View.ld x3 r0_3)) (k0_pay5 (View.ld x8 r0_4)) (k0_pay7 (View.ld x1 r0_0) (View.ld x0 r0_1) (View.ld x2 r0_2) (View.ld x3 r0_3) (View.ld x4 r0_4) (View.ld x5 r0_6)) (k0_pay8 (View.ld x1 r0_0) (View.ld x0 r0_1) (View.ld x2 r0_2) (View.ld x3 r0_3) (View.ld x6 r0_4)) (k0_pay9 (View.ld x7 r0_6)) (View.ld x9 r0_6)⟩]

/-- Window 13's staging buffer after the body, from the input windows' blocks: its one store, of the whole buffer. -/
def out0_13 (x0 : Vec F S2000x64 .f32) (x1 : Vec F S2000x128 .f32) (x2 : Vec F S64x384 .f32) (x3 : Vec F S1x384 .f32) (x4 : Vec F S256x128 .f32) (x5 : Vec F S1x128 .f32) (x6 : Vec F S256x128 .f32) (x7 : Vec F S1x128 .f32) (x8 : Vec F S256x128 .f32) (x9 : Vec F S1x128 .f32) (x10 : Vec F S128x64 .f32) (x11 : Vec F S1x64 .f32) : Vec F S2000x64 .f32 :=
  View.canon [⟨r0_1, k0_pay2 (View.ld x1 r0_0) (k0_pay4 (View.ld x0 r0_1) (View.ld x2 r0_2) (View.ld x3 r0_3)) (k0_pay5 (View.ld x8 r0_4)) (k0_pay6 (View.ld x10 r0_5)) (k0_pay7 (View.ld x1 r0_0) (View.ld x0 r0_1) (View.ld x2 r0_2) (View.ld x3 r0_3) (View.ld x4 r0_4) (View.ld x5 r0_6)) (k0_pay8 (View.ld x1 r0_0) (View.ld x0 r0_1) (View.ld x2 r0_2) (View.ld x3 r0_3) (View.ld x6 r0_4)) (k0_pay9 (View.ld x7 r0_6)) (View.ld x9 r0_6) (View.ld x11 r0_7)⟩]

/-- The one store covers window 12's buffer, -/
theorem cover0_12 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- and the one store covers window 13's. -/
theorem cover0_13 (p0 : Vec F S2000x64 .f32) (y : S2000x64.Idx) :
    ∃ pc ∈ ([⟨r0_1, p0⟩] : List (View.Piece (Elt F) S2000x64 .f32)), y ∈ pc.1.set :=
  View.cover_of_tiled [⟨r0_1, p0⟩] S2000x64.size (by rfl) y

/-! ## The body's triple -/

set_option maxHeartbeats 4000000 in
/-- The body on whole staging memrefs, the inputs' at read contents `xW` and the outputs' at anything, runs to the
    continuation holding the inputs' as they were and the outputs' at `out0_12` and `out0_13` of the inputs': the two
    printed functions are their skeletons, run symbolically through the call of the first part. -/
theorem sound_kernel (c : Dev nD) (E : Set ℕ) (i : grid0.Coords) (arg1 : Memref sig .tc .vmem S2000x64 .f32) (harg1 : arg1.IsWhole) (arg2 : Memref sig .tc .vmem S2000x128 .f32) (harg2 : arg2.IsWhole) (arg3 : Memref sig .tc .vmem S64x384 .f32) (harg3 : arg3.IsWhole) (arg4 : Memref sig .tc .vmem S1x384 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S2000x128 .f32) (harg13 : arg13.IsWhole) (arg14 : Memref sig .tc .vmem S2000x64 .f32) (harg14 : arg14.IsWhole)
    (x0 : Vec F S2000x64 .f32) (x1 : Vec F S2000x128 .f32) (x2 : Vec F S64x384 .f32) (x3 : Vec F S1x384 .f32) (x4 : Vec F S256x128 .f32) (x5 : Vec F S1x128 .f32) (x6 : Vec F S256x128 .f32) (x7 : Vec F S1x128 .f32) (x8 : Vec F S256x128 .f32) (x9 : Vec F S1x128 .f32) (x10 : Vec F S128x64 .f32) (x11 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The pipeline's proof data -/

/-- The proof data of the pipeline on core `c`: the arrays as the region finds them (`V`); after the body at point `t`
    each input's buffer at its block and each output's at `out0_W` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents, by projecting the definition (`V` is never unfolded). -/
theorem A_eq (c : Dev nD) (w : Fin cfg0.W) : (dats m 0 c).A w = V m c (Pipeline.arrRef spec0 w) := by
  dsimp only [dats]

/-- What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks (`before0_W`), so `sound_kernel` applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.HFrame.run_main' depends on axioms: [propext, Classical.choice, Quot.sound] -/
#guard_msgs in #print axioms run_main

/-- The frame: @main runs (terminates, no fault) and its argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.HFrame

end
-- ==== Proof.Spec.lean ====
import Idealize.ShloMosaic.PureOps.Ideal
import Idealize.ShloMosaic.Lib.ValueIdx

/-!
# One gated recurrent step on a graph, row by row

Every output row n of the two results depends on row n of the hidden state, on row n of three graph
convolutions (one per gate) and on the dense weights. This file states that dependence once, on the extended
reals, for both programs to be compared with.

* `cat a b` lays two rows of 128 side by side;
* `lin v W b` is a row times a matrix plus a bias row;
* `sig`, `cand`, `newH`, `outY` are the update gate / reset gate, the candidate state, the new hidden row
  z · h + (1 − z) · h̃ and the output head max(h', 0) · W + b;
* `gcn` is one row of a graph convolution in the order "project, then aggregate": the bias plus the sum, over
  the edges landing on node n, of the edge's weight times the projected feature row of its source node.
-/

noncomputable section

namespace Cert.Gru

open Idealize.ShloMosaic Idealize.ShloMosaic.ValueIdx
open scoped BigOperators

/-- A matrix and a vector of extended reals, indexed as arrays of literal shape are. -/
abbrev Mat (r c : Nat) := (⟨2, ![r, c]⟩ : Shape).Idx → EReal
abbrev Vc (n : Nat) := (⟨1, ![n]⟩ : Shape).Idx → EReal

/-- The float words 1.0 and 0.0 read as extended reals. -/
abbrev one : EReal := Ideal.ofBits .f32 0x3F800000#32
abbrev zero : EReal := Ideal.ofBits .f32 0x00000000#32

/-- Two rows of 128 side by side. -/
def cat (a b : Fin 128 → EReal) (k : Fin 256) : EReal :=
  if h : k.val < 128 then a ⟨k.val, h⟩ else b ⟨k.val - 128, by have := k.isLt; omega⟩

theorem cat_left (a b : Fin 128 → EReal) (k : Fin 256) (h : k.val < 128) : cat a b k = a ⟨k.val, h⟩ := by
  unfold cat; rw [dif_pos h]

theorem cat_right (a b : Fin 128 → EReal) (k : Fin 256) (h : 128 ≤ k.val) :
    cat a b k = b ⟨k.val - 128, by have := k.isLt; omega⟩ := by
  unfold cat; rw [dif_neg (Nat.not_lt.2 h)]

/-- A row times a matrix, plus a bias row. -/
def lin {K J : Nat} (v : Fin K → EReal) (W : Mat K J) (b : Vc J) (j : Fin J) : EReal :=
  (∑ k : Fin K, v k * W (ix2 k j)) + b (ix1 j)

/-- A gate: the logistic function of the dense layer applied to [g | h]. -/
def sig (g h : Fin 128 → EReal) (W : Mat 256 128) (b : Vc 128) (j : Fin 128) : EReal :=
  Ideal.logistic (lin (cat g h) W b j)

/-- The candidate state: tanh of the dense layer applied to [g | h ⊙ r]. -/
def cand (g h r : Fin 128 → EReal) (W : Mat 256 128) (b : Vc 128) (j : Fin 128) : EReal :=
  Ideal.tanh (lin (cat g (fun k => h k * r k)) W b j)

/-- The new hidden row z ⊙ h + (1 − z) ⊙ h̃. -/
def newH (gz gr gh h : Fin 128 → EReal) (Lz Lr Lh : Mat 256 128) (bz br bh : Vc 128) (j : Fin 128) : EReal :=
  sig gz h Lz bz j * h j + (one - sig gz h Lz bz j) * cand gh h (sig gr h Lr br) Lh bh j

/-- The output head max(h', 0) · W + b. -/
def outY (nh : Fin 128 → EReal) (Lo : Mat 128 64) (bo : Vc 64) (j : Fin 64) : EReal :=
  lin (fun k => max (nh k) zero) Lo bo j

/-- One row of a graph convolution, projecting first: the bias plus, over the edges `S` landing on the node,
    the edge weight times the projected feature row of the edge's source node. -/
def gcn {E N : Nat} (a : Fin E → EReal) (srow : Fin E → Fin N) (S : Finset (Fin E)) (X : Mat N 64) (W : Mat 64 128)
    (b : Vc 128) (j : Fin 128) : EReal :=
  (zero + ∑ e ∈ S, a e * ∑ k : Fin 64, X (ix2 (srow e) k) * W (ix2 k j)) + b (ix1 j)

end Cert.Gru

end
-- ==== Proof.LibCat.lean ====
import Idealize.ShloMosaic.Lib.Pipeline.Value
import proofs.«163961_j14181982011590_2_alg».proof.Proof.Spec

/-!
# Two blocks of 128 columns side by side, read at an entry

Joining an [n, 128] array and another along the column axis gives an [n, 256] array whose row p is the two
rows p laid side by side.
-/

noncomputable section

namespace Cert.CatRows

open Idealize.ShloMosaic Idealize.ShloMosaic.ValueIdx

/-- Entry (p, k) of the joined array is entry k of the two rows p laid side by side. -/
theorem cat_apply {n : Nat}
    (h : Shape.Concatenates [(⟨2, ![n, 128]⟩ : Shape), ⟨2, ![n, 128]⟩] ⟨2, ![n, 256]⟩ 1)
    (a b : (⟨2, ![n, 128]⟩ : Shape).Idx → EReal) (p : Fin n) (k : Fin 256) :
    concatenate (⟨2, ![n, 256]⟩ : Shape) 1 [⟨⟨2, ![n, 128]⟩, a⟩, ⟨⟨2, ![n, 128]⟩, b⟩] h (ix2 p k)
      = Cert.Gru.cat (fun c => a (ix2 p c)) (fun c => b (ix2 p c)) k := by
  by_cases hk : k.val < 128
  · rw [Cert.Gru.cat_left _ _ k hk]
    refine concatenate_pair_apply_left (1 : Fin 2) a b h (ix2 p k) rfl (ix2 p ⟨k.val, hk⟩) ?_
    intro d
    match d with
    | ⟨0, _⟩ => rfl
    | ⟨1, _⟩ => rfl
  · have hk' : 128 ≤ k.val := Nat.not_lt.mp hk
    rw [Cert.Gru.cat_right _ _ k hk']
    refine concatenate_pair_apply_right (1 : Fin 2) a b h (ix2 p k) rfl rfl
      (ix2 p ⟨k.val - 128, by have := k.isLt; omega⟩) ?_ ?_
    · intro d hd
      match d with
      | ⟨0, _⟩ => rfl
      | ⟨1, _⟩ => exact absurd rfl hd
    · show (k.val - 128) + 128 = k.val
      omega

end Cert.CatRows

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.KPay.lean ====
import proofs.«163961_j14181982011590_2_alg».proof.Proof.Gen.KernelIdeal.Skeleton
import proofs.«163961_j14181982011590_2_alg».proof.Proof.Spec
import proofs.«163961_j14181982011590_2_alg».proof.Proof.LibCat
import proofs.«163961_j14181982011590_2_alg».proof.Proof.LibPlainDot
import Idealize.ShloMosaic.Lib.Pipeline.Value
import Idealize.ShloMosaic.Lib.ValueLayout

/-!
# What the kernel's body computes for one tile of 2000 rows, entry by entry

The body multiplies the tile of aggregated features by the three gates' projection matrices laid side by
side ([64, 384]) and adds the joined bias row; columns o … o + 127 of that product (o = 0, 128, 256) are the
graph-convolution rows of the update gate, the reset gate and the candidate. From there on it is the gated
recurrent step of `Cert.Gru`, row by row: every rounding to a shorter float format is the identity on the
extended reals, and each matrix product is a plain sum.
-/

set_option maxRecDepth 16384

noncomputable section

namespace Cert.KernelIdeal.KPay

open Cert.KernelIdeal Cert.KernelIdeal.Gen Idealize.ShloMosaic Idealize.ShloMosaic.ValueIdx Cert.Gru
open scoped BigOperators

/-- The body's three matrix products are plain ones (rows × contraction by contraction × columns). -/
theorem dot1 : dot_S2000x64_S64x384_S2000x384_1_0_0_1_n_n = DotDims.plain 2000 64 384 := rfl
theorem dot2 : dot_S2000x256_S256x128_S2000x128_1_0_0_1_n_n = DotDims.plain 2000 256 128 := rfl
theorem dot3 : dot_S2000x128_S128x64_S2000x64_1_0_0_1_n_n = DotDims.plain 2000 128 64 := rfl

/-- A bias row stored as a [1, C] block, as a vector of C entries. -/
def biasRow {C : Nat} (b : Mat 1 C) : Vc C := fun i => b (ix2 (0 : Fin 1) (i 0))

/-- Row p of the aggregated tile times columns o … o + 127 of the joined projection, plus that stretch of
    the joined bias: the graph-convolution row of one gate, aggregating first. -/
def gK {M : Nat} (x0 : Mat M 64) (x2 : Mat 64 384) (x3 : Mat 1 384)
    (o : Nat) (ho : o + 128 ≤ 384) (p : Fin M) (j : Fin 128) : EReal :=
  (∑ k : Fin 64, x0 (ix2 p k) * x2 (ix2 k (⟨o + j.val, by have := j.isLt; omega⟩ : Fin 384)))
    + x3 (ix2 (0 : Fin 1) (⟨o + j.val, by have := j.isLt; omega⟩ : Fin 384))

/-- The joint projection plus bias at an entry. -/
theorem pay3_apply (v1 : FVec Ideal S2000x64 .f32) (v4 : FVec Ideal S64x384 .f32) (v8 : FVec Ideal S1x384 .f32)
    (p : Fin 2000) (c : Fin 384) :
    k0_pay3 (F := Ideal) v1 v4 v8 (ix2 p c)
      = (∑ k : Fin 64, v1 (ix2 p k) * v4 (ix2 k c)) + v8 (ix2 (0 : Fin 1) c) := by
  unfold k0_pay3
  show (matmul dot_S2000x64_S64x384_S2000x384_1_0_0_1_n_n none
        (truncf .bf16 (shapeCast S2000x64 v1 shapeCasts_S2000x64_S2000x64) bitsLt_bf16_f32)
        (truncf .bf16 (shapeCast S64x384 v4 shapeCasts_S64x384_S64x384) bitsLt_bf16_f32)
        (constant (F := Ideal) S2000x384 .f32 0x00000000#32)) (ix2 p c)
      + broadcastTo S2000x384 (shapeCast S1x384 v8 shapeCasts_S1x384_S1x384) broadcasts_S1x384_S2000x384 (ix2 p c) = _
  rw [shapeCast_self, shapeCast_self, shapeCast_self, broadcastTo_1b_ab_apply]
  congr 1
  exact Cert.PlainDot.matmul_zero_apply 2000 64 384 none _ _ p c

/-- A slice of 128 columns at column offset o, at an entry. -/
theorem slice_apply (o : Nat) (ho : o + 128 ≤ 384) (x : FVec Ideal S2000x384 .f32)
    (h : S2000x384.Slices ![0, o] S2000x128) (p : Fin 2000) (j : Fin 128) :
    extractStridedSlice S2000x128 ![0, o] x h (ix2 p j)
      = x (ix2 p (⟨o + j.val, by have := j.isLt; omega⟩ : Fin 384)) :=
  extractStridedSlice_apply ![0, o] x h (ix2 p j) (ix2 p (⟨o + j.val, by have := j.isLt; omega⟩ : Fin 384))
    (fun a => match a with
      | ⟨0, _⟩ => by show p.val = 0 + p.val; omega
      | ⟨1, _⟩ => by show o + j.val = o + j.val; rfl)

/-- The slice of the joint projection at offset o is the gate's graph-convolution row. -/
theorem gate_cols (v1 : FVec Ideal S2000x64 .f32) (v4 : FVec Ideal S64x384 .f32) (v8 : FVec Ideal S1x384 .f32)
    (o : Nat) (ho : o + 128 ≤ 384) (h : S2000x384.Slices ![0, o] S2000x128) (p : Fin 2000) (j : Fin 128) :
    extractStridedSlice S2000x128 ![0, o] (k0_pay3 (F := Ideal) v1 v4 v8) h (ix2 p j) = gK v1 v4 v8 o ho p j :=
  (slice_apply o ho _ h p j).trans (pay3_apply v1 v4 v8 p _)

/-- A dense layer of the body on [g | h], bias added, at an entry. -/
theorem dense_apply (g h : FVec Ideal S2000x128 .f32) (W : FVec Ideal S256x128 .f32) (b : FVec Ideal S1x128 .f32)
    (p : Fin 2000) (j : Fin 128) :
    addf (matmul dot_S2000x256_S256x128_S2000x128_1_0_0_1_n_n none
          (truncf .bf16 (concatenate S2000x256 1 [⟨S2000x128, g⟩, ⟨S2000x128, h⟩] concatenates_S2000x128_S2000x128_S2000x256_d1) bitsLt_bf16_f32)
          (truncf .bf16 W bitsLt_bf16_f32) (constant (F := Ideal) S2000x128 .f32 0x00000000#32))
        (broadcastTo S2000x128 (shapeCast S1x128 b shapeCasts_S1x128_S1x128) broadcasts_S1x128_S2000x128) (ix2 p j)
      = lin (cat (fun c => g (ix2 p c)) (fun c => h (ix2 p c))) W (biasRow b) j := by
  show (matmul dot_S2000x256_S256x128_S2000x128_1_0_0_1_n_n none
          (truncf .bf16 (concatenate S2000x256 1 [⟨S2000x128, g⟩, ⟨S2000x128, h⟩] concatenates_S2000x128_S2000x128_S2000x256_d1) bitsLt_bf16_f32)
          (truncf .bf16 W bitsLt_bf16_f32) (constant (F := Ideal) S2000x128 .f32 0x00000000#32)) (ix2 p j)
        + broadcastTo S2000x128 (shapeCast S1x128 b shapeCasts_S1x128_S1x128) broadcasts_S1x128_S2000x128 (ix2 p j) = _
  rw [shapeCast_self, broadcastTo_1b_ab_apply]
  unfold lin
  congr 1
  refine (Cert.PlainDot.matmul_zero_apply 2000 256 128 none _ _ p j).trans ?_
  refine Finset.sum_congr rfl fun k _ => ?_
  congr 1
  exact Cert.CatRows.cat_apply concatenates_S2000x128_S2000x128_S2000x256_d1 g h p k

/-- A row of a hidden-state array. -/
def hrow {M : Nat} (x1 : Mat M 128) (p : Fin M) : Fin 128 → EReal := fun k => x1 (ix2 p k)

/-- The update gate of the tile at an entry. -/
theorem z_apply (x0 : FVec Ideal S2000x64 .f32) (x1 : FVec Ideal S2000x128 .f32) (x2 : FVec Ideal S64x384 .f32)
    (x3 : FVec Ideal S1x384 .f32) (x4 : FVec Ideal S256x128 .f32) (x5 : FVec Ideal S1x128 .f32) (p : Fin 2000) (j : Fin 128) :
    k0_pay7 (F := Ideal) x1 x0 x2 x3 x4 x5 (ix2 p j)
      = Cert.Gru.sig (gK x0 x2 x3 0 (by omega) p) (hrow x1 p) x4 (biasRow x5) j := by
  have h := dense_apply (extractStridedSlice S2000x128 ![0, 0] (k0_pay3 (F := Ideal) x0 x2 x3) slices_S2000x384_o0_0_S2000x128)
    x1 x4 x5 p j
  have e : (fun c => extractStridedSlice S2000x128 ![0, 0] (k0_pay3 (F := Ideal) x0 x2 x3) slices_S2000x384_o0_0_S2000x128 (ix2 p c))
      = gK x0 x2 x3 0 (by omega) p := funext fun c => gate_cols x0 x2 x3 0 (by omega) _ p c
  rw [e] at h
  exact congrArg Ideal.logistic h

/-- The reset gate of the tile at an entry. -/
theorem r_apply (x0 : FVec Ideal S2000x64 .f32) (x1 : FVec Ideal S2000x128 .f32) (x2 : FVec Ideal S64x384 .f32)
    (x3 : FVec Ideal S1x384 .f32) (x6 : FVec Ideal S256x128 .f32) (x7 : FVec Ideal S1x128 .f32) (p : Fin 2000) (j : Fin 128) :
    logistic (addf (k0_pay8 (F := Ideal) x1 x0 x2 x3 x6)
        (broadcastTo S2000x128 (k0_pay9 (F := Ideal) x7) broadcasts_S1x128_S2000x128)) (ix2 p j)
      = Cert.Gru.sig (gK x0 x2 x3 128 (by omega) p) (hrow x1 p) x6 (biasRow x7) j := by
  have h := dense_apply (extractStridedSlice S2000x128 ![0, 128] (k0_pay3 (F := Ideal) x0 x2 x3) slices_S2000x384_o0_128_S2000x128)
    x1 x6 x7 p j
  have e : (fun c => extractStridedSlice S2000x128 ![0, 128] (k0_pay3 (F := Ideal) x0 x2 x3) slices_S2000x384_o0_128_S2000x128 (ix2 p c))
      = gK x0 x2 x3 128 (by omega) p := funext fun c => gate_cols x0 x2 x3 128 (by omega) _ p c
  rw [e] at h
  exact congrArg Ideal.logistic h

/-- The candidate state of the tile at an entry, for any reset gate R. -/
theorem cand_apply (x0 : FVec Ideal S2000x64 .f32) (x1 : FVec Ideal S2000x128 .f32) (x2 : FVec Ideal S64x384 .f32)
    (x3 : FVec Ideal S1x384 .f32) (x8 : FVec Ideal S256x128 .f32) (x9 : FVec Ideal S1x128 .f32)
    (R : FVec Ideal S2000x128 .f32) (p : Fin 2000) (j : Fin 128) :
    tanh (addf (matmul dot_S2000x256_S256x128_S2000x128_1_0_0_1_n_n none
          (truncf .bf16 (concatenate S2000x256 1 [⟨S2000x128, k0_pay4 (F := Ideal) x0 x2 x3⟩, ⟨S2000x128, mulf x1 R⟩]
            concatenates_S2000x128_S2000x128_S2000x256_d1) bitsLt_bf16_f32)
          (k0_pay5 (F := Ideal) x8) (constant (F := Ideal) S2000x128 .f32 0x00000000#32))
        (broadcastTo S2000x128 (shapeCast S1x128 x9 shapeCasts_S1x128_S1x128) broadcasts_S1x128_S2000x128)) (ix2 p j)
      = cand (gK x0 x2 x3 256 (by omega) p) (hrow x1 p) (fun k => R (ix2 p k)) x8 (biasRow x9) j := by
  have h := dense_apply (k0_pay4 (F := Ideal) x0 x2 x3) (mulf x1 R) x8 x9 p j
  have e : (fun c => k0_pay4 (F := Ideal) x0 x2 x3 (ix2 p c)) = gK x0 x2 x3 256 (by omega) p :=
    funext fun c => gate_cols x0 x2 x3 256 (by omega) slices_S2000x384_o0_256_S2000x128 p c
  rw [e] at h
  exact congrArg Ideal.tanh h

/-- The new hidden rows of the tile: what the body stores into the first output block. -/
theorem h_apply (x0 : FVec Ideal S2000x64 .f32) (x1 : FVec Ideal S2000x128 .f32) (x2 : FVec Ideal S64x384 .f32)
    (x3 : FVec Ideal S1x384 .f32) (x4 : FVec Ideal S256x128 .f32) (x5 : FVec Ideal S1x128 .f32)
    (x6 : FVec Ideal S256x128 .f32) (x7 : FVec Ideal S1x128 .f32) (x8 : FVec Ideal S256x128 .f32)
    (x9 : FVec Ideal S1x128 .f32) (p : Fin 2000) (j : Fin 128) :
    k0_pay1 (F := Ideal) x1 (k0_pay4 x0 x2 x3) (k0_pay5 x8) (k0_pay7 x1 x0 x2 x3 x4 x5) (k0_pay8 x1 x0 x2 x3 x6)
        (k0_pay9 x7) x9 (ix2 p j)
      = newH (gK x0 x2 x3 0 (by omega) p) (gK x0 x2 x3 128 (by omega) p) (gK x0 x2 x3 256 (by omega) p) (hrow x1 p)
          x4 x6 x8 (biasRow x5) (biasRow x7) (biasRow x9) j := by
  have hz := z_apply x0 x1 x2 x3 x4 x5 p j
  have hc := cand_apply x0 x1 x2 x3 x8 x9
    (logistic (addf (k0_pay8 (F := Ideal) x1 x0 x2 x3 x6)
      (broadcastTo S2000x128 (k0_pay9 (F := Ideal) x7) broadcasts_S1x128_S2000x128))) p j
  have er : (fun k => logistic (addf (k0_pay8 (F := Ideal) x1 x0 x2 x3 x6)
      (broadcastTo S2000x128 (k0_pay9 (F := Ideal) x7) broadcasts_S1x128_S2000x128)) (ix2 p k))
      = Cert.Gru.sig (gK x0 x2 x3 128 (by omega) p) (hrow x1 p) x6 (biasRow x7) := funext fun k => r_apply x0 x1 x2 x3 x6 x7 p k
  rw [er] at hc
  unfold newH
  rw [← hz, ← hc]
  rfl

/-- The output rows of the tile: what the body stores into the second output block. -/
theorem y_apply (x0 : FVec Ideal S2000x64 .f32) (x1 : FVec Ideal S2000x128 .f32) (x2 : FVec Ideal S64x384 .f32)
    (x3 : FVec Ideal S1x384 .f32) (x4 : FVec Ideal S256x128 .f32) (x5 : FVec Ideal S1x128 .f32)
    (x6 : FVec Ideal S256x128 .f32) (x7 : FVec Ideal S1x128 .f32) (x8 : FVec Ideal S256x128 .f32)
    (x9 : FVec Ideal S1x128 .f32) (x10 : FVec Ideal S128x64 .f32) (x11 : FVec Ideal S1x64 .f32)
    (p : Fin 2000) (j : Fin 64) :
    k0_pay2 (F := Ideal) x1 (k0_pay4 x0 x2 x3) (k0_pay5 x8) (k0_pay6 x10) (k0_pay7 x1 x0 x2 x3 x4 x5)
        (k0_pay8 x1 x0 x2 x3 x6) (k0_pay9 x7) x9 x11 (ix2 p j)
      = outY (newH (gK x0 x2 x3 0 (by omega) p) (gK x0 x2 x3 128 (by omega) p) (gK x0 x2 x3 256 (by omega) p) (hrow x1 p)
          x4 x6 x8 (biasRow x5) (biasRow x7) (biasRow x9)) x10 (biasRow x11) j := by
  show (matmul dot_S2000x128_S128x64_S2000x64_1_0_0_1_n_n none
        (truncf .bf16 (maximumf (k0_pay1 (F := Ideal) x1 (k0_pay4 x0 x2 x3) (k0_pay5 x8) (k0_pay7 x1 x0 x2 x3 x4 x5)
            (k0_pay8 x1 x0 x2 x3 x6) (k0_pay9 x7) x9)
          (broadcast S2000x128 (Scalar.ofBits (F := Ideal) .f32 0x00000000#32))) bitsLt_bf16_f32)
        (k0_pay6 (F := Ideal) x10) (constant (F := Ideal) S2000x64 .f32 0x00000000#32)) (ix2 p j)
      + broadcastTo S2000x64 (shapeCast S1x64 x11 shapeCasts_S1x64_S1x64) broadcasts_S1x64_S2000x64 (ix2 p j) = _
  rw [shapeCast_self, broadcastTo_1b_ab_apply]
  unfold outY lin
  congr 1
  refine (Cert.PlainDot.matmul_zero_apply 2000 128 64 none _ _ p j).trans ?_
  refine Finset.sum_congr rfl fun k _ => ?_
  show max (k0_pay1 (F := Ideal) x1 (k0_pay4 x0 x2 x3) (k0_pay5 x8) (k0_pay7 x1 x0 x2 x3 x4 x5)
      (k0_pay8 x1 x0 x2 x3 x6) (k0_pay9 x7) x9 (ix2 p k)) (Ideal.ofBits .f32 0x00000000#32) * x10 (ix2 k j) = _
  rw [h_apply]

end Cert.KernelIdeal.KPay

end
-- ==== Proof.KValue.lean ====
import proofs.«163961_j14181982011590_2_alg».proof.Proof.FrameKI
import proofs.«163961_j14181982011590_2_alg».proof.Proof.KPay
import Idealize.ShloMosaic.Lib.Pipeline.Value

/-!
# From tiles to arrays

Grid point t handles rows 2000·t … 2000·t + 1999: its tiles of the aggregated features, of the hidden state
and of both results are those rows, and every weight and bias is handed over whole at every point. So what
point t writes back is the tile t of ONE whole-array function of the arrays the launch finds — the gated
recurrent step of `Cert.Gru` applied row by row — and, the 25 tiles covering all 50000 rows, each result
array ends holding that function.
-/

set_option maxRecDepth 16384

noncomputable section

namespace Cert.KernelIdeal.KValue

open Cert.KernelIdeal Cert.KernelIdeal.Gen Cert.KernelIdeal.HFrame Cert.KernelIdeal.KPay
open Idealize.ShloMosaic Idealize.ShloMosaic.TcCoe Idealize.SL.Sem Idealize.ShloMosaic.ValueIdx Cert.Gru
open Idealize.ShloMosaic.Pipeline (Dat)

variable (m : (ℓ : Loc nD τ sig) → Buf (Elt Ideal) ℓ) (ρ : Dev nD → PrngReg)

/-- Row n of the new hidden state, from the arrays the launch finds: aggregated features [50000, 64], hidden
    state, joined projection [64, 384] and joined bias [1, 384], the three gate layers and their bias rows. -/
def hRow (A0 : Mat 50000 64) (A1 : Mat 50000 128) (A2 : Mat 64 384) (A3 : Mat 1 384) (A4 : Mat 256 128) (A5 : Mat 1 128)
    (A6 : Mat 256 128) (A7 : Mat 1 128) (A8 : Mat 256 128) (A9 : Mat 1 128) (n : Fin 50000) : Fin 128 → EReal :=
  newH (gK A0 A2 A3 0 (by omega) n) (gK A0 A2 A3 128 (by omega) n) (gK A0 A2 A3 256 (by omega) n) (hrow A1 n)
    A4 A6 A8 (biasRow A5) (biasRow A7) (biasRow A9)

/-- The first result as one function of those arrays. -/
def Gh (A0 : Mat 50000 64) (A1 : Mat 50000 128) (A2 : Mat 64 384) (A3 : Mat 1 384) (A4 : Mat 256 128) (A5 : Mat 1 128)
    (A6 : Mat 256 128) (A7 : Mat 1 128) (A8 : Mat 256 128) (A9 : Mat 1 128) : Mat 50000 128 :=
  fun i => hRow A0 A1 A2 A3 A4 A5 A6 A7 A8 A9 ⟨(i 0).val, idx2_lt0 i⟩ ⟨(i 1).val, idx2_lt1 i⟩

/-- The second result as one function of those arrays and the output layer. -/
def Gy (A0 : Mat 50000 64) (A1 : Mat 50000 128) (A2 : Mat 64 384) (A3 : Mat 1 384) (A4 : Mat 256 128) (A5 : Mat 1 128)
    (A6 : Mat 256 128) (A7 : Mat 1 128) (A8 : Mat 256 128) (A9 : Mat 1 128) (A10 : Mat 128 64) (A11 : Mat 1 64) : Mat 50000 64 :=
  fun i => outY (hRow A0 A1 A2 A3 A4 A5 A6 A7 A8 A9 ⟨(i 0).val, idx2_lt0 i⟩) A10 (biasRow A11) ⟨(i 1).val, idx2_lt1 i⟩

theorem hz : (![0, 0] : Fin 2 → Nat) = fun _ => 0 := funext fun a => by fin_cases a <;> rfl

/-- The printed index maps over the grid: the four tiled windows are at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ t.val < 25 :=
  (by decide +kernel : ∀ t : Fin grid0.N, _)

/-- Every tile index is some grid point's. -/
theorem idx_onto : ∀ q : Fin 25, ∃ t : Fin cfg0.N, t.val = q.val :=
  (by decide +kernel : ∀ q : Fin 25, ∃ t : Fin grid0.N, t.val = q.val)

/-- The row of the arrays that row p of tile t is. -/
def rowOf (t : Fin cfg0.N) (p : Fin 2000) : Fin 50000 :=
  ⟨2000 * t.val + p.val, by have := (idx_facts t).2.2.2.2.2.2.2.2.2.2.2.2.2.2.2.2.2.2.2.2.2.2.2.2.2.2.2.2; have := p.isLt; omega⟩

/-! ## The input tiles are rows of the arrays, the weights are whole

Stated for ANY contents `W` of the unscoped buffers at the launch: nothing here depends on what they are. -/

section AnyContents
variable {c : Dev nD} (W : (b : Ref sig .tc) → Buf (Elt Ideal) ((c : Thread nD τ).loc b))

/-- Window w's tile at point t, read off its array's contents. -/
def blkOf (w : Fin cfg0.W) (t : Fin cfg0.N) : ((cfg0.win w).xblock (cfg0.grid.coords t)).Idx → Elt Ideal (cfg0.win w).elt :=
  ((cfg0.win w).blk t).view.read (Elt Ideal) (W (Pipeline.arrRef spec0 w))

theorem blk0 (t : Fin cfg0.N) (p : Fin 2000) (k : Fin 64) :
    blkOf W 0 t (ix2 p k) = W main_v44 (ix2 (rowOf t p) k) := by
  show W main_v44 (((cfg0.win 0).blk t).view.emb (ix2 p k)) = _
  refine congrArg (W main_v44) (funext fun a => Fin.ext ?_)
  obtain ⟨e0, e1, -⟩ := idx_facts t
  match a with
  | ⟨0, _⟩ => show win0_0.index t (0 : Fin 2) * 2000 + 1 * p.val = 2000 * t.val + p.val; omega
  | ⟨1, _⟩ => show win0_0.index t (1 : Fin 2) * 64 + 1 * k.val = k.val; omega

theorem blk1 (t : Fin cfg0.N) (p : Fin 2000) (k : Fin 128) :
    blkOf W 1 t (ix2 p k) = W main_arg3 (ix2 (rowOf t p) k) := by
  show W main_arg3 (((cfg0.win 1).blk t).view.emb (ix2 p k)) = _
  refine congrArg (W main_arg3) (funext fun a => Fin.ext ?_)
  obtain ⟨-, -, e0, e1, -⟩ := idx_facts t
  match a with
  | ⟨0, _⟩ => show win0_1.index t (0 : Fin 2) * 2000 + 1 * p.val = 2000 * t.val + p.val; omega
  | ⟨1, _⟩ => show win0_1.index t (1 : Fin 2) * 128 + 1 * k.val = k.val; omega

theorem blk2 (t : Fin cfg0.N) : blkOf W 2 t = W main_v45 := by
  funext y
  show W main_v45 (((cfg0.win 2).blk t).view.emb y) = _
  refine congrArg (W main_v45) (funext fun a => Fin.ext ?_)
  obtain ⟨-, -, -, -, e0, e1, -⟩ := idx_facts t
  match a with
  | ⟨0, _⟩ => show win0_2.index t (0 : Fin 2) * 64 + 1 * (y 0).val = (y 0).val; omega
  | ⟨1, _⟩ => show win0_2.index t (1 : Fin 2) * 384 + 1 * (y 1).val = (y 1).val; omega

theorem blk3 (t : Fin cfg0.N) : blkOf W 3 t = W main_v47 := by
  funext y
  show W main_v47 (((cfg0.win 3).blk t).view.emb y) = _
  refine congrArg (W main_v47) (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 384 + 1 * (y 1).val = (y 1).val; omega

theorem blk4 (t : Fin cfg0.N) : blkOf W 4 t = W main_arg10 := by
  funext y
  show W main_arg10 (((cfg0.win 4).blk t).view.emb y) = _
  refine congrArg (W main_arg10) (funext fun a => Fin.ext ?_)
  obtain ⟨-, -, -, -, -, -, -, -, e0, e1, -⟩ := idx_facts t
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem blk5 (t : Fin cfg0.N) : blkOf W 5 t = W main_v48 := by
  funext y
  show W main_v48 (((cfg0.win 5).blk t).view.emb y) = _
  refine congrArg (W main_v48) (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blk6 (t : Fin cfg0.N) : blkOf W 6 t = W main_arg12 := by
  funext y
  show W main_arg12 (((cfg0.win 6).blk t).view.emb y) = _
  refine congrArg (W main_arg12) (funext fun a => Fin.ext ?_)
  obtain ⟨-, -, -, -, -, -, -, -, -, -, -, -, e0, e1, -⟩ := idx_facts t
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem blk7 (t : Fin cfg0.N) : blkOf W 7 t = W main_v49 := by
  funext y
  show W main_v49 (((cfg0.win 7).blk t).view.emb y) = _
  refine congrArg (W main_v49) (funext fun a => Fin.ext ?_)
  obtain ⟨-, -, -, -, -, -, -, -, -, -, -, -, -, -, e0, e1, -⟩ := idx_facts t
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk8 (t : Fin cfg0.N) : blkOf W 8 t = W main_arg14 := by
  funext y
  show W main_arg14 (((cfg0.win 8).blk t).view.emb y) = _
  refine congrArg (W main_arg14) (funext fun a => Fin.ext ?_)
  obtain ⟨-, -, -, -, -, -, -, -, -, -, -, -, -, -, -, -, e0, e1, -⟩ := idx_facts t
  match a with
  | ⟨0, _⟩ => show win0_8.index t (0 : Fin 2) * 256 + 1 * (y 0).val = (y 0).val; omega
  | ⟨1, _⟩ => show win0_8.index t (1 : Fin 2) * 128 + 1 * (y 1).val = (y 1).val; omega

theorem blk9 (t : Fin cfg0.N) : blkOf W 9 t = W main_v50 := by
  funext y
  show W main_v50 (((cfg0.win 9).blk t).view.emb y) = _
  refine congrArg (W main_v50) (funext fun a => Fin.ext ?_)
  obtain ⟨-, -, -, -, -, -, -, -, -, -, -, -, -, -, -, -, -, -, e0, e1, -⟩ := idx_facts t
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem blk10 (t : Fin cfg0.N) : blkOf W 10 t = W main_arg16 := by
  funext y
  show W main_arg16 (((cfg0.win 10).blk t).view.emb y) = _
  refine congrArg (W main_arg16) (funext fun a => Fin.ext ?_)
  obtain ⟨-, -, -, -, -, -, -, -, -, -, -, -, -, -, -, -, -, -, -, -, e0, e1, -⟩ := idx_facts t
  match a with
  | ⟨0, _⟩ => show win0_10.index t (0 : Fin 2) * 128 + 1 * (y 0).val = (y 0).val; omega
  | ⟨1, _⟩ => show win0_10.index t (1 : Fin 2) * 64 + 1 * (y 1).val = (y 1).val; omega

theorem blk11 (t : Fin cfg0.N) : blkOf W 11 t = W main_v51 := by
  funext y
  show W main_v51 (((cfg0.win 11).blk t).view.emb y) = _
  refine congrArg (W main_v51) (funext fun a => Fin.ext ?_)
  obtain ⟨-, -, -, -, -, -, -, -, -, -, -, -, -, -, -, -, -, -, -, -, -, -, e0, e1, -⟩ := idx_facts t
  match a with
  | ⟨0, _⟩ => show win0_11.index t (0 : Fin 2) * 1 + 1 * (y 0).val = (y 0).val; omega
  | ⟨1, _⟩ => show win0_11.index t (1 : Fin 2) * 64 + 1 * (y 1).val = (y 1).val; omega

/-- A gate's graph-convolution row of tile t is that row of the arrays. -/
theorem gK_blk (t : Fin cfg0.N) (o : Nat) (ho : o + 128 ≤ 384) (p : Fin 2000) :
    gK (blkOf W 0 t) (blkOf W 2 t) (blkOf W 3 t) o ho p
      = gK (W main_v44) (W main_v45) (W main_v47) o ho (rowOf t p) := by
  funext j
  unfold gK
  rw [blk2, blk3]
  congr 1
  exact Finset.sum_congr rfl fun k _ => congrArg (· * _) (blk0 W t p k)

theorem hrow_blk (t : Fin cfg0.N) (p : Fin 2000) :
    hrow (blkOf W 1 t) p = hrow (W main_arg3) (rowOf t p) := funext fun k => blk1 W t p k

/-- Row p of what the body leaves in the first output tile at point t. -/
theorem out12_at (t : Fin cfg0.N) (p : Fin 2000) (j : Fin 128) :
    out0_12 (blkOf W 0 t) (blkOf W 1 t) (blkOf W 2 t) (blkOf W 3 t) (blkOf W 4 t) (blkOf W 5 t) (blkOf W 6 t)
        (blkOf W 7 t) (blkOf W 8 t) (blkOf W 9 t) (blkOf W 10 t) (blkOf W 11 t) (ix2 p j)
      = hRow (W main_v44) (W main_arg3) (W main_v45) (W main_v47) (W main_arg10) (W main_v48)
          (W main_arg12) (W main_v49) (W main_arg14) (W main_v50) (rowOf t p) j := by
  unfold out0_12
  rw [View.canon_unit_zero hz]
  simp only [View.ld_unit_zero (S := S2000x128) hz, View.ld_unit_zero (S := S2000x64) hz, View.ld_unit_zero (S := S64x384) hz,
    View.ld_unit_zero (S := S1x384) hz, View.ld_unit_zero (S := S256x128) hz, View.ld_unit_zero (S := S1x128) hz]
  refine (h_apply (blkOf W 0 t) (blkOf W 1 t) (blkOf W 2 t) (blkOf W 3 t) (blkOf W 4 t) (blkOf W 5 t) (blkOf W 6 t)
    (blkOf W 7 t) (blkOf W 8 t) (blkOf W 9 t) p j).trans ?_
  unfold hRow
  rw [gK_blk W t 0, gK_blk W t 128, gK_blk W t 256, hrow_blk W t p, blk4, blk5, blk6, blk7, blk8, blk9]

/-- Row p of what the body leaves in the second output tile at point t. -/
theorem out13_at (t : Fin cfg0.N) (p : Fin 2000) (j : Fin 64) :
    out0_13 (blkOf W 0 t) (blkOf W 1 t) (blkOf W 2 t) (blkOf W 3 t) (blkOf W 4 t) (blkOf W 5 t) (blkOf W 6 t)
        (blkOf W 7 t) (blkOf W 8 t) (blkOf W 9 t) (blkOf W 10 t) (blkOf W 11 t) (ix2 p j)
      = outY (hRow (W main_v44) (W main_arg3) (W main_v45) (W main_v47) (W main_arg10) (W main_v48)
          (W main_arg12) (W main_v49) (W main_arg14) (W main_v50) (rowOf t p)) (W main_arg16)
          (biasRow (W main_v51)) j := by
  unfold out0_13
  rw [View.canon_unit_zero hz]
  simp only [View.ld_unit_zero (S := S2000x128) hz, View.ld_unit_zero (S := S2000x64) hz, View.ld_unit_zero (S := S64x384) hz,
    View.ld_unit_zero (S := S1x384) hz, View.ld_unit_zero (S := S256x128) hz, View.ld_unit_zero (S := S1x128) hz,
    View.ld_unit_zero (S := S128x64) hz, View.ld_unit_zero (S := S1x64) hz]
  refine (y_apply (blkOf W 0 t) (blkOf W 1 t) (blkOf W 2 t) (blkOf W 3 t) (blkOf W 4 t) (blkOf W 5 t) (blkOf W 6 t)
    (blkOf W 7 t) (blkOf W 8 t) (blkOf W 9 t) (blkOf W 10 t) (blkOf W 11 t) p j).trans ?_
  unfold hRow
  rw [gK_blk W t 0, gK_blk W t 128, gK_blk W t 256, hrow_blk W t p, blk4, blk5, blk6, blk7, blk8, blk9, blk10, blk11]

end AnyContents

/-! ## What each point writes back, and the arrays after the run -/

theorem Gh_ix2 (A0 : Mat 50000 64) (A1 : Mat 50000 128) (A2 : Mat 64 384) (A3 : Mat 1 384) (A4 : Mat 256 128) (A5 : Mat 1 128)
    (A6 : Mat 256 128) (A7 : Mat 1 128) (A8 : Mat 256 128) (A9 : Mat 1 128) (n : Fin 50000) (j : Fin 128) :
    Gh A0 A1 A2 A3 A4 A5 A6 A7 A8 A9 (ix2 n j) = hRow A0 A1 A2 A3 A4 A5 A6 A7 A8 A9 n j := rfl

theorem Gy_ix2 (A0 : Mat 50000 64) (A1 : Mat 50000 128) (A2 : Mat 64 384) (A3 : Mat 1 384) (A4 : Mat 256 128) (A5 : Mat 1 128)
    (A6 : Mat 256 128) (A7 : Mat 1 128) (A8 : Mat 256 128) (A9 : Mat 1 128) (A10 : Mat 128 64) (A11 : Mat 1 64)
    (n : Fin 50000) (j : Fin 64) :
    Gy A0 A1 A2 A3 A4 A5 A6 A7 A8 A9 A10 A11 (ix2 n j)
      = outY (hRow A0 A1 A2 A3 A4 A5 A6 A7 A8 A9 n) A10 (biasRow A11) j := rfl

/-- The contents of the unscoped buffers when the region is entered, under a name that is never opened below:
    what they are (the host operations before the region, applied) is read elsewhere. -/
def Arr (c : Dev nD) (b : Ref sig .tc) : Buf (Elt Ideal) ((c : Thread nD τ).loc b) := V m c b

theorem Arr_eq (c : Dev nD) (b : Ref sig .tc) : Arr m c b = V m c b := rfl

theorem iblk_eq (c : Dev nD) (w : Fin cfg0.W) (t : Fin cfg0.N) : iblk m c w t = blkOf (Arr m c) w t := rfl

attribute [irreducible] Arr

/-- The first result array as the launch's arrays determine it. -/
def hArr (c : Dev nD) : Mat 50000 128 := Gh (Arr m c main_v44) (Arr m c main_arg3) (Arr m c main_v45) (Arr m c main_v47) (Arr m c main_arg10) (Arr m c main_v48) (Arr m c main_arg12) (Arr m c main_v49) (Arr m c main_arg14) (Arr m c main_v50)

/-- The second result array as the launch's arrays determine it. -/
def yArr (c : Dev nD) : Mat 50000 64 := Gy (Arr m c main_v44) (Arr m c main_arg3) (Arr m c main_v45) (Arr m c main_v47) (Arr m c main_arg10) (Arr m c main_v48) (Arr m c main_arg12) (Arr m c main_v49) (Arr m c main_arg14) (Arr m c main_v50) (Arr m c main_arg16) (Arr m c main_v51)

theorem emb12 (t : Fin cfg0.N) (p : Fin 2000) (j : Fin 128) :
    ((cfg0.win 12).blk t).view.emb (ix2 p j) = ix2 (rowOf t p) j := by
  funext a
  refine Fin.ext ?_
  have e := idx_facts t
  match a with
  | ⟨0, _⟩ => show win0_12.index t (0 : Fin 2) * 2000 + 1 * p.val = 2000 * t.val + p.val; omega
  | ⟨1, _⟩ => show win0_12.index t (1 : Fin 2) * 128 + 1 * j.val = j.val; omega

theorem emb13 (t : Fin cfg0.N) (p : Fin 2000) (j : Fin 64) :
    ((cfg0.win 13).blk t).view.emb (ix2 p j) = ix2 (rowOf t p) j := by
  funext a
  refine Fin.ext ?_
  have e := idx_facts t
  match a with
  | ⟨0, _⟩ => show win0_13.index t (0 : Fin 2) * 2000 + 1 * p.val = 2000 * t.val + p.val; omega
  | ⟨1, _⟩ => show win0_13.index t (1 : Fin 2) * 64 + 1 * j.val = j.val; omega

/-- The output tiles are never clipped: cutting one to its extent changes nothing. -/
theorem cut12 (t : Fin cfg0.N) (X : S2000x128.Idx → EReal) : (cfg0.win 12).cut (grid0.coords t) X = X := rfl
theorem cut13 (t : Fin cfg0.N) (X : S2000x64.Idx → EReal) : (cfg0.win 13).cut (grid0.coords t) X = X := rfl

/-- Reading an array through point t's tile is reading it at the tile's rows. -/
theorem read12 (t : Fin cfg0.N) (G : Mat 50000 128) :
    ((cfg0.win 12).blk t).view.read (Elt Ideal) G = fun y : S2000x128.Idx => G (((cfg0.win 12).blk t).view.emb y) := rfl
theorem read13 (t : Fin cfg0.N) (G : Mat 50000 64) :
    ((cfg0.win 13).blk t).view.read (Elt Ideal) G = fun y : S2000x64.Idx => G (((cfg0.win 13).blk t).view.emb y) := rfl

/-- What the proof data says point t writes back to the first result, cut: the body's first output tile. -/
theorem flushed12 (c : Dev nD) (t : Fin cfg0.N) :
    (dats m 0 c).flushed 12 t = out0_12 (blkOf (Arr m c) 0 t) (blkOf (Arr m c) 1 t) (blkOf (Arr m c) 2 t) (blkOf (Arr m c) 3 t) (blkOf (Arr m c) 4 t) (blkOf (Arr m c) 5 t) (blkOf (Arr m c) 6 t) (blkOf (Arr m c) 7 t) (blkOf (Arr m c) 8 t) (blkOf (Arr m c) 9 t) (blkOf (Arr m c) 10 t) (blkOf (Arr m c) 11 t) := by
  show (cfg0.win 12).cut (grid0.coords t) ((dats m 0 c).after 12 t) = _
  rw [after0_12]
  simp only [iblk_eq]
  exact cut12 t _

theorem flushed13 (c : Dev nD) (t : Fin cfg0.N) :
    (dats m 0 c).flushed 13 t = out0_13 (blkOf (Arr m c) 0 t) (blkOf (Arr m c) 1 t) (blkOf (Arr m c) 2 t) (blkOf (Arr m c) 3 t) (blkOf (Arr m c) 4 t) (blkOf (Arr m c) 5 t) (blkOf (Arr m c) 6 t) (blkOf (Arr m c) 7 t) (blkOf (Arr m c) 8 t) (blkOf (Arr m c) 9 t) (blkOf (Arr m c) 10 t) (blkOf (Arr m c) 11 t) := by
  show (cfg0.win 13).cut (grid0.coords t) ((dats m 0 c).after 13 t) = _
  rw [after0_13]
  simp only [iblk_eq]
  exact cut13 t _

/-- What point t writes back to the first result is tile t of `hArr`. -/
theorem flushed12_eq (c : Dev nD) (t : Fin cfg0.N) :
    (dats m 0 c).flushed 12 t = ((cfg0.win 12).blk t).view.read (Elt Ideal) (hArr m c) := by
  rw [flushed12, read12]
  funext y
  obtain ⟨p, j, rfl⟩ : ∃ (p : Fin 2000) (j : Fin 128), y = ix2 p j := ⟨y 0, y 1, eq_ix2 y⟩
  refine (out12_at (Arr m c) t p j).trans ?_
  dsimp only
  rw [emb12]
  unfold hArr
  exact (Gh_ix2 _ _ _ _ _ _ _ _ _ _ (rowOf t p) j).symm

/-- What point t writes back to the second result is tile t of `yArr`. -/
theorem flushed13_eq (c : Dev nD) (t : Fin cfg0.N) :
    (dats m 0 c).flushed 13 t = ((cfg0.win 13).blk t).view.read (Elt Ideal) (yArr m c) := by
  rw [flushed13, read13]
  funext y
  obtain ⟨p, j, rfl⟩ : ∃ (p : Fin 2000) (j : Fin 64), y = ix2 p j := ⟨y 0, y 1, eq_ix2 y⟩
  refine (out13_at (Arr m c) t p j).trans ?_
  dsimp only
  rw [emb13]
  unfold yArr
  exact (Gy_ix2 _ _ _ _ _ _ _ _ _ _ _ _ (rowOf t p) j).symm

theorem mem_blk12 (t : Fin cfg0.N) (i : S50000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v52_0).slice (win0_12.rect t)).set ↔ _
  rw [View.set_slice_whole, Rect.mem_set_unit]
  exact Iff.rfl

theorem mem_blk13 (t : Fin cfg0.N) (i : S50000x64.Idx) :
    i ∈ ((cfg0.win 13).blk t).view.set ↔ ∀ a : Fin 2, win0_13.index t a * S2000x64.size a ≤ (i a).val
      ∧ (i a).val < win0_13.index t a * S2000x64.size a + S2000x64.size a := by
  show i ∈ ((View.whole main_v52_1).slice (win0_13.rect t)).set ↔ _
  rw [View.set_slice_whole, Rect.mem_set_unit]
  exact Iff.rfl

/-- The 25 tiles of 2000 rows cover the 50000 rows. -/
theorem cover12 (i : S50000x128.Idx) :
    ∃ t : Fin cfg0.N, (cfg0.win 12).flush t = true ∧ i ∈ ((cfg0.win 12).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  have e := idx_facts t
  refine ⟨t, flush0_12 t, ?_⟩
  rw [mem_blk12]
  intro a
  match a with
  | ⟨0, _⟩ =>
    show win0_12.index t (0 : Fin 2) * 2000 ≤ (i 0).val ∧ (i 0).val < win0_12.index t (0 : Fin 2) * 2000 + 2000
    omega
  | ⟨1, _⟩ =>
    show win0_12.index t (1 : Fin 2) * 128 ≤ (i 1).val ∧ (i 1).val < win0_12.index t (1 : Fin 2) * 128 + 128
    omega

theorem cover13 (i : S50000x64.Idx) :
    ∃ t : Fin cfg0.N, (cfg0.win 13).flush t = true ∧ i ∈ ((cfg0.win 13).blk t).view.set := by
  have hi0 : (i 0).val < 50000 := (i 0).isLt
  have hi1 : (i 1).val < 64 := (i 1).isLt
  obtain ⟨t, ht⟩ := idx_onto ⟨(i 0).val / 2000, by omega⟩
  have ht' : t.val = (i 0).val / 2000 := ht
  have e := idx_facts t
  refine ⟨t, flush0_13 t, ?_⟩
  rw [mem_blk13]
  intro a
  match a with
  | ⟨0, _⟩ =>
    show win0_13.index t (0 : Fin 2) * 2000 ≤ (i 0).val ∧ (i 0).val < win0_13.index t (0 : Fin 2) * 2000 + 2000
    omega
  | ⟨1, _⟩ =>
    show win0_13.index t (1 : Fin 2) * 64 ≤ (i 1).val ∧ (i 1).val < win0_13.index t (1 : Fin 2) * 64 + 64
    omega

/-- After the run the first result array is `hArr`, -/
theorem final12 (c : Dev nD) : (dats m 0 c).arrAt 12 cfg0.N = hArr m c :=
  (dats m 0 c).arrAt_eq_of_cover 12 (hArr m c) (fun t _ => flushed12_eq m c t) cover12

/-- and the second is `yArr`. -/
theorem final13 (c : Dev nD) : (dats m 0 c).arrAt 13 cfg0.N = yArr m c :=
  (dats m 0 c).arrAt_eq_of_cover 13 (yArr m c) (fun t _ => flushed13_eq m c t) cover13

/-- The kernel's run with both results named and the arguments kept. -/
theorem run : θ_run defs (onTc (τ := τ) (main (F := Ideal))) ⟨m, fun _ => 0, ρ⟩ (fun r => ∀ c : Dev nD,
      r.2.mem ((c.tc : Thread nD τ).loc main_v52_1) = yArr m c
      ∧ r.2.mem ((c.tc : Thread nD τ).loc main_v52_0) = hArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 13).trans (final13 m c), ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 4).trans (((dats m 0 c).arrAt_in 4 rfl _).trans ((A_eq m c 4).trans (V_main_arg10 m c))),
      ((h c).2 main_arg11 (Pipeline.mem_restRefs_of main_arg11 (by decide) (by decide))).trans (V_main_arg11 m c),
      ((h c).1 6).trans (((dats m 0 c).arrAt_in 6 rfl _).trans ((A_eq m c 6).trans (V_main_arg12 m c))),
      ((h c).2 main_arg13 (Pipeline.mem_restRefs_of main_arg13 (by decide) (by decide))).trans (V_main_arg13 m c),
      ((h c).1 8).trans (((dats m 0 c).arrAt_in 8 rfl _).trans ((A_eq m c 8).trans (V_main_arg14 m c))),
      ((h c).2 main_arg15 (Pipeline.mem_restRefs_of main_arg15 (by decide) (by decide))).trans (V_main_arg15 m c),
      ((h c).1 10).trans (((dats m 0 c).arrAt_in 10 rfl _).trans ((A_eq m c 10).trans (V_main_arg16 m c))),
      ((h c).2 main_arg17 (Pipeline.mem_restRefs_of main_arg17 (by decide) (by decide))).trans (V_main_arg17 m c)⟩)
    (run_main m ρ)

end Cert.KernelIdeal.KValue

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.LibEdgeSum.lean ====
import proofs.«163961_j14181982011590_2_alg».proof.Proof.LibReal
import proofs.«163961_j14181982011590_2_alg».proof.Proof.LibRowIndex

/-!
# A scatter-add of rows as a sum over edges, and projecting before or after aggregating

A scatter-add of E update rows into an [N, C] array, the e-th row landing on the row its scatter index names,
leaves at entry (p, q) the operand's entry plus the sum, over the edges e whose index is p, of update (e, q).

If every update row is a weight a_e times a feature row x_e, then multiplying the aggregated row by a matrix
column w is aggregating the projected rows: Σ_k (Σ_e a_e x_{e,k}) w_k = Σ_e a_e (Σ_k x_{e,k} w_k) — on the
extended reals this needs every number to be real, since products do not distribute over sums that meet
both infinities.
-/

noncomputable section

namespace Cert.EdgeSum

open Idealize.ShloMosaic Idealize.ShloMosaic.ValueIdx Cert.GinMath Cert.RowIndex
open scoped BigOperators

/-- A scatter-add of rows at entry (p, q): the operand there plus the updates (e, q) of the edges e whose
    scatter index, read signed, is p. -/
theorem rowScatterAdd_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w)
    (u : (⟨2, ![E, C]⟩ : Shape).Idx → EReal) (p : Fin N) (q : Fin C) :
    Host.scatterAdd (F := Ideal) (φ := .f32) (rowScatterDims N E C wf) z idx u (ix2 p q)
      = z (ix2 p q)
        + ∑ e ∈ Finset.univ.filter (fun e : Fin E => (idx (ix2 e (0 : Fin 1))).toInt = (p.val : ℤ)), u (ix2 e q) := by
  show Ideal.hostScatterAdd (rowScatterDims N E C wf) z idx u (ix2 p q) = _
  unfold Ideal.hostScatterAdd
  congr 1
  refine Finset.sum_nbij' (fun j => j 0) (fun e => ix2 e q) ?_ ?_ ?_ ?_ ?_
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    exact Finset.mem_filter.mpr ⟨Finset.mem_univ _, h.1⟩
  · intro e he
    exact Finset.mem_filter.mpr ⟨Finset.mem_univ _,
      (rowScatter_resultIdx wf idx e q p q).mpr ⟨(Finset.mem_filter.mp he).2, rfl⟩⟩
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show ix2 e q = ix2 e c
    rw [h.2]
  · intro e _
    rfl
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show u (ix2 e c) = u (ix2 e q)
    rw [h.2]

/-- Projecting the aggregated row is aggregating the projected rows, all numbers being real. -/
theorem project_aggregate {ι κ : Type*} [Fintype κ] (S : Finset ι) (a : ι → EReal) (x : ι → κ → EReal) (w : κ → EReal)
    (ha : ∀ e, IsReal (a e)) (hx : ∀ e k, IsReal (x e k)) (hw : ∀ k, IsReal (w k)) :
    ∑ k : κ, (0 + ∑ e ∈ S, a e * x e k) * w k = 0 + ∑ e ∈ S, a e * ∑ k : κ, x e k * w k := by
  classical
  obtain ⟨a', ha'⟩ := exists_real_fun ha
  obtain ⟨w', hw'⟩ := exists_real_fun hw
  obtain ⟨x', hx'⟩ := exists_real_fun (f := fun q : ι × κ => x q.1 q.2) (fun q => hx q.1 q.2)
  have hxe : ∀ e k, x e k = ((x' (e, k) : ℝ) : EReal) := fun e k => hx' (e, k)
  simp only [ha', hw', hxe, zero_add, ← EReal.coe_mul, ← coe_sum]
  congr 1
  simp only [Finset.sum_mul, Finset.mul_sum]
  rw [Finset.sum_comm]
  refine Finset.sum_congr rfl fun e _ => Finset.sum_congr rfl fun k _ => ?_
  ring

end Cert.EdgeSum

end
-- ==== Proof.KAgg.lean ====
import proofs.«163961_j14181982011590_2_alg».proof.KernelIdeal
import proofs.«163961_j14181982011590_2_alg».proof.Proof.KPay
import proofs.«163961_j14181982011590_2_alg».proof.Proof.LibEdgeSum
import Idealize.ShloMosaic.Lib.Pipeline.Value

/-!
# The kernel's graph convolution: aggregate first, project afterwards

The host side of the kernel scatter-adds, into a zero [50000, 64] array, one feature row per edge — the row of
the edge's source node scaled by the edge's weight — onto the row of the edge's target node. So entry (n, k)
of the aggregated array is the sum over the edges landing on n of weight times source feature k. Multiplying
that row by a gate's projection columns and adding the gate's bias is the graph convolution of `Cert.Gru.gcn`
(project, then aggregate) because all numbers are real.
-/

set_option maxRecDepth 16384

noncomputable section

namespace Cert.KernelIdeal.KAgg

open Cert.KernelIdeal Cert.KernelIdeal.Gen Idealize.ShloMosaic Idealize.ShloMosaic.ValueIdx Cert.Gru Cert.GinMath Cert.KernelIdeal.KPay
open scoped BigOperators

/-- The aggregated features from the target column D, the source column Sc, the edge weights and the features. -/
def aggOf (D Sc : IVec S850000x1 32) (nrm : FVec Ideal S850000 .f32) (X : FVec Ideal S50000x64 .f32) :
    FVec Ideal S50000x64 .f32 :=
  Host.scatterAdd scatter_S50000x64_S850000x1_S850000x64_1_0_0_1
    (broadcastInDim S50000x64 ![] bcast_S_S50000x64 (constant (F := Ideal) S_ .f32 0x00000000#32)) D
    (mulf (broadcastInDim S850000x64 ![0, 1] bcast_S850000x1_S850000x64_0_1
        (broadcastInDim S850000x1 ![0] bcast_S850000_S850000x1_0 nrm))
      (Host.gather gather_S50000x64_S850000x1_S850000x64_1_0_n_n_0_1_164 X Sc))

/-- The edge weights laid along the 64 columns, at (e, k). -/
theorem weight_apply (nrm : FVec Ideal S850000 .f32) (e : Fin 850000) (k : Fin 64) :
    broadcastInDim S850000x64 ![0, 1] bcast_S850000x1_S850000x64_0_1
        (broadcastInDim S850000x1 ![0] bcast_S850000_S850000x1_0 nrm) (ix2 e k) = nrm (ix1 e) := by
  refine (broadcastInDim_apply _ bcast_S850000x1_S850000x64_0_1 _ (ix2 e k) (ix2 e (0 : Fin 1)) (fun a => match a with
    | ⟨0, _⟩ => by show e.val = if (850000 : Nat) = 1 then 0 else e.val; rw [if_neg (by decide)]
    | ⟨1, _⟩ => by show 0 = if (1 : Nat) = 1 then 0 else k.val; rw [if_pos rfl])).trans ?_
  exact broadcastInDim_apply _ bcast_S850000_S850000x1_0 nrm (ix2 e (0 : Fin 1)) (ix1 e) (fun a => match a with
    | ⟨0, _⟩ => by show e.val = if (850000 : Nat) = 1 then 0 else e.val; rw [if_neg (by decide)])

/-- Entry (n, k) of the aggregated features. -/
theorem aggOf_apply (D Sc : IVec S850000x1 32) (nrm : FVec Ideal S850000 .f32) (X : FVec Ideal S50000x64 .f32)
    (n : Fin 50000) (k : Fin 64) :
    aggOf D Sc nrm X (ix2 n k)
      = zero + ∑ e ∈ Finset.univ.filter (fun e : Fin 850000 => (D (ix2 e (0 : Fin 1))).toInt = (n.val : ℤ)),
          nrm (ix1 e) * X (ix2 (Cert.RowIndex.clampRow 50000 (by decide) (Sc (ix2 e (0 : Fin 1)))) k) := by
  unfold aggOf
  refine (Cert.EdgeSum.rowScatterAdd_apply (w := 32) scatter_S50000x64_S850000x1_S850000x64_1_0_0_1_wf _ D _ n k).trans ?_
  refine congrArg₂ (· + ·) ?_ (Finset.sum_congr rfl fun e _ => ?_)
  · exact (broadcastInDim_apply _ bcast_S_S50000x64 _ (ix2 n k) (fun a => a.elim0) (fun a => a.elim0)).trans rfl
  · exact congrArg₂ (· * ·) (weight_apply nrm e k)
      (Cert.RowIndex.rowGather_apply (w := 32) (by decide) gather_S50000x64_S850000x1_S850000x64_1_0_n_n_0_1_164_wf X Sc e k)

/-- A gate's graph-convolution row computed "aggregate, then project" is the row computed "project, then
    aggregate", the weights, the features and the projection being real. -/
theorem gK_eq_gcn {E : Nat} (X : Mat 50000 64) (Wc : Mat 64 384) (Bc : Mat 1 384) (W : Mat 64 128) (b : Vc 128)
    (a : Fin E → EReal) (srow : Fin E → Fin 50000) (S : Finset (Fin E))
    (A0 : Mat 50000 64) (n : Fin 50000) (o : Nat) (ho : o + 128 ≤ 384)
    (hA0 : ∀ k : Fin 64, A0 (ix2 n k) = zero + ∑ e ∈ S, a e * X (ix2 (srow e) k))
    (hW : ∀ (k : Fin 64) (j : Fin 128), Wc (ix2 k (⟨o + j.val, by have := j.isLt; omega⟩ : Fin 384)) = W (ix2 k j))
    (hB : ∀ j : Fin 128, Bc (ix2 (0 : Fin 1) (⟨o + j.val, by have := j.isLt; omega⟩ : Fin 384)) = b (ix1 j))
    (ha : ∀ e, IsReal (a e)) (hX : ∀ i, IsReal (X i)) (hWr : ∀ i, IsReal (W i)) :
    gK A0 Wc Bc o ho n = gcn a srow S X W b := by
  funext j
  unfold gK gcn
  rw [hB j]
  congr 1
  simp only [hA0, hW]
  rw [show (zero : EReal) = 0 from ofBits_zero]
  exact Cert.EdgeSum.project_aggregate S a (fun e k => X (ix2 (srow e) k)) (fun k => W (ix2 k j)) ha
    (fun e k => hX _) (fun k => hWr _)

end Cert.KernelIdeal.KAgg

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.KHost.lean ====
import proofs.«163961_j14181982011590_2_alg».proof.Proof.FrameKI
import proofs.«163961_j14181982011590_2_alg».proof.Proof.KAgg
import proofs.«163961_j14181982011590_2_alg».proof.Proof.LibTypedRef
import proofs.«163961_j14181982011590_2_alg».proof.Proof.ReadP
import Idealize.ShloMosaic.Lib.StableHlo.Run

/-!
# The arrays the launch finds, as the host operations compute them from the arguments

Before the region @main computes, on the host, the edge weights and index columns of the graph, the aggregated
features, and lays the three gates' projections and biases side by side; the other windows' arrays are the
arguments themselves, the bias vectors reshaped to rows. Each is read off the list of host operations.
-/

set_option maxRecDepth 16384

noncomputable section

namespace Cert.KernelIdeal.KHost

open Cert.KernelIdeal Cert.KernelIdeal.Gen Cert.KernelIdeal.HFrame
open Idealize.ShloMosaic Idealize.ShloMosaic.TcCoe Idealize.SL.Sem Idealize.ShloMosaic.StableHlo

variable (m : (ℓ : Loc nD τ sig) → Buf (Elt Ideal) ℓ)

/-! ## The called function's typed references

`jnp.where` is a function of its own in @main; its operations carry each value to its buffer's type and back.
Each buffer's type IS the value's type, so the carrying is the identity. -/

/-- Contents carried to the type of the buffer of `main_v15` are unchanged (the buffer's type is the value's). -/
theorem toBuf15 (p : (main_v15 : Ref sig .tc).ty = ⟨S50000, .f32⟩) (p' p'') (v : (⟨S50000, .f32⟩ : BufTy).Contents (Elt Ideal)) :
    (TRef.of main_v15 p p' p'' : TRef sig ⟨S50000, .f32⟩).toBuf v = v := rfl
theorem ofBuf13 (p : (main_v13 : Ref sig .tc).ty = ⟨S50000, .i1⟩) (p' p'') (b : (main_v13 : Ref sig .tc).ty.Contents (Elt Ideal)) :
    (TRef.of main_v13 p p' p'' : TRef sig ⟨S50000, .i1⟩).ofBuf b = b := rfl
theorem ofBuf14 (p : (main_v14 : Ref sig .tc).ty = ⟨S50000, .f32⟩) (p' p'') (b : (main_v14 : Ref sig .tc).ty.Contents (Elt Ideal)) :
    (TRef.of main_v14 p p' p'' : TRef sig ⟨S50000, .f32⟩).ofBuf b = b := rfl
theorem ofBufc2 (p : (main_cst_2 : Ref sig .tc).ty = ⟨S_, .f32⟩) (p' p'') (b : (main_cst_2 : Ref sig .tc).ty.Contents (Elt Ideal)) :
    (TRef.of main_cst_2 p p' p'' : TRef sig ⟨S_, .f32⟩).ofBuf b = b := rfl

/-! ## The graph's edge weights and index columns, and the aggregated features -/

set_option maxHeartbeats 16000000 in
/-- The normalised edge weights are the reference's function of the edge list and the given weights. -/
theorem e_v31 (c : Dev nD) : V m c main_v31 = Cert.ReferenceIdeal.Read.val_main_v31 (F := Ideal) (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results_simp
  simp only [Cert.LibTypedRef.ofBuf_toBuf, toBuf15, ofBuf13, ofBuf14, ofBufc2]
  rfl

set_option maxHeartbeats 16000000 in
/-- The target column is the reference's. -/
theorem e_v43 (c : Dev nD) : V m c main_v43 = Cert.ReferenceIdeal.Read.val_main_v44 (F := Ideal) (m ((c : Thread nD τ).loc main_arg0)) := by
  dsimp only [V]
  simp only [hostOps0, hostOps0_1, hostOps0_2, List.flatten_cons, List.flatten_nil, List.append_nil, List.cons_append, List.nil_append]
  after_results_simp
  rfl

set_option maxHeartbeats 16000000 in
/-- The (wrapped) source column is the reference's. -/
theorem e_v38 (c : Dev nD) : V m c main_v38 = Cert.ReferenceIdeal.Read.val_main_v39 (F := Ideal) (m ((c : Thread nD τ).loc main_arg0)) := by
  dsimp only [V]
  simp only [hostOps0, hostOps0_1, hostOps0_2, List.flatten_cons, List.flatten_nil, List.append_nil, List.cons_append, List.nil_append]
  after_results_simp
  rfl

set_option maxHeartbeats 16000000 in
/-- The aggregated features from the edge weights, the two index columns and the node features, as buffers. -/
theorem s_v44 (c : Dev nD) : V m c main_v44 = Cert.KernelIdeal.KAgg.aggOf (V m c main_v43) (V m c main_v38) (V m c main_v31) (V m c main_arg1) := by
  dsimp only [V]
  simp only [hostOps0, hostOps0_1, hostOps0_2, List.flatten_cons, List.flatten_nil, List.append_nil, List.cons_append, List.nil_append]
  after_results_simp
  rfl

/-- The aggregated features the launch finds: the scatter-add of the weighted source rows, its edge weights and
    its two index columns being those the reference computes from the same arguments. -/
theorem v44_eq (c : Dev nD) : V m c main_v44 = Cert.KernelIdeal.KAgg.aggOf
    (Cert.ReferenceIdeal.Read.val_main_v44 (F := Ideal) (m ((c : Thread nD τ).loc main_arg0))) (Cert.ReferenceIdeal.Read.val_main_v39 (F := Ideal) (m ((c : Thread nD τ).loc main_arg0)))
    (Cert.ReferenceIdeal.Read.val_main_v31 (F := Ideal) (m ((c : Thread nD τ).loc main_arg0)) (m ((c : Thread nD τ).loc main_arg2))) (m ((c : Thread nD τ).loc main_arg1)) := by
  rw [s_v44, e_v43, e_v38, e_v31, V_main_arg1]

set_option maxHeartbeats 4000000 in
/-- The three gates' projection matrices side by side. -/
theorem v45_eq (c : Dev nD) : V m c main_v45 = concatenate S64x384 1
    [⟨S64x128, (m ((c : Thread nD τ).loc main_arg4))⟩, ⟨S64x128, (m ((c : Thread nD τ).loc main_arg6))⟩, ⟨S64x128, (m ((c : Thread nD τ).loc main_arg8))⟩] concatenates_S64x128_S64x128_S64x128_S64x384_d1 := by
  dsimp only [V]
  simp only [hostOps0, hostOps0_1, hostOps0_2, List.flatten_cons, List.flatten_nil, List.append_nil, List.cons_append, List.nil_append]
  after_results_simp
  rfl

set_option maxHeartbeats 4000000 in
/-- The three gates' bias vectors end to end, as one row. -/
theorem v47_eq (c : Dev nD) : V m c main_v47 = shapeCast S1x384 (concatenate S384 0
    [⟨S128, (m ((c : Thread nD τ).loc main_arg5))⟩, ⟨S128, (m ((c : Thread nD τ).loc main_arg7))⟩, ⟨S128, (m ((c : Thread nD τ).loc main_arg9))⟩] concatenates_S128_S128_S128_S384_d0) shapeCasts_S384_S1x384 := by
  dsimp only [V]
  simp only [hostOps0, hostOps0_1, hostOps0_2, List.flatten_cons, List.flatten_nil, List.append_nil, List.cons_append, List.nil_append]
  after_results_simp
  rfl

set_option maxHeartbeats 4000000 in
/-- The dense layers' bias vectors as rows. -/
theorem v48_eq (c : Dev nD) : V m c main_v48 = shapeCast S1x128 (m ((c : Thread nD τ).loc main_arg11)) shapeCasts_S128_S1x128 := by
  dsimp only [V]
  simp only [hostOps0, hostOps0_1, hostOps0_2, List.flatten_cons, List.flatten_nil, List.append_nil, List.cons_append, List.nil_append]
  after_results_simp
  rfl

set_option maxHeartbeats 4000000 in
theorem v49_eq (c : Dev nD) : V m c main_v49 = shapeCast S1x128 (m ((c : Thread nD τ).loc main_arg13)) shapeCasts_S128_S1x128 := by
  dsimp only [V]
  simp only [hostOps0, hostOps0_1, hostOps0_2, List.flatten_cons, List.flatten_nil, List.append_nil, List.cons_append, List.nil_append]
  after_results_simp
  rfl

set_option maxHeartbeats 4000000 in
theorem v50_eq (c : Dev nD) : V m c main_v50 = shapeCast S1x128 (m ((c : Thread nD τ).loc main_arg15)) shapeCasts_S128_S1x128 := by
  dsimp only [V]
  simp only [hostOps0, hostOps0_1, hostOps0_2, List.flatten_cons, List.flatten_nil, List.append_nil, List.cons_append, List.nil_append]
  after_results_simp
  rfl

set_option maxHeartbeats 4000000 in
theorem v51_eq (c : Dev nD) : V m c main_v51 = shapeCast S1x64 (m ((c : Thread nD τ).loc main_arg17)) shapeCasts_S64_S1x64 := by
  dsimp only [V]
  simp only [hostOps0, hostOps0_1, hostOps0_2, List.flatten_cons, List.flatten_nil, List.append_nil, List.cons_append, List.nil_append]
  after_results_simp
  rfl

end Cert.KernelIdeal.KHost

end
-- ==== Proof.RefValue.lean ====
import proofs.«163961_j14181982011590_2_alg».proof.Proof.ReadP
import proofs.«163961_j14181982011590_2_alg».proof.Proof.Spec
import proofs.«163961_j14181982011590_2_alg».proof.Proof.LibRowIndex
import proofs.«163961_j14181982011590_2_alg».proof.Proof.LibReal
import proofs.«163961_j14181982011590_2_alg».proof.Proof.LibEdgeSum
import proofs.«163961_j14181982011590_2_alg».proof.Proof.LibCat

/-!
# The reference program's two results, row by row

The reference computes, for each of the three gates, a graph convolution "project, then aggregate": the
feature matrix times the gate's weights, one projected row gathered per edge (the row of the edge's source
node), scaled by the edge's weight, and the scaled rows added into the row of the edge's target node; then the
bias. Its dense part joins each convolution with the hidden state (for the candidate: with the hidden state
times the reset gate), applies a dense layer, and the logistic function or tanh; the new hidden state is
z · h + (1 − z) · h̃, and the output is max(h', 0) times a matrix plus a bias.

This file reads the two result arrays at an index (n, j) and finds the row functions of `Cert.Gru`:
`h_apply` for the new hidden state and `y_apply` for the output.
-/

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-! ## The arguments' types -/

abbrev TEdge := (⟨S2x800000, .i32⟩ : BufTy).Contents (Elt Ideal)
abbrev TFeat := (⟨S50000x64, .f32⟩ : BufTy).Contents (Elt Ideal)
abbrev TWgt := (⟨S800000, .f32⟩ : BufTy).Contents (Elt Ideal)
abbrev THid := (⟨S50000x128, .f32⟩ : BufTy).Contents (Elt Ideal)
abbrev TProj := (⟨S64x128, .f32⟩ : BufTy).Contents (Elt Ideal)
abbrev TBias := (⟨S128, .f32⟩ : BufTy).Contents (Elt Ideal)
abbrev TLin := (⟨S256x128, .f32⟩ : BufTy).Contents (Elt Ideal)
abbrev TOut := (⟨S128x64, .f32⟩ : BufTy).Contents (Elt Ideal)
abbrev TOutB := (⟨S64, .f32⟩ : BufTy).Contents (Elt Ideal)

/-! ## The graph, as the reference reads it -/

/-- The weight of edge e: the normalised edge weight dinv[src] · w · dinv[dst]. -/
def edgeW (x0 : TEdge) (x2 : TWgt) : Fin 850000 → EReal :=
  fun e => val_main_v31 (F := Ideal) x0 x2 (ix1 e)

/-- The row a gather reads for edge e: the edge's source index, wrapped if negative, clamped into range. -/
def srcRow (x0 : TEdge) : Fin 850000 → Fin 50000 :=
  fun e => Cert.RowIndex.clampRow 50000 (by decide) (val_main_v39 (F := Ideal) x0 (ix2 e 0))

/-- The edges whose target index is n. -/
def lands (x0 : TEdge) (n : Fin 50000) : Finset (Fin 850000) :=
  Finset.univ.filter fun e => (val_main_v44 (F := Ideal) x0 (ix2 e 0)).toInt = (n.val : ℤ)

/-- Row n of the hidden state. -/
def hrow (x3 : THid) (n : Fin 50000) : Fin 128 → EReal := fun k => x3 (ix2 n k)

/-- Row n of a gate's graph convolution with projection W and bias b. -/
def grow (x0 : TEdge) (x1 : TFeat) (x2 : TWgt) (W : TProj) (b : TBias) (n : Fin 50000) : Fin 128 → EReal :=
  Cert.Gru.gcn (edgeW x0 x2) (srcRow x0) (lands x0 n) x1 W b

/-- The three gates' convolutions: update (weights 4, 5), reset (6, 7), candidate (8, 9). -/
abbrev gz (x0 : TEdge) (x1 : TFeat) (x2 : TWgt) (x4 : TProj) (x5 : TBias) (n : Fin 50000) := grow x0 x1 x2 x4 x5 n
abbrev gr (x0 : TEdge) (x1 : TFeat) (x2 : TWgt) (x6 : TProj) (x7 : TBias) (n : Fin 50000) := grow x0 x1 x2 x6 x7 n
abbrev gh (x0 : TEdge) (x1 : TFeat) (x2 : TWgt) (x8 : TProj) (x9 : TBias) (n : Fin 50000) := grow x0 x1 x2 x8 x9 n

/-! ## One graph convolution -/

/-- A bias row broadcast over the nodes, read at (n, j). -/
theorem bias_apply (b : TBias) (n : Fin 50000) (j : Fin 128) :
    val_main_v47 (F := Ideal) b (ix2 n j) = b (ix1 j) := by
  rw [val_main_v47_apply, val_main_v46_apply]
  exact congrArg b (funext fun a => by match a with | ⟨0, _⟩ => rfl)

/-- The edge weights broadcast along the 128 columns, read at (e, j). -/
theorem weight_apply (x0 : TEdge) (x2 : TWgt) (e : Fin 850000) (j : Fin 128) :
    val_main_v41 (F := Ideal) x0 x2 (ix2 e j) = edgeW x0 x2 e := by
  rw [val_main_v41_apply, val_main_v33_apply]
  exact congrArg (val_main_v31 (F := Ideal) x0 x2) (funext fun a => by match a with | ⟨0, _⟩ => rfl)

/-- The projected features X · W at (r, j). -/
theorem proj_apply (x1 : TFeat) (W : TProj) (r : Fin 50000) (j : Fin 128) :
    val_main_v32 (F := Ideal) x1 W (ix2 r j) = ∑ k : Fin 64, x1 (ix2 r k) * W (ix2 k j) := by
  rw [val_main_v32_apply]
  refine Finset.sum_congr rfl fun k _ => ?_
  have hl : lidx_main_v32 (ix2 r j) k = ix2 r k :=
    funext fun a => by match a with | ⟨0, _⟩ => rfl | ⟨1, _⟩ => rfl
  have hr : ridx_main_v32 (ix2 r j) k = ix2 k j :=
    funext fun a => by match a with | ⟨0, _⟩ => rfl | ⟨1, _⟩ => rfl
  rw [hl, hr]

/-- The projected row gathered for edge e, at column j: the projected row of the edge's source node. -/
theorem gathered_apply (x0 : TEdge) (x1 : TFeat) (W : TProj) (e : Fin 850000) (j : Fin 128) :
    val_main_v40 (F := Ideal) x0 x1 W (ix2 e j) = ∑ k : Fin 64, x1 (ix2 (srcRow x0 e) k) * W (ix2 k j) := by
  exact (Cert.RowIndex.rowGather_apply (w := 32) (by decide)
    gather_S50000x128_S850000x1_S850000x128_1_0_n_n_0_1_1128_wf
    (val_main_v32 (F := Ideal) x1 W) (val_main_v39 (F := Ideal) x0) e j).trans (proj_apply x1 W (srcRow x0 e) j)

/-- The aggregation at (n, j): zero plus, over the edges landing on n, weight times projected source row. -/
theorem aggregated_apply (x0 : TEdge) (x1 : TFeat) (x2 : TWgt) (W : TProj) (n : Fin 50000) (j : Fin 128) :
    val_main_v45 (F := Ideal) x0 x1 x2 W (ix2 n j)
      = Cert.Gru.zero + ∑ e ∈ lands x0 n, edgeW x0 x2 e * ∑ k : Fin 64, x1 (ix2 (srcRow x0 e) k) * W (ix2 k j) := by
  refine (Cert.EdgeSum.rowScatterAdd_apply (w := 32)
    scatter_S50000x128_S850000x1_S850000x128_1_0_0_1_wf
    (val_main_v43 (F := Ideal)) (val_main_v44 (F := Ideal) x0) (val_main_v42 (F := Ideal) x0 x1 x2 W) n j).trans ?_
  refine congrArg₂ (· + ·) ((val_main_v43_apply _).trans rfl) (Finset.sum_congr rfl fun e _ => ?_)
  exact (val_main_v42_apply (F := Ideal) x0 x1 x2 W (ix2 e j)).trans
    (congrArg₂ (· * ·) (weight_apply x0 x2 e j) (gathered_apply x0 x1 W e j))

/-- Row n of a gate's graph convolution, read off the reference. -/
theorem gcn_apply (x0 : TEdge) (x1 : TFeat) (x2 : TWgt) (W : TProj) (b : TBias) (n : Fin 50000) (j : Fin 128) :
    val_main_v48 (F := Ideal) x0 x1 x2 W b (ix2 n j) = grow x0 x1 x2 W b n j := by
  exact (val_main_v48_apply (F := Ideal) x0 x1 x2 W b (ix2 n j)).trans
    (congrArg₂ (· + ·) (aggregated_apply x0 x1 x2 W n j) (bias_apply b n j))

theorem gcn_z_apply (x0 : TEdge) (x1 : TFeat) (x2 : TWgt) (x4 : TProj) (x5 : TBias) (n : Fin 50000) (j : Fin 128) :
    val_main_v48 (F := Ideal) x0 x1 x2 x4 x5 (ix2 n j) = gz x0 x1 x2 x4 x5 n j :=
  gcn_apply x0 x1 x2 x4 x5 n j

theorem gcn_r_apply (x0 : TEdge) (x1 : TFeat) (x2 : TWgt) (x6 : TProj) (x7 : TBias) (n : Fin 50000) (j : Fin 128) :
    val_main_v76 (F := Ideal) x0 x1 x2 x6 x7 (ix2 n j) = gr x0 x1 x2 x6 x7 n j :=
  gcn_apply x0 x1 x2 x6 x7 n j

theorem gcn_h_apply (x0 : TEdge) (x1 : TFeat) (x2 : TWgt) (x8 : TProj) (x9 : TBias) (n : Fin 50000) (j : Fin 128) :
    val_main_v104 (F := Ideal) x0 x1 x2 x8 x9 (ix2 n j) = gh x0 x1 x2 x8 x9 n j :=
  gcn_apply x0 x1 x2 x8 x9 n j

/-! ## The dense part -/

/-- The join [g | H] of a gate's convolution with an array H of 128 columns, read at (n, k). -/
theorem joined_apply (x0 : TEdge) (x1 : TFeat) (x2 : TWgt) (H : THid) (W : TProj) (b : TBias)
    (n : Fin 50000) (k : Fin 256) :
    val_main_v49 (F := Ideal) x0 x1 x2 H W b (ix2 n k)
      = Cert.Gru.cat (grow x0 x1 x2 W b n) (hrow H n) k := by
  refine (Cert.CatRows.cat_apply (n := 50000) concatenates_S50000x128_S50000x128_S50000x256_d1
    (val_main_v48 (F := Ideal) x0 x1 x2 W b) H n k).trans ?_
  exact congrArg (fun g => Cert.Gru.cat g (hrow H n) k) (funext fun c => gcn_apply x0 x1 x2 W b n c)

/-- The dense layer applied to the join [g | H], before the nonlinearity, at (n, j). -/
theorem pre_apply (x0 : TEdge) (x1 : TFeat) (x2 : TWgt) (H : THid) (W : TProj) (b : TBias) (L : TLin) (lb : TBias)
    (n : Fin 50000) (j : Fin 128) :
    val_main_v53 (F := Ideal) x0 x1 x2 H W b L lb (ix2 n j)
      = Cert.Gru.lin (Cert.Gru.cat (grow x0 x1 x2 W b n) (hrow H n)) L lb j := by
  rw [val_main_v53_apply, val_main_v50_apply]
  refine congrArg₂ (· + ·) (Finset.sum_congr rfl fun k _ => ?_) (bias_apply lb n j)
  have hl : lidx_main_v50 (ix2 n j) k = ix2 n k :=
    funext fun a => by match a with | ⟨0, _⟩ => rfl | ⟨1, _⟩ => rfl
  have hr : ridx_main_v50 (ix2 n j) k = ix2 k j :=
    funext fun a => by match a with | ⟨0, _⟩ => rfl | ⟨1, _⟩ => rfl
  rw [hl, hr, joined_apply]

/-- A logistic gate at (n, j): 1 / (1 + exp (−·)) of the dense layer is the logistic function of it. -/
theorem gate_apply (x0 : TEdge) (x1 : TFeat) (x2 : TWgt) (H : THid) (W : TProj) (b : TBias) (L : TLin) (lb : TBias)
    (n : Fin 50000) (j : Fin 128) :
    val_main_v59 (F := Ideal) x0 x1 x2 H W b L lb (ix2 n j)
      = Cert.Gru.sig (grow x0 x1 x2 W b n) (hrow H n) L lb j := by
  rw [val_main_v59_apply, val_main_v58_apply, val_main_v57_apply, val_main_v56_apply, val_main_v55_apply,
    val_main_v54_apply, pre_apply, val_main_cst_10_apply, val_main_cst_9_apply]
  unfold Cert.Gru.sig Ideal.logistic
  simp only [Ideal.hostDivf_def, Ideal.addf_def, Ideal.hostUnary_exp_def, Ideal.hostNegf_def, Ideal.negf_def,
    Ideal.ofBits_def, Cert.GinMath.ofBits_one, EReal.coe_one]

/-- The reset gate is the same composition of operations as the update gate, with the reset gate's weights. -/
theorem reset_eq (x0 : TEdge) (x1 : TFeat) (x2 : TWgt) (x3 : THid) (x6 : TProj) (x7 : TBias) (x12 : TLin) (x13 : TBias) :
    val_main_v87 (F := Ideal) x0 x1 x2 x3 x6 x7 x12 x13 = val_main_v59 (F := Ideal) x0 x1 x2 x3 x6 x7 x12 x13 := rfl

/-- The candidate's dense layer is the same composition again, the hidden state replaced by hidden ⊙ reset. -/
theorem candPre_eq (x0 : TEdge) (x1 : TFeat) (x2 : TWgt) (x3 : THid) (x6 : TProj) (x7 : TBias) (x8 : TProj) (x9 : TBias)
    (x12 : TLin) (x13 : TBias) (x14 : TLin) (x15 : TBias) :
    val_main_v110 (F := Ideal) x0 x1 x2 x3 x6 x7 x8 x9 x12 x13 x14 x15
      = val_main_v53 (F := Ideal) x0 x1 x2 (val_main_v105 (F := Ideal) x0 x1 x2 x3 x6 x7 x12 x13) x8 x9 x14 x15 := rfl

/-- The candidate state at (n, j). -/
theorem cand_apply (x0 : TEdge) (x1 : TFeat) (x2 : TWgt) (x3 : THid) (x6 : TProj) (x7 : TBias) (x8 : TProj) (x9 : TBias)
    (x12 : TLin) (x13 : TBias) (x14 : TLin) (x15 : TBias) (n : Fin 50000) (j : Fin 128) :
    val_main_v111 (F := Ideal) x0 x1 x2 x3 x6 x7 x8 x9 x12 x13 x14 x15 (ix2 n j)
      = Cert.Gru.cand (gh x0 x1 x2 x8 x9 n) (hrow x3 n)
          (Cert.Gru.sig (gr x0 x1 x2 x6 x7 n) (hrow x3 n) x12 x13) x14 x15 j := by
  have hmul : hrow (val_main_v105 (F := Ideal) x0 x1 x2 x3 x6 x7 x12 x13) n
      = fun k => hrow x3 n k * Cert.Gru.sig (gr x0 x1 x2 x6 x7 n) (hrow x3 n) x12 x13 k := funext fun c => by
    show val_main_v105 (F := Ideal) x0 x1 x2 x3 x6 x7 x12 x13 (ix2 n c) = _
    rw [val_main_v105_apply, reset_eq, gate_apply, Ideal.mulf_def]
    rfl
  unfold Cert.Gru.cand
  rw [val_main_v111_apply, candPre_eq, pre_apply, Ideal.hostUnary_tanh_def, hmul]

/-- The new hidden state at (n, j). -/
theorem h_apply (x0 : TEdge) (x1 : TFeat) (x2 : TWgt) (x3 : THid) (x4 : TProj) (x5 : TBias) (x6 : TProj) (x7 : TBias)
    (x8 : TProj) (x9 : TBias) (x10 : TLin) (x11 : TBias) (x12 : TLin) (x13 : TBias) (x14 : TLin) (x15 : TBias)
    (n : Fin 50000) (j : Fin 128) :
    val_main_v116 (F := Ideal) x0 x1 x2 x3 x4 x5 x6 x7 x8 x9 x10 x11 x12 x13 x14 x15 (ix2 n j)
      = Cert.Gru.newH (gz x0 x1 x2 x4 x5 n) (gr x0 x1 x2 x6 x7 n) (gh x0 x1 x2 x8 x9 n) (hrow x3 n)
          x10 x12 x14 x11 x13 x15 j := by
  unfold Cert.Gru.newH
  rw [val_main_v116_apply, val_main_v112_apply, val_main_v115_apply, val_main_v114_apply, val_main_v113_apply,
    val_main_cst_19_apply, cand_apply, gate_apply, Ideal.addf_def, Ideal.mulf_def, Ideal.mulf_def, Ideal.subf_def,
    Ideal.ofBits_def]
  rfl

/-- max(h', 0) at (n, k). -/
theorem relu_apply (x0 : TEdge) (x1 : TFeat) (x2 : TWgt) (x3 : THid) (x4 : TProj) (x5 : TBias) (x6 : TProj) (x7 : TBias)
    (x8 : TProj) (x9 : TBias) (x10 : TLin) (x11 : TBias) (x12 : TLin) (x13 : TBias) (x14 : TLin) (x15 : TBias)
    (n : Fin 50000) (k : Fin 128) :
    val_main_v117 (F := Ideal) x0 x1 x2 x3 x4 x5 x6 x7 x8 x9 x10 x11 x12 x13 x14 x15 (ix2 n k)
      = max (Cert.Gru.newH (gz x0 x1 x2 x4 x5 n) (gr x0 x1 x2 x6 x7 n) (gh x0 x1 x2 x8 x9 n) (hrow x3 n)
          x10 x12 x14 x11 x13 x15 k) Cert.Gru.zero := by
  rw [val_main_v117_apply, val_main_call1_v0_apply, val_main_call1_cst_apply, h_apply, Ideal.maximumf_def, Ideal.ofBits_def]

/-- The output at (n, j). -/
theorem y_apply (x0 : TEdge) (x1 : TFeat) (x2 : TWgt) (x3 : THid) (x4 : TProj) (x5 : TBias) (x6 : TProj) (x7 : TBias)
    (x8 : TProj) (x9 : TBias) (x10 : TLin) (x11 : TBias) (x12 : TLin) (x13 : TBias) (x14 : TLin) (x15 : TBias)
    (x16 : TOut) (x17 : TOutB) (n : Fin 50000) (j : Fin 64) :
    val_main_v121 (F := Ideal) x0 x1 x2 x3 x4 x5 x6 x7 x8 x9 x10 x11 x12 x13 x14 x15 x16 x17 (ix2 n j)
      = Cert.Gru.outY (Cert.Gru.newH (gz x0 x1 x2 x4 x5 n) (gr x0 x1 x2 x6 x7 n) (gh x0 x1 x2 x8 x9 n) (hrow x3 n)
          x10 x12 x14 x11 x13 x15) x16 x17 j := by
  rw [val_main_v121_apply, val_main_v118_apply, val_main_v120_apply, val_main_v119_apply]
  refine congrArg₂ (· + ·) (Finset.sum_congr rfl fun k _ => ?_)
    (congrArg x17 (funext fun a => by match a with | ⟨0, _⟩ => rfl))
  have hl : lidx_main_v118 (ix2 n j) k = ix2 n k :=
    funext fun a => by match a with | ⟨0, _⟩ => rfl | ⟨1, _⟩ => rfl
  have hr : ridx_main_v118 (ix2 n j) k = ix2 k j :=
    funext fun a => by match a with | ⟨0, _⟩ => rfl | ⟨1, _⟩ => rfl
  rw [hl, hr, relu_apply]

end Cert.ReferenceIdeal.RefValue

end
-- ==== Proof.LibRealOps.lean ====
import proofs.«163961_j14181982011590_2_alg».proof.Proof.LibReal
import Idealize.ShloMosaic.Lib.ValueIdx

/-!
# Real entries through a few host operations

Every entry of a concatenation is an entry of one of its pieces, and every entry of a gather is an entry of
its operand; so a property of all entries passes through both. The inverse square root of a positive real is
real, hence so is "1/√d where d > 0, else a real".
-/

noncomputable section

namespace Cert.RealOps

open Idealize.ShloMosaic Cert.GinMath

/-- A property of every entry of every piece holds of every entry of their concatenation. -/
theorem forall_concatenate {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- A property of every entry of the operand holds of every entry of a gather. -/
theorem forall_gather {α : Type} (P : α → Prop) {s si so : Shape} {w : Nat} (ds : GatherDims s si so)
    (x : s.Idx → α) (idx : IVec si w) (hP : ∀ i, P (x i)) (j : so.Idx) : P (Host.gather ds x idx j) := by
  unfold Host.gather
  exact hP _

/-- The inverse square root of a positive real is real. -/
theorem isReal_rsqrt_of_pos {r : ℝ} (hr : 0 < r) : IsReal (Ideal.rsqrt (r : EReal)) := by
  rw [Ideal.rsqrt_coe, if_neg (not_lt.mpr hr.le), if_neg hr.ne']
  exact IsReal.coe _

/-- "1/√d where d > z, else z'" is real when d and z' are and z is zero. -/
theorem isReal_select_rsqrt (d z z' : EReal) (hd : IsReal d) (hz : z = 0) (hz' : IsReal z') :
    IsReal (Scalar.select (Ideal.cmp .ogt d z) (Ideal.rsqrt d) z') := by
  obtain ⟨r, rfl⟩ := hd
  subst hz
  by_cases hpos : (0 : ℝ) < r
  · have hc : Ideal.cmp .ogt (r : EReal) 0 = 1#1 := by
      unfold Ideal.cmp
      have : (0 : EReal) < (r : EReal) := by exact_mod_cast hpos
      simp [this]
    rw [hc, ValueIdx.select_one]
    exact isReal_rsqrt_of_pos hpos
  · have hc : Ideal.cmp .ogt (r : EReal) 0 = 0#1 := by
      unfold Ideal.cmp
      have : ¬ (0 : EReal) < (r : EReal) := by
        intro h; exact hpos (by exact_mod_cast h)
      simp [this]
    rw [hc, ValueIdx.select_zero]
    exact hz'

end Cert.RealOps

end
-- ==== Proof.LibScaleSum.lean ====
import proofs.«163961_j14181982011590_2_alg».proof.Proof.LibReal
import proofs.«163961_j14181982011590_2_alg».proof.Proof.LibRowIndex

/-!
# A row scale passes through a scatter-add of rows

Let every row p of an [N, C] array collect the updates e whose scatter index is p. If each update is a product
h_e · s_e with a further factor depending only on the target row, that factor can be taken out of the sum —
provided every number in sight is real, since on the extended reals a product does not distribute over a sum
that meets both infinities.
-/

noncomputable section

namespace Cert.ScaleSum

open Idealize.ShloMosaic Idealize.ShloMosaic.ValueIdx Cert.GinMath Cert.RowIndex
open scoped BigOperators

/-- A real factor goes inside a finite sum of real extended reals. -/
private theorem mul_sum_of_isReal {ι : Type*} (s : Finset ι) (a : EReal) (ha : IsReal a) (f : ι → EReal)
    (hf : ∀ i ∈ s, IsReal (f i)) : a * ∑ i ∈ s, f i = ∑ i ∈ s, a * f i := by
  classical
  obtain ⟨r, rfl⟩ := ha
  induction s using Finset.induction_on with
  | empty => simp
  | insert b s hb ih =>
    rw [Finset.sum_insert hb, Finset.sum_insert hb, ← ih (fun i hi => hf i (Finset.mem_insert_of_mem hi))]
    obtain ⟨x, hx⟩ := hf b (Finset.mem_insert_self b s)
    obtain ⟨y, hy⟩ := IsReal.sum (fun i hi => hf i (Finset.mem_insert_of_mem hi))
    rw [hx, hy, ← EReal.coe_add, ← EReal.coe_mul, ← EReal.coe_mul, ← EReal.coe_mul, ← EReal.coe_add, mul_add]

/-- A scatter-add of real updates into a real array is real. -/
theorem isReal_scatterAdd {s si su : Shape} {w : Nat} (ds : ScatterDims s si su)
    (z : s.Idx → EReal) (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

/-- The p-th scale times what a scatter-add of rows collects on (p, q), the updates being h · s with s the
    scale at the update's source row, is what the scatter-add collects when every update carries the product
    of both scales: the source row's and the (wrapped, clamped) target row's. Updates land on row p only if
    their scatter index is p, where wrapping a nonnegative index and clamping an index below N change nothing. -/
theorem scale_through_scatterAdd {N E C : Nat} (hN : 0 < N)
    (wfs : ScatterDims.WF ⟨2, ![N, C]⟩ ⟨2, ![E, 1]⟩ ⟨2, ![E, C]⟩ [1] [0] [0] 1)
    (H : (⟨2, ![N, C]⟩ : Shape).Idx → EReal) (hH : ∀ i, IsReal (H i))
    (d : (⟨1, ![N]⟩ : Shape).Idx → EReal) (hd : ∀ n, IsReal (d n))
    (z : (⟨2, ![N, C]⟩ : Shape).Idx → EReal) (hz : ∀ i, z i = 0)
    (src dst dstW : IVec ⟨2, ![E, 1]⟩ 32)
    (hW : ∀ e : Fin E, 0 ≤ (dst (ix2 e (0 : Fin 1))).toInt → dstW (ix2 e (0 : Fin 1)) = dst (ix2 e (0 : Fin 1)))
    (updK updR : (⟨2, ![E, C]⟩ : Shape).Idx → EReal)
    (hK : ∀ (e : Fin E) (c : Fin C), updK (ix2 e c)
        = H (ix2 (clampRow N hN (src (ix2 e (0 : Fin 1)))) c) * d (ix1 (clampRow N hN (src (ix2 e (0 : Fin 1))))))
    (hR : ∀ (e : Fin E) (c : Fin C), updR (ix2 e c)
        = H (ix2 (clampRow N hN (src (ix2 e (0 : Fin 1)))) c)
            * (d (ix1 (clampRow N hN (src (ix2 e (0 : Fin 1))))) * d (ix1 (clampRow N hN (dstW (ix2 e (0 : Fin 1)))))))
    (p : Fin N) (q : Fin C) :
    d (ix1 p) * Host.scatterAdd (F := Ideal) (φ := .f32) (rowScatterDims N E C wfs) z dst updK (ix2 p q)
      = Host.scatterAdd (F := Ideal) (φ := .f32) (rowScatterDims N E C wfs) z dst updR (ix2 p q) := by
  show d (ix1 p) * Ideal.hostScatterAdd (rowScatterDims N E C wfs) z dst updK (ix2 p q)
    = Ideal.hostScatterAdd (rowScatterDims N E C wfs) z dst updR (ix2 p q)
  unfold Ideal.hostScatterAdd
  rw [hz, zero_add, zero_add]
  have hKreal : ∀ j, IsReal (updK j) := by
    intro j
    obtain ⟨e, c, rfl⟩ : ∃ (e : Fin E) (c : Fin C), j = ix2 e c := ⟨j 0, j 1, eq_ix2 j⟩
    rw [hK]; exact (hH _).mul (hd _)
  rw [mul_sum_of_isReal _ _ (hd (ix1 p)) _ (fun j _ => hKreal j)]
  refine Finset.sum_congr rfl ?_
  intro j hj
  obtain ⟨e, c, rfl⟩ : ∃ (e : Fin E) (c : Fin C), j = ix2 e c := ⟨j 0, j 1, eq_ix2 j⟩
  obtain ⟨hp, -⟩ := (rowScatter_resultIdx wfs dst e c p q).mp (Finset.mem_filter.mp hj).2
  have hnn : 0 ≤ (dst (ix2 e (0 : Fin 1))).toInt := by rw [hp]; exact Int.natCast_nonneg _
  have hcl : clampRow N hN (dst (ix2 e (0 : Fin 1))) = p := by
    apply Fin.ext
    show min (dst (ix2 e (0 : Fin 1))).toInt.toNat (N - 1) = p.val
    rw [hp, Int.toNat_natCast]
    have := p.isLt
    omega
  rw [hK, hR, hW e hnn, hcl, mul_comm (d (ix1 p)), mul_assoc]

end Cert.ScaleSum

end
-- ==== Proof.NormReal.lean ====
import proofs.«163961_j14181982011590_2_alg».proof.Proof.ReadP
import proofs.«163961_j14181982011590_2_alg».proof.Proof.LibRealOps
import proofs.«163961_j14181982011590_2_alg».proof.Proof.LibScaleSum

/-!
# The normalised edge weights are real

The weight of edge e is dinv[src e] · w e · dinv[dst e], where w is the given edge weights followed by ones for
the self loops, deg collects w over the target nodes, and dinv is 1/√deg where deg > 0 and zero elsewhere.
If the given weights are real, so are w, deg (a finite sum), dinv (the inverse square root of a positive
real, or zero) and the product.
-/

noncomputable section

namespace Cert.ReferenceIdeal.NormReal

open Cert.ReferenceIdeal Cert.ReferenceIdeal.Gen Cert.ReferenceIdeal.Read
open Idealize.ShloMosaic Cert.GinMath Cert.RealOps

/-- An entrywise product of arrays with real entries has real entries. -/
theorem isReal_mulf {s : Shape} (a b : FVec Ideal s .f32) (i : s.Idx) (ha : IsReal (a i)) (hb : IsReal (b i)) :
    IsReal (mulf a b i) := IsReal.mul ha hb

/-- "1/√d where d > z, else z'", entry by entry, over arrays: real when d and z' are and z is zero. -/
theorem isReal_where_rsqrt {s : Shape} (d z z' : FVec Ideal s .f32) (hd : ∀ i, IsReal (d i)) (hz : ∀ i, z i = 0)
    (hz' : ∀ i, IsReal (z' i)) (i : s.Idx) : IsReal (select (cmpf .ogt d z) (Host.rsqrt d) z' i) :=
  isReal_select_rsqrt (d i) (z i) (z' i) (hd i) (hz i) (hz' i)

variable (x0 : (⟨S2x800000, .i32⟩ : BufTy).Contents (Elt Ideal)) (x2 : (⟨S800000, .f32⟩ : BufTy).Contents (Elt Ideal))

/-- The weights with the self loops' ones appended. -/
theorem real_w (h2 : ∀ i, IsReal (x2 i)) (i : S850000.Idx) : IsReal (val_main_v8 (F := Ideal) x2 i) := by
  unfold val_main_v8
  refine forall_concatenate IsReal _ _ _ (fun p hp => ?_) i
  simp only [List.mem_cons, List.mem_nil_iff, or_false] at hp
  rcases hp with rfl | rfl
  · exact h2
  · intro j
    show IsReal (val_main_v7 (F := Ideal) j)
    rw [val_main_v7_apply]
    show IsReal (Ideal.ofBits .f32 0x3F800000#32)
    rw [ofBits_one]; exact IsReal.coe _

/-- The weighted in-degrees. -/
theorem real_deg (h2 : ∀ i, IsReal (x2 i)) (i : S50000.Idx) : IsReal (val_main_v11 (F := Ideal) x0 x2 i) := by
  unfold val_main_v11
  refine Cert.ScaleSum.isReal_scatterAdd _ _ (fun j => ?_) _ _ (real_w x2 h2) i
  rw [val_main_v9_apply]
  show IsReal (Ideal.ofBits .f32 0x00000000#32)
  rw [ofBits_zero]; exact isReal_zero

/-- 1/√deg where deg > 0, zero elsewhere. -/
theorem real_dinv (h2 : ∀ i, IsReal (x2 i)) (i : S50000.Idx) : IsReal (val_main_v15 (F := Ideal) x0 x2 i) := by
  unfold val_main_v15 val_main_v13 val_main_v14
  refine isReal_where_rsqrt _ _ _ (real_deg x0 x2 h2) (fun j => ?_) (fun j => ?_) i
  · rw [val_main_v12_apply]
    exact ofBits_zero
  · rw [val_main_call0_v1_apply]
    show IsReal (Ideal.ofBits .f32 0x00000000#32)
    rw [ofBits_zero]; exact isReal_zero

/-- The normalised edge weights. -/
theorem real_norm (h2 : ∀ i, IsReal (x2 i)) (i : S850000.Idx) : IsReal (val_main_v31 (F := Ideal) x0 x2 i) := by
  unfold val_main_v31 val_main_v23 val_main_v22 val_main_v30
  refine isReal_mulf _ _ i (isReal_mulf _ _ i ?_ (real_w x2 h2 i)) ?_
  · exact forall_gather IsReal _ (val_main_v15 (F := Ideal) x0 x2) _ (real_dinv x0 x2 h2) i
  · exact forall_gather IsReal _ (val_main_v15 (F := Ideal) x0 x2) _ (real_dinv x0 x2 h2) i

end Cert.ReferenceIdeal.NormReal

end
-- ==== Proof.Finite.lean ====
import proofs.«163961_j14181982011590_2_alg».proof.Defs
import proofs.«163961_j14181982011590_2_alg».proof.Proof.Gen.Pre_finite_inputs
import proofs.«163961_j14181982011590_2_alg».proof.Proof.LibReal
import Idealize.ShloMosaic.Lib.ReduceAll
import Idealize.ShloMosaic.Lib.ValueIdx

/-!
# Finite inputs are real

The precondition is a conjunction, over the seventeen float inputs, of the test "every entry `x` has
`|x| < +∞`". On the extended reals `|x| = max x (-x)`, and `max x (-x) < ⊤` excludes both `⊤` and `⊥`, so
each conjunct says that every entry of that input is a real number.

* `real_of_all`: one such test, over a vector of any shape, answered 1, makes every entry real;
* `reals_of_fn`: the whole predicate answered 1 makes every entry of every float input real;
* `real_of_pre`: the same for the five inputs whose entries are multiplied and summed (node features, edge
  weights and the three projection matrices), read from the memory the precondition speaks of.
-/

noncomputable section

namespace Cert.KernelIdeal.Finite

open Idealize.ShloMosaic Idealize.SL.Sem Cert.GinMath
open Cert.Pre_finite_inputs (S_ S2x800000 S50000x64 S800000 S50000x128 S64x128 S128 S256x128 S128x64 S64)

/-- The shape of rank zero has exactly one index. -/
instance : Subsingleton S_.Idx := ⟨fun a b => funext fun d => d.elim0⟩

/-- A conjunction of two one-bit scalars that is 1 has both conjuncts 1. -/
theorem andi_split {s : Shape} {x y : IVec s 1} {j : s.Idx} (h : andi x y j = 1#1) : x j = 1#1 ∧ y j = 1#1 :=
  IntOp.andi_eq_one.1 h

/-- One test "all entries have `|x| < +∞`" answered 1: every entry of `x` is real. The conjunction over all
    entries being 1, each entry's comparison is 1, and a comparison `max x (-x) < ⊤` that holds leaves `x`
    neither `⊤` nor `⊥`. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant S_ .f32 0x7F800000#32)))
          (constantI S_ 1 1#1) hr hu j = 1#1)
    (i : s.Idx) : IsReal (x i) :=
  isReal_of_cmp_abs_lt_inf (Host.reduce_andi_all _ _ hr hu j e i)

/-- The whole predicate answered 1: every entry of every float input is real. The predicate is the
    left-nested conjunction of the seventeen tests, in the order of the inputs. -/
theorem reals_of_fn [Cert.Pre_finite_inputs.Facts]
    (a0 : IVec S2x800000 32) (a1 : FVec Ideal S50000x64 .f32) (a2 : FVec Ideal S800000 .f32)
    (a3 : FVec Ideal S50000x128 .f32) (a4 : FVec Ideal S64x128 .f32) (a5 : FVec Ideal S128 .f32)
    (a6 : FVec Ideal S64x128 .f32) (a7 : FVec Ideal S128 .f32) (a8 : FVec Ideal S64x128 .f32)
    (a9 : FVec Ideal S128 .f32) (a10 : FVec Ideal S256x128 .f32) (a11 : FVec Ideal S128 .f32)
    (a12 : FVec Ideal S256x128 .f32) (a13 : FVec Ideal S128 .f32) (a14 : FVec Ideal S256x128 .f32)
    (a15 : FVec Ideal S128 .f32) (a16 : FVec Ideal S128x64 .f32) (a17 : FVec Ideal S64 .f32) (j : S_.Idx)
    (h : Cert.Pre_finite_inputs.fn (F := Ideal) a0 a1 a2 a3 a4 a5 a6 a7 a8 a9 a10 a11 a12 a13 a14 a15 a16 a17 j
          = 1#1) :
    (∀ i, IsReal (a1 i)) ∧ (∀ i, IsReal (a2 i)) ∧ (∀ i, IsReal (a3 i)) ∧ (∀ i, IsReal (a4 i))
    ∧ (∀ i, IsReal (a5 i)) ∧ (∀ i, IsReal (a6 i)) ∧ (∀ i, IsReal (a7 i)) ∧ (∀ i, IsReal (a8 i))
    ∧ (∀ i, IsReal (a9 i)) ∧ (∀ i, IsReal (a10 i)) ∧ (∀ i, IsReal (a11 i)) ∧ (∀ i, IsReal (a12 i))
    ∧ (∀ i, IsReal (a13 i)) ∧ (∀ i, IsReal (a14 i)) ∧ (∀ i, IsReal (a15 i)) ∧ (∀ i, IsReal (a16 i))
    ∧ (∀ i, IsReal (a17 i)) := by
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, h17⟩ := andi_split h
  obtain ⟨h, h16⟩ := andi_split h
  obtain ⟨h, h15⟩ := andi_split h
  obtain ⟨h, h14⟩ := andi_split h
  obtain ⟨h, h13⟩ := andi_split h
  obtain ⟨h, h12⟩ := andi_split h
  obtain ⟨h, h11⟩ := andi_split h
  obtain ⟨h, h10⟩ := andi_split h
  obtain ⟨h, h9⟩ := andi_split h
  obtain ⟨h, h8⟩ := andi_split h
  obtain ⟨h, h7⟩ := andi_split h
  obtain ⟨h, h6⟩ := andi_split h
  obtain ⟨h, h5⟩ := andi_split h
  obtain ⟨h, h4⟩ := andi_split h
  obtain ⟨h, h3⟩ := andi_split h
  obtain ⟨h1, h2⟩ := andi_split h
  exact ⟨real_of_all a1 _ _ _ j h1, real_of_all a2 _ _ _ j h2, real_of_all a3 _ _ _ j h3,
    real_of_all a4 _ _ _ j h4, real_of_all a5 _ _ _ j h5, real_of_all a6 _ _ _ j h6,
    real_of_all a7 _ _ _ j h7, real_of_all a8 _ _ _ j h8, real_of_all a9 _ _ _ j h9,
    real_of_all a10 _ _ _ j h10, real_of_all a11 _ _ _ j h11, real_of_all a12 _ _ _ j h12,
    real_of_all a13 _ _ _ j h13, real_of_all a14 _ _ _ j h14, real_of_all a15 _ _ _ j h15,
    real_of_all a16 _ _ _ j h16, real_of_all a17 _ _ _ j h17⟩

/-- Under the precondition, on every device, the node features, the edge weights and the three projection
    matrices are real entry by entry. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg8) i)) := by
  have r := reals_of_fn _ _ _ _ _ _ _ _ _ _ _ _ _ _ _ _ _ _ ValueIdx.ix0 (congrFun (h c) ValueIdx.ix0)
  exact ⟨r.1, r.2.1, r.2.2.2.1, r.2.2.2.2.2.1, r.2.2.2.2.2.2.2.1⟩

end Cert.KernelIdeal.Finite

end
-- ==== Proof.Bridge.lean ====
import proofs.«163961_j14181982011590_2_alg».proof.Proof.KValue
import proofs.«163961_j14181982011590_2_alg».proof.Proof.KHost
import proofs.«163961_j14181982011590_2_alg».proof.Proof.KAgg
import proofs.«163961_j14181982011590_2_alg».proof.Proof.RefValue
import proofs.«163961_j14181982011590_2_alg».proof.Proof.NormReal
import proofs.«163961_j14181982011590_2_alg».proof.Proof.Finite
import Idealize.ShloMosaic.Lib.ValueLayout

/-!
# The kernel's results are the reference's row functions

The kernel's arrays at the launch are read in the arguments: the aggregated features are a scatter-add whose
edge weights and index columns are the ones the reference computes; the joined projection [64, 384] holds
the three gates' matrices at column offsets 0, 128, 256 and the joined bias their bias vectors; the dense
layers' biases are the bias vectors as rows. With every feature, weight and projection entry real (the
precondition), each gate's "aggregate, then project" row is the reference's "project, then aggregate" row,
and the rest of the gated step is the same function of the same rows on both sides.
-/

set_option maxRecDepth 16384

noncomputable section

namespace Cert.KernelIdeal.Bridge

open Cert.KernelIdeal Cert.KernelIdeal.Gen Cert.KernelIdeal.HFrame Cert.KernelIdeal.KPay Cert.KernelIdeal.KValue
open Idealize.ShloMosaic Idealize.ShloMosaic.TcCoe Idealize.SL.Sem Idealize.ShloMosaic.ValueIdx Cert.Gru Cert.GinMath

variable (m : (ℓ : Loc nD τ sig) → Buf (Elt Ideal) ℓ)

/-- A bias vector reshaped to a row and read back as a vector is the vector. -/
theorem biasRow_row {C : Nat} (b : (⟨1, ![C]⟩ : Shape).Idx → EReal) (h : (⟨1, ![C]⟩ : Shape).ShapeCasts ⟨2, ![1, C]⟩) :
    biasRow (shapeCast ⟨2, ![1, C]⟩ b h) = b := by
  funext i
  obtain ⟨j, rfl⟩ : ∃ j : Fin C, i = ix1 j := ⟨i 0, eq_ix1 i⟩
  exact shapeCast_a_1a_apply b h (0 : Fin 1) j

/-- Column o·128 + j of the three projections side by side is column j of the o-th. -/
theorem proj_cols (W0 W1 W2 : FVec Ideal S64x128 .f32) (g : Fin 3) (k : Fin 64) (j : Fin 128) :
    concatenate S64x384 1 [⟨S64x128, W0⟩, ⟨S64x128, W1⟩, ⟨S64x128, W2⟩] concatenates_S64x128_S64x128_S64x128_S64x384_d1
        (ix2 k (⟨g.val * 128 + j.val, by have := j.isLt; have := g.isLt; omega⟩ : Fin 384))
      = (![W0, W1, W2] g) (ix2 k j) := by
  match g with
  | ⟨0, _⟩ =>
    exact concatenate_apply_piece (t := S64x384) (1 : Fin 2) [⟨S64x128, W0⟩, ⟨S64x128, W1⟩, ⟨S64x128, W2⟩] concatenates_S64x128_S64x128_S64x128_S64x384_d1
      (ix2 k (⟨0 * 128 + j.val, by have := j.isLt; omega⟩ : Fin 384)) 0 (by show (0 : Nat) < 3; omega) S64x128 W0 rfl rfl 0 rfl (ix2 k j)
      (fun b hb => by match b with | ⟨0, _⟩ => rfl | ⟨1, _⟩ => exact absurd rfl hb)
      (by show 0 + j.val = 0 * 128 + j.val; omega)
  | ⟨1, _⟩ =>
    exact concatenate_apply_piece (t := S64x384) (1 : Fin 2) [⟨S64x128, W0⟩, ⟨S64x128, W1⟩, ⟨S64x128, W2⟩] concatenates_S64x128_S64x128_S64x128_S64x384_d1
      (ix2 k (⟨1 * 128 + j.val, by have := j.isLt; omega⟩ : Fin 384)) 1 (by show (1 : Nat) < 3; omega) S64x128 W1 rfl rfl 128 rfl (ix2 k j)
      (fun b hb => by match b with | ⟨0, _⟩ => rfl | ⟨1, _⟩ => exact absurd rfl hb)
      (by show 128 + j.val = 1 * 128 + j.val; omega)
  | ⟨2, _⟩ =>
    exact concatenate_apply_piece (t := S64x384) (1 : Fin 2) [⟨S64x128, W0⟩, ⟨S64x128, W1⟩, ⟨S64x128, W2⟩] concatenates_S64x128_S64x128_S64x128_S64x384_d1
      (ix2 k (⟨2 * 128 + j.val, by have := j.isLt; omega⟩ : Fin 384)) 2 (by show (2 : Nat) < 3; omega) S64x128 W2 rfl rfl 256 rfl (ix2 k j)
      (fun b hb => by match b with | ⟨0, _⟩ => rfl | ⟨1, _⟩ => exact absurd rfl hb)
      (by show 256 + j.val = 2 * 128 + j.val; omega)

/-- Entry o·128 + j of the three bias vectors end to end is entry j of the o-th. -/
theorem bias_cols (b0 b1 b2 : FVec Ideal S128 .f32) (g : Fin 3) (j : Fin 128) :
    concatenate S384 0 [⟨S128, b0⟩, ⟨S128, b1⟩, ⟨S128, b2⟩] concatenates_S128_S128_S128_S384_d0
        (ix1 (⟨g.val * 128 + j.val, by have := j.isLt; have := g.isLt; omega⟩ : Fin 384))
      = (![b0, b1, b2] g) (ix1 j) := by
  match g with
  | ⟨0, _⟩ =>
    exact concatenate_apply_piece (t := S384) (0 : Fin 1) [⟨S128, b0⟩, ⟨S128, b1⟩, ⟨S128, b2⟩] concatenates_S128_S128_S128_S384_d0
      (ix1 (⟨0 * 128 + j.val, by have := j.isLt; omega⟩ : Fin 384)) 0 (by show (0 : Nat) < 3; omega) S128 b0 rfl rfl 0 rfl (ix1 j)
      (fun b hb => by match b with | ⟨0, _⟩ => exact absurd rfl hb)
      (by show 0 + j.val = 0 * 128 + j.val; omega)
  | ⟨1, _⟩ =>
    exact concatenate_apply_piece (t := S384) (0 : Fin 1) [⟨S128, b0⟩, ⟨S128, b1⟩, ⟨S128, b2⟩] concatenates_S128_S128_S128_S384_d0
      (ix1 (⟨1 * 128 + j.val, by have := j.isLt; omega⟩ : Fin 384)) 1 (by show (1 : Nat) < 3; omega) S128 b1 rfl rfl 128 rfl (ix1 j)
      (fun b hb => by match b with | ⟨0, _⟩ => exact absurd rfl hb)
      (by show 128 + j.val = 1 * 128 + j.val; omega)
  | ⟨2, _⟩ =>
    exact concatenate_apply_piece (t := S384) (0 : Fin 1) [⟨S128, b0⟩, ⟨S128, b1⟩, ⟨S128, b2⟩] concatenates_S128_S128_S128_S384_d0
      (ix1 (⟨2 * 128 + j.val, by have := j.isLt; omega⟩ : Fin 384)) 2 (by show (2 : Nat) < 3; omega) S128 b2 rfl rfl 256 rfl (ix1 j)
      (fun b hb => by match b with | ⟨0, _⟩ => exact absurd rfl hb)
      (by show 256 + j.val = 2 * 128 + j.val; omega)

section Rows
variable (hpre : Cert.Pre_KernelIdeal (hPre_finite_inputs := Cert.Pre_finite_inputs.Gen.facts) m) (c : Dev nD)
include hpre

/-- A gate's graph-convolution row of the kernel is the reference's, for gate g = 0, 1, 2 (update, reset,
    candidate) with projection W and bias b the g-th of the three. -/
theorem gate_row (g : Fin 3) (n : Fin 50000) :
    gK (Arr m c main_v44) (Arr m c main_v45) (Arr m c main_v47) (g.val * 128) (by have := g.isLt; omega) n
      = Cert.ReferenceIdeal.RefValue.grow (m ((c : Thread nD τ).loc main_arg0)) (m ((c : Thread nD τ).loc main_arg1)) (m ((c : Thread nD τ).loc main_arg2))
          (![(m ((c : Thread nD τ).loc main_arg4)), (m ((c : Thread nD τ).loc main_arg6)), (m ((c : Thread nD τ).loc main_arg8))] g) (![(m ((c : Thread nD τ).loc main_arg5)), (m ((c : Thread nD τ).loc main_arg7)), (m ((c : Thread nD τ).loc main_arg9))] g) n := by
  obtain ⟨h1, h2, h4, h6, h8⟩ := Cert.KernelIdeal.Finite.real_of_pre m hpre c
  unfold Cert.ReferenceIdeal.RefValue.grow
  refine Cert.KernelIdeal.KAgg.gK_eq_gcn (m ((c : Thread nD τ).loc main_arg1)) _ _ _ _ _ _ _ _ n _ _ ?_ ?_ ?_ ?_ h1 ?_
  · intro k
    rw [(Arr_eq m c main_v44).trans (Cert.KernelIdeal.KHost.v44_eq m c)]
    exact Cert.KernelIdeal.KAgg.aggOf_apply _ _ _ _ n k
  · intro k j
    rw [(Arr_eq m c main_v45).trans (Cert.KernelIdeal.KHost.v45_eq m c)]
    exact proj_cols _ _ _ g k j
  · intro j
    rw [(Arr_eq m c main_v47).trans (Cert.KernelIdeal.KHost.v47_eq m c)]
    exact (shapeCast_a_1a_apply _ shapeCasts_S384_S1x384 (0 : Fin 1) _).trans (bias_cols _ _ _ g j)
  · intro e
    exact Cert.ReferenceIdeal.NormReal.real_norm _ _ h2 _
  · intro i
    match g with
    | ⟨0, _⟩ => exact h4 i
    | ⟨1, _⟩ => exact h6 i
    | ⟨2, _⟩ => exact h8 i

/-- Row n of the kernel's first result is the reference's new hidden row. -/
theorem hRow_eq (n : Fin 50000) :
    hRow (Arr m c main_v44) (Arr m c main_arg3) (Arr m c main_v45) (Arr m c main_v47) (Arr m c main_arg10) (Arr m c main_v48)
        (Arr m c main_arg12) (Arr m c main_v49) (Arr m c main_arg14) (Arr m c main_v50) n
      = newH (Cert.ReferenceIdeal.RefValue.gz (m ((c : Thread nD τ).loc main_arg0)) (m ((c : Thread nD τ).loc main_arg1)) (m ((c : Thread nD τ).loc main_arg2)) (m ((c : Thread nD τ).loc main_arg4)) (m ((c : Thread nD τ).loc main_arg5)) n) (Cert.ReferenceIdeal.RefValue.gr (m ((c : Thread nD τ).loc main_arg0)) (m ((c : Thread nD τ).loc main_arg1)) (m ((c : Thread nD τ).loc main_arg2)) (m ((c : Thread nD τ).loc main_arg6)) (m ((c : Thread nD τ).loc main_arg7)) n)
          (Cert.ReferenceIdeal.RefValue.gh (m ((c : Thread nD τ).loc main_arg0)) (m ((c : Thread nD τ).loc main_arg1)) (m ((c : Thread nD τ).loc main_arg2)) (m ((c : Thread nD τ).loc main_arg8)) (m ((c : Thread nD τ).loc main_arg9)) n) (Cert.ReferenceIdeal.RefValue.hrow (m ((c : Thread nD τ).loc main_arg3)) n)
          (m ((c : Thread nD τ).loc main_arg10)) (m ((c : Thread nD τ).loc main_arg12)) (m ((c : Thread nD τ).loc main_arg14)) (m ((c : Thread nD τ).loc main_arg11)) (m ((c : Thread nD τ).loc main_arg13)) (m ((c : Thread nD τ).loc main_arg15)) := by
  unfold hRow
  have g0 := gate_row m hpre c (0 : Fin 3) n
  have g1 := gate_row m hpre c (1 : Fin 3) n
  have g2 := gate_row m hpre c (2 : Fin 3) n
  have e3 : Arr m c main_arg3 = (m ((c : Thread nD τ).loc main_arg3)) := (Arr_eq m c _).trans (V_main_arg3 m c)
  have e10 : Arr m c main_arg10 = (m ((c : Thread nD τ).loc main_arg10)) := (Arr_eq m c _).trans (V_main_arg10 m c)
  have e12 : Arr m c main_arg12 = (m ((c : Thread nD τ).loc main_arg12)) := (Arr_eq m c _).trans (V_main_arg12 m c)
  have e14 : Arr m c main_arg14 = (m ((c : Thread nD τ).loc main_arg14)) := (Arr_eq m c _).trans (V_main_arg14 m c)
  have b48 : biasRow (Arr m c main_v48) = (m ((c : Thread nD τ).loc main_arg11)) := by
    rw [(Arr_eq m c main_v48).trans (Cert.KernelIdeal.KHost.v48_eq m c)]; exact biasRow_row _ _
  have b49 : biasRow (Arr m c main_v49) = (m ((c : Thread nD τ).loc main_arg13)) := by
    rw [(Arr_eq m c main_v49).trans (Cert.KernelIdeal.KHost.v49_eq m c)]; exact biasRow_row _ _
  have b50 : biasRow (Arr m c main_v50) = (m ((c : Thread nD τ).loc main_arg15)) := by
    rw [(Arr_eq m c main_v50).trans (Cert.KernelIdeal.KHost.v50_eq m c)]; exact biasRow_row _ _
  rw [b48, b49, b50, e3, e10, e12, e14]
  exact congrArg₂ (fun a b => newH a b _ _ _ _ _ _ _ _) g0 g1 |>.trans
    (congrArg (fun d => newH _ _ d _ _ _ _ _ _ _) g2)

/-- The kernel's first result at (n, j). -/
theorem hArr_apply (n : Fin 50000) (j : Fin 128) :
    hArr m c (ix2 n j) = newH (Cert.ReferenceIdeal.RefValue.gz (m ((c : Thread nD τ).loc main_arg0)) (m ((c : Thread nD τ).loc main_arg1)) (m ((c : Thread nD τ).loc main_arg2)) (m ((c : Thread nD τ).loc main_arg4)) (m ((c : Thread nD τ).loc main_arg5)) n) (Cert.ReferenceIdeal.RefValue.gr (m ((c : Thread nD τ).loc main_arg0)) (m ((c : Thread nD τ).loc main_arg1)) (m ((c : Thread nD τ).loc main_arg2)) (m ((c : Thread nD τ).loc main_arg6)) (m ((c : Thread nD τ).loc main_arg7)) n)
          (Cert.ReferenceIdeal.RefValue.gh (m ((c : Thread nD τ).loc main_arg0)) (m ((c : Thread nD τ).loc main_arg1)) (m ((c : Thread nD τ).loc main_arg2)) (m ((c : Thread nD τ).loc main_arg8)) (m ((c : Thread nD τ).loc main_arg9)) n) (Cert.ReferenceIdeal.RefValue.hrow (m ((c : Thread nD τ).loc main_arg3)) n)
          (m ((c : Thread nD τ).loc main_arg10)) (m ((c : Thread nD τ).loc main_arg12)) (m ((c : Thread nD τ).loc main_arg14)) (m ((c : Thread nD τ).loc main_arg11)) (m ((c : Thread nD τ).loc main_arg13)) (m ((c : Thread nD τ).loc main_arg15)) j := by
  unfold hArr
  rw [Gh_ix2, hRow_eq m hpre c n]

/-- The kernel's second result at (n, j). -/
theorem yArr_apply (n : Fin 50000) (j : Fin 64) :
    yArr m c (ix2 n j) = outY (newH (Cert.ReferenceIdeal.RefValue.gz (m ((c : Thread nD τ).loc main_arg0)) (m ((c : Thread nD τ).loc main_arg1)) (m ((c : Thread nD τ).loc main_arg2)) (m ((c : Thread nD τ).loc main_arg4)) (m ((c : Thread nD τ).loc main_arg5)) n) (Cert.ReferenceIdeal.RefValue.gr (m ((c : Thread nD τ).loc main_arg0)) (m ((c : Thread nD τ).loc main_arg1)) (m ((c : Thread nD τ).loc main_arg2)) (m ((c : Thread nD τ).loc main_arg6)) (m ((c : Thread nD τ).loc main_arg7)) n)
          (Cert.ReferenceIdeal.RefValue.gh (m ((c : Thread nD τ).loc main_arg0)) (m ((c : Thread nD τ).loc main_arg1)) (m ((c : Thread nD τ).loc main_arg2)) (m ((c : Thread nD τ).loc main_arg8)) (m ((c : Thread nD τ).loc main_arg9)) n) (Cert.ReferenceIdeal.RefValue.hrow (m ((c : Thread nD τ).loc main_arg3)) n)
          (m ((c : Thread nD τ).loc main_arg10)) (m ((c : Thread nD τ).loc main_arg12)) (m ((c : Thread nD τ).loc main_arg14)) (m ((c : Thread nD τ).loc main_arg11)) (m ((c : Thread nD τ).loc main_arg13)) (m ((c : Thread nD τ).loc main_arg15))) (m ((c : Thread nD τ).loc main_arg16)) (m ((c : Thread nD τ).loc main_arg17)) j := by
  unfold yArr
  rw [Gy_ix2, hRow_eq m hpre c n]
  have e16 : Arr m c main_arg16 = (m ((c : Thread nD τ).loc main_arg16)) := (Arr_eq m c _).trans (V_main_arg16 m c)
  have b51 : biasRow (Arr m c main_v51) = (m ((c : Thread nD τ).loc main_arg17)) := by
    rw [(Arr_eq m c main_v51).trans (Cert.KernelIdeal.KHost.v51_eq m c)]; exact biasRow_row _ _
  rw [e16, b51]

end Rows

end Cert.KernelIdeal.Bridge

end
-- ==== Proof.RefRun.lean ====
import proofs.«163961_j14181982011590_2_alg».proof.Proof.RefOps
import proofs.«163961_j14181982011590_2_alg».proof.Proof.ReadP
import proofs.«163961_j14181982011590_2_alg».proof.Proof.LibTypedRef
import Idealize.ShloMosaic.Lib.StableHlo.Run

/-!
# The reference's run, read stretch by stretch

The reference is 148 host operations in a row. Reading a result buffer off the whole list at once compares two
terms as deep as the program is long. Here the list is cut into twelve stretches along the data flow — the
edge list and weights; the degrees and 1/√deg; the edge weights; then per gate a graph convolution and a
dense layer; the update; the output head — and for each stretch and ANY contents before it: if the buffers
the stretch reads hold the reference's stage functions of the arguments, so does the buffer it hands on. A
buffer a stretch does not write keeps its contents. Chaining the stretches from the launch contents gives
both results as the stage functions of the arguments; the arguments themselves are written by no operation.
-/

set_option maxRecDepth 16384

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Running two stretches one after the other is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The buffers of the two called functions (`jnp.where`, `relu`) have the types of the values they hold, so
    carrying a value to the buffer's type, or back, is the identity. -/
theorem toBuf15 (p : (main_v15 : Ref sig .tc).ty = ⟨S50000, .f32⟩) (p' p'') (v : (⟨S50000, .f32⟩ : BufTy).Contents (Elt Ideal)) :
    (TRef.of main_v15 p p' p'' : TRef sig ⟨S50000, .f32⟩).toBuf v = v := rfl
theorem ofBuf13 (p : (main_v13 : Ref sig .tc).ty = ⟨S50000, .i1⟩) (p' p'') (b : (main_v13 : Ref sig .tc).ty.Contents (Elt Ideal)) :
    (TRef.of main_v13 p p' p'' : TRef sig ⟨S50000, .i1⟩).ofBuf b = b := rfl
theorem ofBuf14 (p : (main_v14 : Ref sig .tc).ty = ⟨S50000, .f32⟩) (p' p'') (b : (main_v14 : Ref sig .tc).ty.Contents (Elt Ideal)) :
    (TRef.of main_v14 p p' p'' : TRef sig ⟨S50000, .f32⟩).ofBuf b = b := rfl
theorem ofBufc2 (p : (main_cst_2 : Ref sig .tc).ty = ⟨S_, .f32⟩) (p' p'') (b : (main_cst_2 : Ref sig .tc).ty.Contents (Elt Ideal)) :
    (TRef.of main_cst_2 p p' p'' : TRef sig ⟨S_, .f32⟩).ofBuf b = b := rfl
theorem toBuf117 (p : (main_v117 : Ref sig .tc).ty = ⟨S50000x128, .f32⟩) (p' p'') (v : (⟨S50000x128, .f32⟩ : BufTy).Contents (Elt Ideal)) :
    (TRef.of main_v117 p p' p'' : TRef sig ⟨S50000x128, .f32⟩).toBuf v = v := rfl
theorem ofBuf116 (p : (main_v116 : Ref sig .tc).ty = ⟨S50000x128, .f32⟩) (p' p'') (b : (main_v116 : Ref sig .tc).ty.Contents (Elt Ideal)) :
    (TRef.of main_v116 p p' p'' : TRef sig ⟨S50000x128, .f32⟩).ofBuf b = b := rfl

/-! ## The stretches -/

/-- Operations 1 … 10 of @main. -/
abbrev segA : List (HloOp τ sig (Elt F)) :=
  [
    unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- What they write. -/
abbrev wrA : List (Ref sig .tc) := [main_v0, main_v1, main_v2, main_v3, main_v4, main_v5, main_v6, main_cst, main_v7, main_v8]
theorem writesA : (segA : List (HloOp τ sig (Elt F))).Forall fun op => op.writes ⊆ ((wrA).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepA (U : Valuation τ sig (Elt F)) (r : Ref sig .tc) (hr : r ∉ wrA) :
    after (segA (F := F)) U (Proc.devRef .tc r) = U (Proc.devRef .tc r) :=
  after_of_writes_sub _ U writesA hr

/-- Operations 11 … 22 of @main. -/
abbrev segB : List (HloOp τ sig (Elt F)) :=
  [
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- What they write. -/
abbrev wrB : List (Ref sig .tc) := [main_cst_0, main_v9, main_v10, main_v11, main_cst_1, main_v12, main_v13, main_v14, main_cst_2, main_call0_v0, main_call0_v1, main_v15]
theorem writesB : (segB : List (HloOp τ sig (Elt F))).Forall fun op => op.writes ⊆ ((wrB).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepB (U : Valuation τ sig (Elt F)) (r : Ref sig .tc) (hr : r ∉ wrB) :
    after (segB (F := F)) U (Proc.devRef .tc r) = U (Proc.devRef .tc r) :=
  after_of_writes_sub _ U writesB hr

/-- Operations 23 … 42 of @main. -/
abbrev segC : List (HloOp τ sig (Elt F)) :=
  [
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v8 main_v23 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

/-- What they write. -/
abbrev wrC : List (Ref sig .tc) := [main_c, main_v16, main_v17, main_c_3, main_v18, main_v19, main_v20, main_v21, main_v22, main_v23, main_c_4, main_v24, main_v25, main_c_5, main_v26, main_v27, main_v28, main_v29, main_v30, main_v31]
theorem writesC : (segC : List (HloOp τ sig (Elt F))).Forall fun op => op.writes ⊆ ((wrC).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepC (U : Valuation τ sig (Elt F)) (r : Ref sig .tc) (hr : r ∉ wrC) :
    after (segC (F := F)) U (Proc.devRef .tc r) = U (Proc.devRef .tc r) :=
  after_of_writes_sub _ U writesC hr

/-- Operations 43 … 62 of @main. -/
abbrev segD1 : List (HloOp τ sig (Elt F)) :=
  [
    binary main_arg1 main_arg4 main_v32 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_v31 main_v33 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v34 (broadcastInDim S850000 ![] bcast_S_S850000 : (⟨S_, .i32⟩ : BufTy).Contents (Elt F) → (⟨S850000, .i32⟩ : BufTy).Contents (Elt F)),
    binary main_v5 main_v34 main_v35 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v36 (broadcastInDim S850000 ![] bcast_S_S850000 : (⟨S_, .i32⟩ : BufTy).Contents (Elt F) → (⟨S850000, .i32⟩ : BufTy).Contents (Elt F)),
    binary main_v5 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v5 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v32 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v33 main_v41 (broadcastInDim S850000x128 ![0, 1] bcast_S850000x1_S850000x128_0_1 : (⟨S850000x1, .f32⟩ : BufTy).Contents (Elt F) → (⟨S850000x128, .f32⟩ : BufTy).Contents (Elt F)),
    binary main_v41 main_v40 main_v42 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- What they write. -/
abbrev wrD1 : List (Ref sig .tc) := [main_v32, main_v33, main_c_6, main_v34, main_v35, main_c_7, main_v36, main_v37, main_v38, main_v39, main_v40, main_v41, main_v42, main_cst_8, main_v43, main_v44, main_v45, main_v46, main_v47, main_v48]
theorem writesD1 : (segD1 : List (HloOp τ sig (Elt F))).Forall fun op => op.writes ⊆ ((wrD1).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepD1 (U : Valuation τ sig (Elt F)) (r : Ref sig .tc) (hr : r ∉ wrD1) :
    after (segD1 (F := F)) U (Proc.devRef .tc r) = U (Proc.devRef .tc r) :=
  after_of_writes_sub _ U writesD1 hr

/-- Operations 63 … 75 of @main. -/
abbrev segE1 : List (HloOp τ sig (Elt F)) :=
  [
    binary main_v48 main_arg3 main_v49 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v49 main_arg10 main_v50 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    unary main_v53 main_v54 (Host.negf : (⟨S50000x128, .f32⟩ : BufTy).Contents (Elt F) → (⟨S50000x128, .f32⟩ : BufTy).Contents (Elt F)),
    unary main_v54 main_v55 (Host.exp : (⟨S50000x128, .f32⟩ : BufTy).Contents (Elt F) → (⟨S50000x128, .f32⟩ : BufTy).Contents (Elt F)),
    nullary main_cst_9 (constant S_ .f32 0x3F800000#32),
    unary main_cst_9 main_v56 (broadcastInDim S50000x128 ![] bcast_S_S50000x128 : (⟨S_, .f32⟩ : BufTy).Contents (Elt F) → (⟨S50000x128, .f32⟩ : BufTy).Contents (Elt F)),
    binary main_v56 main_v55 main_v57 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3F800000#32),
    unary main_cst_10 main_v58 (broadcastInDim S50000x128 ![] bcast_S_S50000x128 : (⟨S_, .f32⟩ : BufTy).Contents (Elt F) → (⟨S50000x128, .f32⟩ : BufTy).Contents (Elt F)),
    binary main_v58 main_v57 main_v59 (Host.divf : (⟨S50000x128, .f32⟩ : BufTy).Contents (Elt F) → (⟨S50000x128, .f32⟩ : BufTy).Contents (Elt F) → (⟨S50000x128, .f32⟩ : BufTy).Contents (Elt F)) ]

/-- What they write. -/
abbrev wrE1 : List (Ref sig .tc) := [main_v49, main_v50, main_v51, main_v52, main_v53, main_v54, main_v55, main_cst_9, main_v56, main_v57, main_cst_10, main_v58, main_v59]
theorem writesE1 : (segE1 : List (HloOp τ sig (Elt F))).Forall fun op => op.writes ⊆ ((wrE1).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepE1 (U : Valuation τ sig (Elt F)) (r : Ref sig .tc) (hr : r ∉ wrE1) :
    after (segE1 (F := F)) U (Proc.devRef .tc r) = U (Proc.devRef .tc r) :=
  after_of_writes_sub _ U writesE1 hr

/-- Operations 76 … 95 of @main. -/
abbrev segD2 : List (HloOp τ sig (Elt F)) :=
  [
    binary main_arg1 main_arg6 main_v60 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_v31 main_v61 (broadcastInDim S850000x1 ![0] bcast_S850000_S850000x1_0 : (⟨S850000, .f32⟩ : BufTy).Contents (Elt F) → (⟨S850000x1, .f32⟩ : BufTy).Contents (Elt F)),
    nullary main_c_11 (constantI S_ 32 0#32),
    unary main_c_11 main_v62 (broadcastInDim S850000 ![] bcast_S_S850000 : (⟨S_, .i32⟩ : BufTy).Contents (Elt F) → (⟨S850000, .i32⟩ : BufTy).Contents (Elt F)),
    binary main_v5 main_v62 main_v63 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v64 (broadcastInDim S850000 ![] bcast_S_S850000 : (⟨S_, .i32⟩ : BufTy).Contents (Elt F) → (⟨S850000, .i32⟩ : BufTy).Contents (Elt F)),
    binary main_v5 main_v64 main_v65 (addi : (⟨S850000, .i32⟩ : BufTy).Contents (Elt F) → (⟨S850000, .i32⟩ : BufTy).Contents (Elt F) → (⟨S850000, .i32⟩ : BufTy).Contents (Elt F)),
    ternary main_v63 main_v65 main_v5 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v66 main_v67 (broadcastInDim S850000x1 ![0] bcast_S850000_S850000x1_0 : (⟨S850000, .i32⟩ : BufTy).Contents (Elt F) → (⟨S850000x1, .i32⟩ : BufTy).Contents (Elt F)),
    binary main_v60 main_v67 main_v68 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v61 main_v69 (broadcastInDim S850000x128 ![0, 1] bcast_S850000x1_S850000x128_0_1 : (⟨S850000x1, .f32⟩ : BufTy).Contents (Elt F) → (⟨S850000x128, .f32⟩ : BufTy).Contents (Elt F)),
    binary main_v69 main_v68 main_v70 (mulf : (⟨S850000x128, .f32⟩ : BufTy).Contents (Elt F) → (⟨S850000x128, .f32⟩ : BufTy).Contents (Elt F) → (⟨S850000x128, .f32⟩ : BufTy).Contents (Elt F)),
    nullary main_cst_13 (constant S_ .f32 0x00000000#32),
    unary main_cst_13 main_v71 (broadcastInDim S50000x128 ![] bcast_S_S50000x128 : (⟨S_, .f32⟩ : BufTy).Contents (Elt F) → (⟨S50000x128, .f32⟩ : BufTy).Contents (Elt F)),
    unary main_v6 main_v72 (broadcastInDim S850000x1 ![0] bcast_S850000_S850000x1_0 : (⟨S850000, .i32⟩ : BufTy).Contents (Elt F) → (⟨S850000x1, .i32⟩ : BufTy).Contents (Elt F)),
    ternary main_v71 main_v72 main_v70 main_v73 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)) ]

/-- What they write. -/
abbrev wrD2 : List (Ref sig .tc) := [main_v60, main_v61, main_c_11, main_v62, main_v63, main_c_12, main_v64, main_v65, main_v66, main_v67, main_v68, main_v69, main_v70, main_cst_13, main_v71, main_v72, main_v73, main_v74, main_v75, main_v76]
theorem writesD2 : (segD2 : List (HloOp τ sig (Elt F))).Forall fun op => op.writes ⊆ ((wrD2).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepD2 (U : Valuation τ sig (Elt F)) (r : Ref sig .tc) (hr : r ∉ wrD2) :
    after (segD2 (F := F)) U (Proc.devRef .tc r) = U (Proc.devRef .tc r) :=
  after_of_writes_sub _ U writesD2 hr

/-- Operations 96 … 108 of @main. -/
abbrev segE2 : List (HloOp τ sig (Elt F)) :=
  [
    binary main_v76 main_arg3 main_v77 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v77 main_arg12 main_v78 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (addf : (⟨S50000x128, .f32⟩ : BufTy).Contents (Elt F) → (⟨S50000x128, .f32⟩ : BufTy).Contents (Elt F) → (⟨S50000x128, .f32⟩ : BufTy).Contents (Elt F)),
    unary main_v81 main_v82 (Host.negf : (⟨S50000x128, .f32⟩ : BufTy).Contents (Elt F) → (⟨S50000x128, .f32⟩ : BufTy).Contents (Elt F)),
    unary main_v82 main_v83 (Host.exp : (⟨S50000x128, .f32⟩ : BufTy).Contents (Elt F) → (⟨S50000x128, .f32⟩ : BufTy).Contents (Elt F)),
    nullary main_cst_14 (constant S_ .f32 0x3F800000#32),
    unary main_cst_14 main_v84 (broadcastInDim S50000x128 ![] bcast_S_S50000x128 : (⟨S_, .f32⟩ : BufTy).Contents (Elt F) → (⟨S50000x128, .f32⟩ : BufTy).Contents (Elt F)),
    binary main_v84 main_v83 main_v85 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3F800000#32),
    unary main_cst_15 main_v86 (broadcastInDim S50000x128 ![] bcast_S_S50000x128 : (⟨S_, .f32⟩ : BufTy).Contents (Elt F) → (⟨S50000x128, .f32⟩ : BufTy).Contents (Elt F)),
    binary main_v86 main_v85 main_v87 (Host.divf : (⟨S50000x128, .f32⟩ : BufTy).Contents (Elt F) → (⟨S50000x128, .f32⟩ : BufTy).Contents (Elt F) → (⟨S50000x128, .f32⟩ : BufTy).Contents (Elt F)) ]

/-- What they write. -/
abbrev wrE2 : List (Ref sig .tc) := [main_v77, main_v78, main_v79, main_v80, main_v81, main_v82, main_v83, main_cst_14, main_v84, main_v85, main_cst_15, main_v86, main_v87]
theorem writesE2 : (segE2 : List (HloOp τ sig (Elt F))).Forall fun op => op.writes ⊆ ((wrE2).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepE2 (U : Valuation τ sig (Elt F)) (r : Ref sig .tc) (hr : r ∉ wrE2) :
    after (segE2 (F := F)) U (Proc.devRef .tc r) = U (Proc.devRef .tc r) :=
  after_of_writes_sub _ U writesE2 hr

/-- Operations 109 … 128 of @main. -/
abbrev segD3 : List (HloOp τ sig (Elt F)) :=
  [
    binary main_arg1 main_arg8 main_v88 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_v31 main_v89 (broadcastInDim S850000x1 ![0] bcast_S850000_S850000x1_0 : (⟨S850000, .f32⟩ : BufTy).Contents (Elt F) → (⟨S850000x1, .f32⟩ : BufTy).Contents (Elt F)),
    nullary main_c_16 (constantI S_ 32 0#32),
    unary main_c_16 main_v90 (broadcastInDim S850000 ![] bcast_S_S850000 : (⟨S_, .i32⟩ : BufTy).Contents (Elt F) → (⟨S850000, .i32⟩ : BufTy).Contents (Elt F)),
    binary main_v5 main_v90 main_v91 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v92 (broadcastInDim S850000 ![] bcast_S_S850000 : (⟨S_, .i32⟩ : BufTy).Contents (Elt F) → (⟨S850000, .i32⟩ : BufTy).Contents (Elt F)),
    binary main_v5 main_v92 main_v93 (addi : (⟨S850000, .i32⟩ : BufTy).Contents (Elt F) → (⟨S850000, .i32⟩ : BufTy).Contents (Elt F) → (⟨S850000, .i32⟩ : BufTy).Contents (Elt F)),
    ternary main_v91 main_v93 main_v5 main_v94 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v94 main_v95 (broadcastInDim S850000x1 ![0] bcast_S850000_S850000x1_0 : (⟨S850000, .i32⟩ : BufTy).Contents (Elt F) → (⟨S850000x1, .i32⟩ : BufTy).Contents (Elt F)),
    binary main_v88 main_v95 main_v96 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v89 main_v97 (broadcastInDim S850000x128 ![0, 1] bcast_S850000x1_S850000x128_0_1 : (⟨S850000x1, .f32⟩ : BufTy).Contents (Elt F) → (⟨S850000x128, .f32⟩ : BufTy).Contents (Elt F)),
    binary main_v97 main_v96 main_v98 (mulf : (⟨S850000x128, .f32⟩ : BufTy).Contents (Elt F) → (⟨S850000x128, .f32⟩ : BufTy).Contents (Elt F) → (⟨S850000x128, .f32⟩ : BufTy).Contents (Elt F)),
    nullary main_cst_18 (constant S_ .f32 0x00000000#32),
    unary main_cst_18 main_v99 (broadcastInDim S50000x128 ![] bcast_S_S50000x128 : (⟨S_, .f32⟩ : BufTy).Contents (Elt F) → (⟨S50000x128, .f32⟩ : BufTy).Contents (Elt F)),
    unary main_v6 main_v100 (broadcastInDim S850000x1 ![0] bcast_S850000_S850000x1_0 : (⟨S850000, .i32⟩ : BufTy).Contents (Elt F) → (⟨S850000x1, .i32⟩ : BufTy).Contents (Elt F)),
    ternary main_v99 main_v100 main_v98 main_v101 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg9 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (addf : (⟨S50000x128, .f32⟩ : BufTy).Contents (Elt F) → (⟨S50000x128, .f32⟩ : BufTy).Contents (Elt F) → (⟨S50000x128, .f32⟩ : BufTy).Contents (Elt F)) ]

/-- What they write. -/
abbrev wrD3 : List (Ref sig .tc) := [main_v88, main_v89, main_c_16, main_v90, main_v91, main_c_17, main_v92, main_v93, main_v94, main_v95, main_v96, main_v97, main_v98, main_cst_18, main_v99, main_v100, main_v101, main_v102, main_v103, main_v104]
theorem writesD3 : (segD3 : List (HloOp τ sig (Elt F))).Forall fun op => op.writes ⊆ ((wrD3).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepD3 (U : Valuation τ sig (Elt F)) (r : Ref sig .tc) (hr : r ∉ wrD3) :
    after (segD3 (F := F)) U (Proc.devRef .tc r) = U (Proc.devRef .tc r) :=
  after_of_writes_sub _ U writesD3 hr

/-- Operations 129 … 129 of @main. -/
abbrev segE3a : List (HloOp τ sig (Elt F)) :=
  [
    binary main_arg3 main_v87 main_v105 (mulf : (⟨S50000x128, .f32⟩ : BufTy).Contents (Elt F) → (⟨S50000x128, .f32⟩ : BufTy).Contents (Elt F) → (⟨S50000x128, .f32⟩ : BufTy).Contents (Elt F)) ]

/-- What they write. -/
abbrev wrE3a : List (Ref sig .tc) := [main_v105]
theorem writesE3a : (segE3a : List (HloOp τ sig (Elt F))).Forall fun op => op.writes ⊆ ((wrE3a).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepE3a (U : Valuation τ sig (Elt F)) (r : Ref sig .tc) (hr : r ∉ wrE3a) :
    after (segE3a (F := F)) U (Proc.devRef .tc r) = U (Proc.devRef .tc r) :=
  after_of_writes_sub _ U writesE3a hr

/-- Operations 130 … 135 of @main. -/
abbrev segE3b : List (HloOp τ sig (Elt F)) :=
  [
    binary main_v104 main_v105 main_v106 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v106 main_arg14 main_v107 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg15 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v107 main_v109 main_v110 (addf : (⟨S50000x128, .f32⟩ : BufTy).Contents (Elt F) → (⟨S50000x128, .f32⟩ : BufTy).Contents (Elt F) → (⟨S50000x128, .f32⟩ : BufTy).Contents (Elt F)),
    unary main_v110 main_v111 (Host.tanh : (⟨S50000x128, .f32⟩ : BufTy).Contents (Elt F) → (⟨S50000x128, .f32⟩ : BufTy).Contents (Elt F)) ]

/-- What they write. -/
abbrev wrE3b : List (Ref sig .tc) := [main_v106, main_v107, main_v108, main_v109, main_v110, main_v111]
theorem writesE3b : (segE3b : List (HloOp τ sig (Elt F))).Forall fun op => op.writes ⊆ ((wrE3b).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepE3b (U : Valuation τ sig (Elt F)) (r : Ref sig .tc) (hr : r ∉ wrE3b) :
    after (segE3b (F := F)) U (Proc.devRef .tc r) = U (Proc.devRef .tc r) :=
  after_of_writes_sub _ U writesE3b hr

/-- Operations 136 … 141 of @main. -/
abbrev segF : List (HloOp τ sig (Elt F)) :=
  [
    binary main_v59 main_arg3 main_v112 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3F800000#32),
    unary main_cst_19 main_v113 (broadcastInDim S50000x128 ![] bcast_S_S50000x128 : (⟨S_, .f32⟩ : BufTy).Contents (Elt F) → (⟨S50000x128, .f32⟩ : BufTy).Contents (Elt F)),
    binary main_v113 main_v59 main_v114 (subf : (⟨S50000x128, .f32⟩ : BufTy).Contents (Elt F) → (⟨S50000x128, .f32⟩ : BufTy).Contents (Elt F) → (⟨S50000x128, .f32⟩ : BufTy).Contents (Elt F)),
    binary main_v114 main_v111 main_v115 (mulf : (⟨S50000x128, .f32⟩ : BufTy).Contents (Elt F) → (⟨S50000x128, .f32⟩ : BufTy).Contents (Elt F) → (⟨S50000x128, .f32⟩ : BufTy).Contents (Elt F)),
    binary main_v112 main_v115 main_v116 (addf : (⟨S50000x128, .f32⟩ : BufTy).Contents (Elt F) → (⟨S50000x128, .f32⟩ : BufTy).Contents (Elt F) → (⟨S50000x128, .f32⟩ : BufTy).Contents (Elt F)) ]

/-- What they write. -/
abbrev wrF : List (Ref sig .tc) := [main_v112, main_cst_19, main_v113, main_v114, main_v115, main_v116]
theorem writesF : (segF : List (HloOp τ sig (Elt F))).Forall fun op => op.writes ⊆ ((wrF).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepF (U : Valuation τ sig (Elt F)) (r : Ref sig .tc) (hr : r ∉ wrF) :
    after (segF (F := F)) U (Proc.devRef .tc r) = U (Proc.devRef .tc r) :=
  after_of_writes_sub _ U writesF hr

/-- Operations 142 … 148 of @main. -/
abbrev segG : List (HloOp τ sig (Elt F)) :=
  [
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v116) (TRef.of (T := ⟨S50000x128, .f32⟩) main_call1_v0) (TRef.of (T := ⟨S50000x128, .f32⟩) main_v117) maximumf,
    binary main_v117 main_arg16 main_v118 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg17 main_v119 (broadcastInDim S1x64 ![1] bcast_S64_S1x64_1 : (⟨S64, .f32⟩ : BufTy).Contents (Elt F) → (⟨S1x64, .f32⟩ : BufTy).Contents (Elt F)),
    unary main_v119 main_v120 (broadcastInDim S50000x64 ![0, 1] bcast_S1x64_S50000x64_0_1 : (⟨S1x64, .f32⟩ : BufTy).Contents (Elt F) → (⟨S50000x64, .f32⟩ : BufTy).Contents (Elt F)),
    binary main_v118 main_v120 main_v121 (addf : (⟨S50000x64, .f32⟩ : BufTy).Contents (Elt F) → (⟨S50000x64, .f32⟩ : BufTy).Contents (Elt F) → (⟨S50000x64, .f32⟩ : BufTy).Contents (Elt F)) ]

/-- What they write. -/
abbrev wrG : List (Ref sig .tc) := [main_call1_cst, main_call1_v0, main_v117, main_v118, main_v119, main_v120, main_v121]
theorem writesG : (segG : List (HloOp τ sig (Elt F))).Forall fun op => op.writes ⊆ ((wrG).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals decide
/-- A buffer they do not write keeps its contents. -/
theorem keepG (U : Valuation τ sig (Elt F)) (r : Ref sig .tc) (hr : r ∉ wrG) :
    after (segG (F := F)) U (Proc.devRef .tc r) = U (Proc.devRef .tc r) :=
  after_of_writes_sub _ U writesG hr

/-! ## What each stretch hands on -/

set_option maxHeartbeats 8000000 in
set_option maxRecDepth 200000 in
theorem outA_v5 (m : (ℓ : Loc nD τ sig) → Buf (Elt Ideal) ℓ) (c : Dev nD) :
    after (segA (F := Ideal)) (launchContents m c) (Proc.devRef .tc main_v5) = Read.val_main_v5 (F := Ideal) (m ((c.tc : Thread nD τ).loc main_arg0)) := by
  after_results_simp
  rfl

set_option maxHeartbeats 8000000 in
set_option maxRecDepth 200000 in
theorem outA_v6 (m : (ℓ : Loc nD τ sig) → Buf (Elt Ideal) ℓ) (c : Dev nD) :
    after (segA (F := Ideal)) (launchContents m c) (Proc.devRef .tc main_v6) = Read.val_main_v6 (F := Ideal) (m ((c.tc : Thread nD τ).loc main_arg0)) := by
  after_results_simp
  rfl

set_option maxHeartbeats 8000000 in
set_option maxRecDepth 200000 in
theorem outA_v8 (m : (ℓ : Loc nD τ sig) → Buf (Elt Ideal) ℓ) (c : Dev nD) :
    after (segA (F := Ideal)) (launchContents m c) (Proc.devRef .tc main_v8) = Read.val_main_v8 (F := Ideal) (m ((c.tc : Thread nD τ).loc main_arg2)) := by
  after_results_simp
  rfl

set_option maxHeartbeats 8000000 in
set_option maxRecDepth 200000 in
theorem outB_v15 (U : Valuation τ sig (Elt Ideal)) (x0 : (⟨S2x800000, .i32⟩ : BufTy).Contents (Elt Ideal)) (x2 : (⟨S800000, .f32⟩ : BufTy).Contents (Elt Ideal))
    (h_v6 : U (Proc.devRef .tc main_v6) = Read.val_main_v6 (F := Ideal) x0)
    (h_v8 : U (Proc.devRef .tc main_v8) = Read.val_main_v8 (F := Ideal) x2) :
    after (segB (F := Ideal)) U (Proc.devRef .tc main_v15) = Read.val_main_v15 (F := Ideal) x0 x2 := by
  after_results_simp
  try simp only [Cert.LibTypedRef.ofBuf_toBuf, toBuf15, ofBuf13, ofBuf14, ofBufc2, toBuf117, ofBuf116]
  rw [h_v6, h_v8]
  rfl

set_option maxHeartbeats 8000000 in
set_option maxRecDepth 200000 in
theorem outC_v31 (U : Valuation τ sig (Elt Ideal)) (x0 : (⟨S2x800000, .i32⟩ : BufTy).Contents (Elt Ideal)) (x2 : (⟨S800000, .f32⟩ : BufTy).Contents (Elt Ideal))
    (h_v5 : U (Proc.devRef .tc main_v5) = Read.val_main_v5 (F := Ideal) x0)
    (h_v6 : U (Proc.devRef .tc main_v6) = Read.val_main_v6 (F := Ideal) x0)
    (h_v8 : U (Proc.devRef .tc main_v8) = Read.val_main_v8 (F := Ideal) x2)
    (h_v15 : U (Proc.devRef .tc main_v15) = Read.val_main_v15 (F := Ideal) x0 x2) :
    after (segC (F := Ideal)) U (Proc.devRef .tc main_v31) = Read.val_main_v31 (F := Ideal) x0 x2 := by
  after_results_simp
  try simp only [Cert.LibTypedRef.ofBuf_toBuf, toBuf15, ofBuf13, ofBuf14, ofBufc2, toBuf117, ofBuf116]
  rw [h_v5, h_v6, h_v8, h_v15]
  rfl

set_option maxHeartbeats 8000000 in
set_option maxRecDepth 200000 in
theorem outD1_v48 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x4 : (⟨S64x128, .f32⟩ : BufTy).Contents (Elt Ideal)) (x5 : (⟨S128, .f32⟩ : BufTy).Contents (Elt Ideal))
    (h_arg1 : U (Proc.devRef .tc main_arg1) = x1)
    (h_arg4 : U (Proc.devRef .tc main_arg4) = x4)
    (h_arg5 : U (Proc.devRef .tc main_arg5) = x5)
    (h_v31 : U (Proc.devRef .tc main_v31) = Read.val_main_v31 (F := Ideal) x0 x2)
    (h_v5 : U (Proc.devRef .tc main_v5) = Read.val_main_v5 (F := Ideal) x0)
    (h_v6 : U (Proc.devRef .tc main_v6) = Read.val_main_v6 (F := Ideal) x0) :
    after (segD1 (F := Ideal)) U (Proc.devRef .tc main_v48) = Read.val_main_v48 (F := Ideal) x0 x1 x2 x4 x5 := by
  after_results_simp
  try simp only [Cert.LibTypedRef.ofBuf_toBuf, toBuf15, ofBuf13, ofBuf14, ofBufc2, toBuf117, ofBuf116]
  rw [h_arg1, h_arg4, h_arg5, h_v31, h_v5, h_v6]
  rfl

set_option maxHeartbeats 8000000 in
set_option maxRecDepth 200000 in
theorem outE1_v59 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x3 : (⟨S50000x128, .f32⟩ : BufTy).Contents (Elt Ideal)) (x4 : (⟨S64x128, .f32⟩ : BufTy).Contents (Elt Ideal)) (x5 : (⟨S128, .f32⟩ : BufTy).Contents (Elt Ideal)) (x10 : (⟨S256x128, .f32⟩ : BufTy).Contents (Elt Ideal)) (x11 : (⟨S128, .f32⟩ : BufTy).Contents (Elt Ideal))
    (h_v48 : U (Proc.devRef .tc main_v48) = Read.val_main_v48 (F := Ideal) x0 x1 x2 x4 x5)
    (h_arg3 : U (Proc.devRef .tc main_arg3) = x3)
    (h_arg10 : U (Proc.devRef .tc main_arg10) = x10)
    (h_arg11 : U (Proc.devRef .tc main_arg11) = x11) :
    after (segE1 (F := Ideal)) U (Proc.devRef .tc main_v59) = Read.val_main_v59 (F := Ideal) x0 x1 x2 x3 x4 x5 x10 x11 := by
  after_results_simp
  try simp only [Cert.LibTypedRef.ofBuf_toBuf, toBuf15, ofBuf13, ofBuf14, ofBufc2, toBuf117, ofBuf116]
  rw [h_v48, h_arg3, h_arg10, h_arg11]
  rfl

set_option maxHeartbeats 8000000 in
set_option maxRecDepth 200000 in
theorem outD2_v76 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x6 : (⟨S64x128, .f32⟩ : BufTy).Contents (Elt Ideal)) (x7 : (⟨S128, .f32⟩ : BufTy).Contents (Elt Ideal))
    (h_arg1 : U (Proc.devRef .tc main_arg1) = x1)
    (h_arg6 : U (Proc.devRef .tc main_arg6) = x6)
    (h_arg7 : U (Proc.devRef .tc main_arg7) = x7)
    (h_v31 : U (Proc.devRef .tc main_v31) = Read.val_main_v31 (F := Ideal) x0 x2)
    (h_v5 : U (Proc.devRef .tc main_v5) = Read.val_main_v5 (F := Ideal) x0)
    (h_v6 : U (Proc.devRef .tc main_v6) = Read.val_main_v6 (F := Ideal) x0) :
    after (segD2 (F := Ideal)) U (Proc.devRef .tc main_v76) = Read.val_main_v76 (F := Ideal) x0 x1 x2 x6 x7 := by
  after_results_simp
  try simp only [Cert.LibTypedRef.ofBuf_toBuf, toBuf15, ofBuf13, ofBuf14, ofBufc2, toBuf117, ofBuf116]
  rw [h_arg1, h_arg6, h_arg7, h_v31, h_v5, h_v6]
  rfl

set_option maxHeartbeats 8000000 in
set_option maxRecDepth 200000 in
theorem outE2_v87 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x3 : (⟨S50000x128, .f32⟩ : BufTy).Contents (Elt Ideal)) (x6 : (⟨S64x128, .f32⟩ : BufTy).Contents (Elt Ideal)) (x7 : (⟨S128, .f32⟩ : BufTy).Contents (Elt Ideal)) (x12 : (⟨S256x128, .f32⟩ : BufTy).Contents (Elt Ideal)) (x13 : (⟨S128, .f32⟩ : BufTy).Contents (Elt Ideal))
    (h_v76 : U (Proc.devRef .tc main_v76) = Read.val_main_v76 (F := Ideal) x0 x1 x2 x6 x7)
    (h_arg3 : U (Proc.devRef .tc main_arg3) = x3)
    (h_arg12 : U (Proc.devRef .tc main_arg12) = x12)
    (h_arg13 : U (Proc.devRef .tc main_arg13) = x13) :
    after (segE2 (F := Ideal)) U (Proc.devRef .tc main_v87) = Read.val_main_v87 (F := Ideal) x0 x1 x2 x3 x6 x7 x12 x13 := by
  after_results_simp
  try simp only [Cert.LibTypedRef.ofBuf_toBuf, toBuf15, ofBuf13, ofBuf14, ofBufc2, toBuf117, ofBuf116]
  rw [h_v76, h_arg3, h_arg12, h_arg13]
  rfl

set_option maxHeartbeats 8000000 in
set_option maxRecDepth 200000 in
theorem outD3_v104 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x8 : (⟨S64x128, .f32⟩ : BufTy).Contents (Elt Ideal)) (x9 : (⟨S128, .f32⟩ : BufTy).Contents (Elt Ideal))
    (h_arg1 : U (Proc.devRef .tc main_arg1) = x1)
    (h_arg8 : U (Proc.devRef .tc main_arg8) = x8)
    (h_arg9 : U (Proc.devRef .tc main_arg9) = x9)
    (h_v31 : U (Proc.devRef .tc main_v31) = Read.val_main_v31 (F := Ideal) x0 x2)
    (h_v5 : U (Proc.devRef .tc main_v5) = Read.val_main_v5 (F := Ideal) x0)
    (h_v6 : U (Proc.devRef .tc main_v6) = Read.val_main_v6 (F := Ideal) x0) :
    after (segD3 (F := Ideal)) U (Proc.devRef .tc main_v104) = Read.val_main_v104 (F := Ideal) x0 x1 x2 x8 x9 := by
  after_results_simp
  try simp only [Cert.LibTypedRef.ofBuf_toBuf, toBuf15, ofBuf13, ofBuf14, ofBufc2, toBuf117, ofBuf116]
  rw [h_arg1, h_arg8, h_arg9, h_v31, h_v5, h_v6]
  rfl

set_option maxHeartbeats 8000000 in
set_option maxRecDepth 200000 in
theorem outE3a_v105 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x3 : (⟨S50000x128, .f32⟩ : BufTy).Contents (Elt Ideal)) (x6 : (⟨S64x128, .f32⟩ : BufTy).Contents (Elt Ideal)) (x7 : (⟨S128, .f32⟩ : BufTy).Contents (Elt Ideal)) (x12 : (⟨S256x128, .f32⟩ : BufTy).Contents (Elt Ideal)) (x13 : (⟨S128, .f32⟩ : BufTy).Contents (Elt Ideal))
    (h_arg3 : U (Proc.devRef .tc main_arg3) = x3)
    (h_v87 : U (Proc.devRef .tc main_v87) = Read.val_main_v87 (F := Ideal) x0 x1 x2 x3 x6 x7 x12 x13) :
    after (segE3a (F := Ideal)) U (Proc.devRef .tc main_v105) = Read.val_main_v105 (F := Ideal) x0 x1 x2 x3 x6 x7 x12 x13 := by
  after_results_simp
  try simp only [Cert.LibTypedRef.ofBuf_toBuf, toBuf15, ofBuf13, ofBuf14, ofBufc2, toBuf117, ofBuf116]
  rw [h_arg3, h_v87]
  rfl

set_option maxHeartbeats 8000000 in
set_option maxRecDepth 200000 in
theorem outE3b_v111 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x3 : (⟨S50000x128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal))
    (h_v104 : U (Proc.devRef .tc main_v104) = Read.val_main_v104 (F := Ideal) x0 x1 x2 x8 x9)
    (h_v105 : U (Proc.devRef .tc main_v105) = Read.val_main_v105 (F := Ideal) x0 x1 x2 x3 x6 x7 x12 x13)
    (h_arg14 : U (Proc.devRef .tc main_arg14) = x14)
    (h_arg15 : U (Proc.devRef .tc main_arg15) = x15) :
    after (segE3b (F := Ideal)) U (Proc.devRef .tc main_v111) = Read.val_main_v111 (F := Ideal) x0 x1 x2 x3 x6 x7 x8 x9 x12 x13 x14 x15 := by
  after_results_simp
  try simp only [Cert.LibTypedRef.ofBuf_toBuf, toBuf15, ofBuf13, ofBuf14, ofBufc2, toBuf117, ofBuf116]
  rw [h_v104, h_v105, h_arg14, h_arg15]
  rfl

set_option maxHeartbeats 8000000 in
set_option maxRecDepth 200000 in
theorem outF_v116 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x3 : (⟨S50000x128, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal))
    (h_v59 : U (Proc.devRef .tc main_v59) = Read.val_main_v59 (F := Ideal) x0 x1 x2 x3 x4 x5 x10 x11)
    (h_arg3 : U (Proc.devRef .tc main_arg3) = x3)
    (h_v111 : U (Proc.devRef .tc main_v111) = Read.val_main_v111 (F := Ideal) x0 x1 x2 x3 x6 x7 x8 x9 x12 x13 x14 x15) :
    after (segF (F := Ideal)) U (Proc.devRef .tc main_v116) = Read.val_main_v116 (F := Ideal) x0 x1 x2 x3 x4 x5 x6 x7 x8 x9 x10 x11 x12 x13 x14 x15 := by
  after_results_simp
  try simp only [Cert.LibTypedRef.ofBuf_toBuf, toBuf15, ofBuf13, ofBuf14, ofBufc2, toBuf117, ofBuf116]
  rw [h_v59, h_arg3, h_v111]
  rfl

set_option maxHeartbeats 8000000 in
set_option maxRecDepth 200000 in
theorem outG_v121 (U : Valuation τ sig (Elt Ideal)) (x0 : (⟨S2x800000, .i32⟩ : BufTy).Contents (Elt Ideal)) (x1 : (⟨S50000x64, .f32⟩ : BufTy).Contents (Elt Ideal)) (x2 : (⟨S800000, .f32⟩ : BufTy).Contents (Elt Ideal)) (x3 : (⟨S50000x128, .f32⟩ : BufTy).Contents (Elt Ideal)) (x4 : (⟨S64x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal))
    (h_v116 : U (Proc.devRef .tc main_v116) = Read.val_main_v116 (F := Ideal) x0 x1 x2 x3 x4 x5 x6 x7 x8 x9 x10 x11 x12 x13 x14 x15)
    (h_arg16 : U (Proc.devRef .tc main_arg16) = x16)
    (h_arg17 : U (Proc.devRef .tc main_arg17) = x17) :
    after (segG (F := Ideal)) U (Proc.devRef .tc main_v121) = Read.val_main_v121 (F := Ideal) x0 x1 x2 x3 x4 x5 x6 x7 x8 x9 x10 x11 x12 x13 x14 x15 x16 x17 := by
  after_results_simp
  try simp only [Cert.LibTypedRef.ofBuf_toBuf, toBuf15, ofBuf13, ofBuf14, ofBufc2, toBuf117, ofBuf116]
  rw [h_v116, h_arg16, h_arg17]
  rfl

/-! ## The chain -/

/-- The contents after each stretch, from the launch contents. -/
abbrev WA (m : (ℓ : Loc nD τ sig) → Buf (Elt Ideal) ℓ) (c : Dev nD) : Valuation τ sig (Elt Ideal) := after (segA (F := Ideal)) (launchContents m c)
abbrev WB (m : (ℓ : Loc nD τ sig) → Buf (Elt Ideal) ℓ) (c : Dev nD) : Valuation τ sig (Elt Ideal) := after (segB (F := Ideal)) (WA m c)
abbrev WC (m : (ℓ : Loc nD τ sig) → Buf (Elt Ideal) ℓ) (c : Dev nD) : Valuation τ sig (Elt Ideal) := after (segC (F := Ideal)) (WB m c)
abbrev WD1 (m : (ℓ : Loc nD τ sig) → Buf (Elt Ideal) ℓ) (c : Dev nD) : Valuation τ sig (Elt Ideal) := after (segD1 (F := Ideal)) (WC m c)
abbrev WE1 (m : (ℓ : Loc nD τ sig) → Buf (Elt Ideal) ℓ) (c : Dev nD) : Valuation τ sig (Elt Ideal) := after (segE1 (F := Ideal)) (WD1 m c)
abbrev WD2 (m : (ℓ : Loc nD τ sig) → Buf (Elt Ideal) ℓ) (c : Dev nD) : Valuation τ sig (Elt Ideal) := after (segD2 (F := Ideal)) (WE1 m c)
abbrev WE2 (m : (ℓ : Loc nD τ sig) → Buf (Elt Ideal) ℓ) (c : Dev nD) : Valuation τ sig (Elt Ideal) := after (segE2 (F := Ideal)) (WD2 m c)
abbrev WD3 (m : (ℓ : Loc nD τ sig) → Buf (Elt Ideal) ℓ) (c : Dev nD) : Valuation τ sig (Elt Ideal) := after (segD3 (F := Ideal)) (WE2 m c)
abbrev WE3a (m : (ℓ : Loc nD τ sig) → Buf (Elt Ideal) ℓ) (c : Dev nD) : Valuation τ sig (Elt Ideal) := after (segE3a (F := Ideal)) (WD3 m c)
abbrev WE3b (m : (ℓ : Loc nD τ sig) → Buf (Elt Ideal) ℓ) (c : Dev nD) : Valuation τ sig (Elt Ideal) := after (segE3b (F := Ideal)) (WE3a m c)
abbrev WF (m : (ℓ : Loc nD τ sig) → Buf (Elt Ideal) ℓ) (c : Dev nD) : Valuation τ sig (Elt Ideal) := after (segF (F := Ideal)) (WE3b m c)
abbrev WG (m : (ℓ : Loc nD τ sig) → Buf (Elt Ideal) ℓ) (c : Dev nD) : Valuation τ sig (Elt Ideal) := after (segG (F := Ideal)) (WF m c)

set_option maxHeartbeats 8000000 in
/-- Every value a later stretch reads is, after each stretch, the reference's function of the arguments. -/
theorem results (m : (ℓ : Loc nD τ sig) → Buf (Elt Ideal) ℓ) (c : Dev nD) :
    WG m c (Proc.devRef .tc main_v121) = Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
    ∧ WG m c (Proc.devRef .tc main_v116) = Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have oA_v5 : WA m c (Proc.devRef .tc main_v5) = Read.val_main_v5 (F := Ideal) (m ((c.tc : Thread nD τ).loc main_arg0)) := outA_v5 m c
  have oA_v6 : WA m c (Proc.devRef .tc main_v6) = Read.val_main_v6 (F := Ideal) (m ((c.tc : Thread nD τ).loc main_arg0)) := outA_v6 m c
  have oA_v8 : WA m c (Proc.devRef .tc main_v8) = Read.val_main_v8 (F := Ideal) (m ((c.tc : Thread nD τ).loc main_arg2)) := outA_v8 m c
  have aA_arg1 : WA m c (Proc.devRef .tc main_arg1) = (m ((c.tc : Thread nD τ).loc main_arg1)) := (keepA (launchContents m c) main_arg1 (by decide)).trans rfl
  have aA_arg4 : WA m c (Proc.devRef .tc main_arg4) = (m ((c.tc : Thread nD τ).loc main_arg4)) := (keepA (launchContents m c) main_arg4 (by decide)).trans rfl
  have aA_arg5 : WA m c (Proc.devRef .tc main_arg5) = (m ((c.tc : Thread nD τ).loc main_arg5)) := (keepA (launchContents m c) main_arg5 (by decide)).trans rfl
  have aA_arg3 : WA m c (Proc.devRef .tc main_arg3) = (m ((c.tc : Thread nD τ).loc main_arg3)) := (keepA (launchContents m c) main_arg3 (by decide)).trans rfl
  have aA_arg10 : WA m c (Proc.devRef .tc main_arg10) = (m ((c.tc : Thread nD τ).loc main_arg10)) := (keepA (launchContents m c) main_arg10 (by decide)).trans rfl
  have aA_arg11 : WA m c (Proc.devRef .tc main_arg11) = (m ((c.tc : Thread nD τ).loc main_arg11)) := (keepA (launchContents m c) main_arg11 (by decide)).trans rfl
  have aA_arg6 : WA m c (Proc.devRef .tc main_arg6) = (m ((c.tc : Thread nD τ).loc main_arg6)) := (keepA (launchContents m c) main_arg6 (by decide)).trans rfl
  have aA_arg7 : WA m c (Proc.devRef .tc main_arg7) = (m ((c.tc : Thread nD τ).loc main_arg7)) := (keepA (launchContents m c) main_arg7 (by decide)).trans rfl
  have aA_arg12 : WA m c (Proc.devRef .tc main_arg12) = (m ((c.tc : Thread nD τ).loc main_arg12)) := (keepA (launchContents m c) main_arg12 (by decide)).trans rfl
  have aA_arg13 : WA m c (Proc.devRef .tc main_arg13) = (m ((c.tc : Thread nD τ).loc main_arg13)) := (keepA (launchContents m c) main_arg13 (by decide)).trans rfl
  have aA_arg8 : WA m c (Proc.devRef .tc main_arg8) = (m ((c.tc : Thread nD τ).loc main_arg8)) := (keepA (launchContents m c) main_arg8 (by decide)).trans rfl
  have aA_arg9 : WA m c (Proc.devRef .tc main_arg9) = (m ((c.tc : Thread nD τ).loc main_arg9)) := (keepA (launchContents m c) main_arg9 (by decide)).trans rfl
  have aA_arg14 : WA m c (Proc.devRef .tc main_arg14) = (m ((c.tc : Thread nD τ).loc main_arg14)) := (keepA (launchContents m c) main_arg14 (by decide)).trans rfl
  have aA_arg15 : WA m c (Proc.devRef .tc main_arg15) = (m ((c.tc : Thread nD τ).loc main_arg15)) := (keepA (launchContents m c) main_arg15 (by decide)).trans rfl
  have aA_arg16 : WA m c (Proc.devRef .tc main_arg16) = (m ((c.tc : Thread nD τ).loc main_arg16)) := (keepA (launchContents m c) main_arg16 (by decide)).trans rfl
  have aA_arg17 : WA m c (Proc.devRef .tc main_arg17) = (m ((c.tc : Thread nD τ).loc main_arg17)) := (keepA (launchContents m c) main_arg17 (by decide)).trans rfl
  have kB_v5 : WB m c (Proc.devRef .tc main_v5) = Read.val_main_v5 (F := Ideal) (m ((c.tc : Thread nD τ).loc main_arg0)) := (keepB (WA m c) main_v5 (by decide)).trans oA_v5
  have kB_v6 : WB m c (Proc.devRef .tc main_v6) = Read.val_main_v6 (F := Ideal) (m ((c.tc : Thread nD τ).loc main_arg0)) := (keepB (WA m c) main_v6 (by decide)).trans oA_v6
  have kB_v8 : WB m c (Proc.devRef .tc main_v8) = Read.val_main_v8 (F := Ideal) (m ((c.tc : Thread nD τ).loc main_arg2)) := (keepB (WA m c) main_v8 (by decide)).trans oA_v8
  have oB_v15 : WB m c (Proc.devRef .tc main_v15) = Read.val_main_v15 (F := Ideal) (m ((c.tc : Thread nD τ).loc main_arg0)) (m ((c.tc : Thread nD τ).loc main_arg2)) :=
    outB_v15 (WA m c) (m ((c.tc : Thread nD τ).loc main_arg0)) (m ((c.tc : Thread nD τ).loc main_arg2)) oA_v6 oA_v8
  have aB_arg1 : WB m c (Proc.devRef .tc main_arg1) = (m ((c.tc : Thread nD τ).loc main_arg1)) := (keepB (WA m c) main_arg1 (by decide)).trans aA_arg1
  have aB_arg4 : WB m c (Proc.devRef .tc main_arg4) = (m ((c.tc : Thread nD τ).loc main_arg4)) := (keepB (WA m c) main_arg4 (by decide)).trans aA_arg4
  have aB_arg5 : WB m c (Proc.devRef .tc main_arg5) = (m ((c.tc : Thread nD τ).loc main_arg5)) := (keepB (WA m c) main_arg5 (by decide)).trans aA_arg5
  have aB_arg3 : WB m c (Proc.devRef .tc main_arg3) = (m ((c.tc : Thread nD τ).loc main_arg3)) := (keepB (WA m c) main_arg3 (by decide)).trans aA_arg3
  have aB_arg10 : WB m c (Proc.devRef .tc main_arg10) = (m ((c.tc : Thread nD τ).loc main_arg10)) := (keepB (WA m c) main_arg10 (by decide)).trans aA_arg10
  have aB_arg11 : WB m c (Proc.devRef .tc main_arg11) = (m ((c.tc : Thread nD τ).loc main_arg11)) := (keepB (WA m c) main_arg11 (by decide)).trans aA_arg11
  have aB_arg6 : WB m c (Proc.devRef .tc main_arg6) = (m ((c.tc : Thread nD τ).loc main_arg6)) := (keepB (WA m c) main_arg6 (by decide)).trans aA_arg6
  have aB_arg7 : WB m c (Proc.devRef .tc main_arg7) = (m ((c.tc : Thread nD τ).loc main_arg7)) := (keepB (WA m c) main_arg7 (by decide)).trans aA_arg7
  have aB_arg12 : WB m c (Proc.devRef .tc main_arg12) = (m ((c.tc : Thread nD τ).loc main_arg12)) := (keepB (WA m c) main_arg12 (by decide)).trans aA_arg12
  have aB_arg13 : WB m c (Proc.devRef .tc main_arg13) = (m ((c.tc : Thread nD τ).loc main_arg13)) := (keepB (WA m c) main_arg13 (by decide)).trans aA_arg13
  have aB_arg8 : WB m c (Proc.devRef .tc main_arg8) = (m ((c.tc : Thread nD τ).loc main_arg8)) := (keepB (WA m c) main_arg8 (by decide)).trans aA_arg8
  have aB_arg9 : WB m c (Proc.devRef .tc main_arg9) = (m ((c.tc : Thread nD τ).loc main_arg9)) := (keepB (WA m c) main_arg9 (by decide)).trans aA_arg9
  have aB_arg14 : WB m c (Proc.devRef .tc main_arg14) = (m ((c.tc : Thread nD τ).loc main_arg14)) := (keepB (WA m c) main_arg14 (by decide)).trans aA_arg14
  have aB_arg15 : WB m c (Proc.devRef .tc main_arg15) = (m ((c.tc : Thread nD τ).loc main_arg15)) := (keepB (WA m c) main_arg15 (by decide)).trans aA_arg15
  have aB_arg16 : WB m c (Proc.devRef .tc main_arg16) = (m ((c.tc : Thread nD τ).loc main_arg16)) := (keepB (WA m c) main_arg16 (by decide)).trans aA_arg16
  have aB_arg17 : WB m c (Proc.devRef .tc main_arg17) = (m ((c.tc : Thread nD τ).loc main_arg17)) := (keepB (WA m c) main_arg17 (by decide)).trans aA_arg17
  have kC_v5 : WC m c (Proc.devRef .tc main_v5) = Read.val_main_v5 (F := Ideal) (m ((c.tc : Thread nD τ).loc main_arg0)) := (keepC (WB m c) main_v5 (by decide)).trans kB_v5
  have kC_v6 : WC m c (Proc.devRef .tc main_v6) = Read.val_main_v6 (F := Ideal) (m ((c.tc : Thread nD τ).loc main_arg0)) := (keepC (WB m c) main_v6 (by decide)).trans kB_v6
  have oC_v31 : WC m c (Proc.devRef .tc main_v31) = Read.val_main_v31 (F := Ideal) (m ((c.tc : Thread nD τ).loc main_arg0)) (m ((c.tc : Thread nD τ).loc main_arg2)) :=
    outC_v31 (WB m c) (m ((c.tc : Thread nD τ).loc main_arg0)) (m ((c.tc : Thread nD τ).loc main_arg2)) kB_v5 kB_v6 kB_v8 oB_v15
  have aC_arg1 : WC m c (Proc.devRef .tc main_arg1) = (m ((c.tc : Thread nD τ).loc main_arg1)) := (keepC (WB m c) main_arg1 (by decide)).trans aB_arg1
  have aC_arg4 : WC m c (Proc.devRef .tc main_arg4) = (m ((c.tc : Thread nD τ).loc main_arg4)) := (keepC (WB m c) main_arg4 (by decide)).trans aB_arg4
  have aC_arg5 : WC m c (Proc.devRef .tc main_arg5) = (m ((c.tc : Thread nD τ).loc main_arg5)) := (keepC (WB m c) main_arg5 (by decide)).trans aB_arg5
  have aC_arg3 : WC m c (Proc.devRef .tc main_arg3) = (m ((c.tc : Thread nD τ).loc main_arg3)) := (keepC (WB m c) main_arg3 (by decide)).trans aB_arg3
  have aC_arg10 : WC m c (Proc.devRef .tc main_arg10) = (m ((c.tc : Thread nD τ).loc main_arg10)) := (keepC (WB m c) main_arg10 (by decide)).trans aB_arg10
  have aC_arg11 : WC m c (Proc.devRef .tc main_arg11) = (m ((c.tc : Thread nD τ).loc main_arg11)) := (keepC (WB m c) main_arg11 (by decide)).trans aB_arg11
  have aC_arg6 : WC m c (Proc.devRef .tc main_arg6) = (m ((c.tc : Thread nD τ).loc main_arg6)) := (keepC (WB m c) main_arg6 (by decide)).trans aB_arg6
  have aC_arg7 : WC m c (Proc.devRef .tc main_arg7) = (m ((c.tc : Thread nD τ).loc main_arg7)) := (keepC (WB m c) main_arg7 (by decide)).trans aB_arg7
  have aC_arg12 : WC m c (Proc.devRef .tc main_arg12) = (m ((c.tc : Thread nD τ).loc main_arg12)) := (keepC (WB m c) main_arg12 (by decide)).trans aB_arg12
  have aC_arg13 : WC m c (Proc.devRef .tc main_arg13) = (m ((c.tc : Thread nD τ).loc main_arg13)) := (keepC (WB m c) main_arg13 (by decide)).trans aB_arg13
  have aC_arg8 : WC m c (Proc.devRef .tc main_arg8) = (m ((c.tc : Thread nD τ).loc main_arg8)) := (keepC (WB m c) main_arg8 (by decide)).trans aB_arg8
  have aC_arg9 : WC m c (Proc.devRef .tc main_arg9) = (m ((c.tc : Thread nD τ).loc main_arg9)) := (keepC (WB m c) main_arg9 (by decide)).trans aB_arg9
  have aC_arg14 : WC m c (Proc.devRef .tc main_arg14) = (m ((c.tc : Thread nD τ).loc main_arg14)) := (keepC (WB m c) main_arg14 (by decide)).trans aB_arg14
  have aC_arg15 : WC m c (Proc.devRef .tc main_arg15) = (m ((c.tc : Thread nD τ).loc main_arg15)) := (keepC (WB m c) main_arg15 (by decide)).trans aB_arg15
  have aC_arg16 : WC m c (Proc.devRef .tc main_arg16) = (m ((c.tc : Thread nD τ).loc main_arg16)) := (keepC (WB m c) main_arg16 (by decide)).trans aB_arg16
  have aC_arg17 : WC m c (Proc.devRef .tc main_arg17) = (m ((c.tc : Thread nD τ).loc main_arg17)) := (keepC (WB m c) main_arg17 (by decide)).trans aB_arg17
  have kD1_v5 : WD1 m c (Proc.devRef .tc main_v5) = Read.val_main_v5 (F := Ideal) (m ((c.tc : Thread nD τ).loc main_arg0)) := (keepD1 (WC m c) main_v5 (by decide)).trans kC_v5
  have kD1_v6 : WD1 m c (Proc.devRef .tc main_v6) = Read.val_main_v6 (F := Ideal) (m ((c.tc : Thread nD τ).loc main_arg0)) := (keepD1 (WC m c) main_v6 (by decide)).trans kC_v6
  have kD1_v31 : WD1 m c (Proc.devRef .tc main_v31) = Read.val_main_v31 (F := Ideal) (m ((c.tc : Thread nD τ).loc main_arg0)) (m ((c.tc : Thread nD τ).loc main_arg2)) := (keepD1 (WC m c) main_v31 (by decide)).trans oC_v31
  have oD1_v48 : WD1 m c (Proc.devRef .tc main_v48) = Read.val_main_v48 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
    outD1_v48 (WC m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) aC_arg1 aC_arg4 aC_arg5 oC_v31 kC_v5 kC_v6
  have aD1_arg1 : WD1 m c (Proc.devRef .tc main_arg1) = (m ((c.tc : Thread nD τ).loc main_arg1)) := (keepD1 (WC m c) main_arg1 (by decide)).trans aC_arg1
  have aD1_arg3 : WD1 m c (Proc.devRef .tc main_arg3) = (m ((c.tc : Thread nD τ).loc main_arg3)) := (keepD1 (WC m c) main_arg3 (by decide)).trans aC_arg3
  have aD1_arg10 : WD1 m c (Proc.devRef .tc main_arg10) = (m ((c.tc : Thread nD τ).loc main_arg10)) := (keepD1 (WC m c) main_arg10 (by decide)).trans aC_arg10
  have aD1_arg11 : WD1 m c (Proc.devRef .tc main_arg11) = (m ((c.tc : Thread nD τ).loc main_arg11)) := (keepD1 (WC m c) main_arg11 (by decide)).trans aC_arg11
  have aD1_arg6 : WD1 m c (Proc.devRef .tc main_arg6) = (m ((c.tc : Thread nD τ).loc main_arg6)) := (keepD1 (WC m c) main_arg6 (by decide)).trans aC_arg6
  have aD1_arg7 : WD1 m c (Proc.devRef .tc main_arg7) = (m ((c.tc : Thread nD τ).loc main_arg7)) := (keepD1 (WC m c) main_arg7 (by decide)).trans aC_arg7
  have aD1_arg12 : WD1 m c (Proc.devRef .tc main_arg12) = (m ((c.tc : Thread nD τ).loc main_arg12)) := (keepD1 (WC m c) main_arg12 (by decide)).trans aC_arg12
  have aD1_arg13 : WD1 m c (Proc.devRef .tc main_arg13) = (m ((c.tc : Thread nD τ).loc main_arg13)) := (keepD1 (WC m c) main_arg13 (by decide)).trans aC_arg13
  have aD1_arg8 : WD1 m c (Proc.devRef .tc main_arg8) = (m ((c.tc : Thread nD τ).loc main_arg8)) := (keepD1 (WC m c) main_arg8 (by decide)).trans aC_arg8
  have aD1_arg9 : WD1 m c (Proc.devRef .tc main_arg9) = (m ((c.tc : Thread nD τ).loc main_arg9)) := (keepD1 (WC m c) main_arg9 (by decide)).trans aC_arg9
  have aD1_arg14 : WD1 m c (Proc.devRef .tc main_arg14) = (m ((c.tc : Thread nD τ).loc main_arg14)) := (keepD1 (WC m c) main_arg14 (by decide)).trans aC_arg14
  have aD1_arg15 : WD1 m c (Proc.devRef .tc main_arg15) = (m ((c.tc : Thread nD τ).loc main_arg15)) := (keepD1 (WC m c) main_arg15 (by decide)).trans aC_arg15
  have aD1_arg16 : WD1 m c (Proc.devRef .tc main_arg16) = (m ((c.tc : Thread nD τ).loc main_arg16)) := (keepD1 (WC m c) main_arg16 (by decide)).trans aC_arg16
  have aD1_arg17 : WD1 m c (Proc.devRef .tc main_arg17) = (m ((c.tc : Thread nD τ).loc main_arg17)) := (keepD1 (WC m c) main_arg17 (by decide)).trans aC_arg17
  have kE1_v5 : WE1 m c (Proc.devRef .tc main_v5) = Read.val_main_v5 (F := Ideal) (m ((c.tc : Thread nD τ).loc main_arg0)) := (keepE1 (WD1 m c) main_v5 (by decide)).trans kD1_v5
  have kE1_v6 : WE1 m c (Proc.devRef .tc main_v6) = Read.val_main_v6 (F := Ideal) (m ((c.tc : Thread nD τ).loc main_arg0)) := (keepE1 (WD1 m c) main_v6 (by decide)).trans kD1_v6
  have kE1_v31 : WE1 m c (Proc.devRef .tc main_v31) = Read.val_main_v31 (F := Ideal) (m ((c.tc : Thread nD τ).loc main_arg0)) (m ((c.tc : Thread nD τ).loc main_arg2)) := (keepE1 (WD1 m c) main_v31 (by decide)).trans kD1_v31
  have oE1_v59 : WE1 m c (Proc.devRef .tc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) :=
    outE1_v59 (WD1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) oD1_v48 aD1_arg3 aD1_arg10 aD1_arg11
  have aE1_arg1 : WE1 m c (Proc.devRef .tc main_arg1) = (m ((c.tc : Thread nD τ).loc main_arg1)) := (keepE1 (WD1 m c) main_arg1 (by decide)).trans aD1_arg1
  have aE1_arg3 : WE1 m c (Proc.devRef .tc main_arg3) = (m ((c.tc : Thread nD τ).loc main_arg3)) := (keepE1 (WD1 m c) main_arg3 (by decide)).trans aD1_arg3
  have aE1_arg6 : WE1 m c (Proc.devRef .tc main_arg6) = (m ((c.tc : Thread nD τ).loc main_arg6)) := (keepE1 (WD1 m c) main_arg6 (by decide)).trans aD1_arg6
  have aE1_arg7 : WE1 m c (Proc.devRef .tc main_arg7) = (m ((c.tc : Thread nD τ).loc main_arg7)) := (keepE1 (WD1 m c) main_arg7 (by decide)).trans aD1_arg7
  have aE1_arg12 : WE1 m c (Proc.devRef .tc main_arg12) = (m ((c.tc : Thread nD τ).loc main_arg12)) := (keepE1 (WD1 m c) main_arg12 (by decide)).trans aD1_arg12
  have aE1_arg13 : WE1 m c (Proc.devRef .tc main_arg13) = (m ((c.tc : Thread nD τ).loc main_arg13)) := (keepE1 (WD1 m c) main_arg13 (by decide)).trans aD1_arg13
  have aE1_arg8 : WE1 m c (Proc.devRef .tc main_arg8) = (m ((c.tc : Thread nD τ).loc main_arg8)) := (keepE1 (WD1 m c) main_arg8 (by decide)).trans aD1_arg8
  have aE1_arg9 : WE1 m c (Proc.devRef .tc main_arg9) = (m ((c.tc : Thread nD τ).loc main_arg9)) := (keepE1 (WD1 m c) main_arg9 (by decide)).trans aD1_arg9
  have aE1_arg14 : WE1 m c (Proc.devRef .tc main_arg14) = (m ((c.tc : Thread nD τ).loc main_arg14)) := (keepE1 (WD1 m c) main_arg14 (by decide)).trans aD1_arg14
  have aE1_arg15 : WE1 m c (Proc.devRef .tc main_arg15) = (m ((c.tc : Thread nD τ).loc main_arg15)) := (keepE1 (WD1 m c) main_arg15 (by decide)).trans aD1_arg15
  have aE1_arg16 : WE1 m c (Proc.devRef .tc main_arg16) = (m ((c.tc : Thread nD τ).loc main_arg16)) := (keepE1 (WD1 m c) main_arg16 (by decide)).trans aD1_arg16
  have aE1_arg17 : WE1 m c (Proc.devRef .tc main_arg17) = (m ((c.tc : Thread nD τ).loc main_arg17)) := (keepE1 (WD1 m c) main_arg17 (by decide)).trans aD1_arg17
  have kD2_v5 : WD2 m c (Proc.devRef .tc main_v5) = Read.val_main_v5 (F := Ideal) (m ((c.tc : Thread nD τ).loc main_arg0)) := (keepD2 (WE1 m c) main_v5 (by decide)).trans kE1_v5
  have kD2_v6 : WD2 m c (Proc.devRef .tc main_v6) = Read.val_main_v6 (F := Ideal) (m ((c.tc : Thread nD τ).loc main_arg0)) := (keepD2 (WE1 m c) main_v6 (by decide)).trans kE1_v6
  have kD2_v31 : WD2 m c (Proc.devRef .tc main_v31) = Read.val_main_v31 (F := Ideal) (m ((c.tc : Thread nD τ).loc main_arg0)) (m ((c.tc : Thread nD τ).loc main_arg2)) := (keepD2 (WE1 m c) main_v31 (by decide)).trans kE1_v31
  have kD2_v59 : WD2 m c (Proc.devRef .tc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := (keepD2 (WE1 m c) main_v59 (by decide)).trans oE1_v59
  have oD2_v76 : WD2 m c (Proc.devRef .tc main_v76) = Read.val_main_v76 (F := Ideal) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) :=
    outD2_v76 (WE1 m c) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) aE1_arg1 aE1_arg6 aE1_arg7 kE1_v31 kE1_v5 kE1_v6
  have aD2_arg1 : WD2 m c (Proc.devRef .tc main_arg1) = (m ((c.tc : Thread nD τ).loc main_arg1)) := (keepD2 (WE1 m c) main_arg1 (by decide)).trans aE1_arg1
  have aD2_arg3 : WD2 m c (Proc.devRef .tc main_arg3) = (m ((c.tc : Thread nD τ).loc main_arg3)) := (keepD2 (WE1 m c) main_arg3 (by decide)).trans aE1_arg3
  have aD2_arg12 : WD2 m c (Proc.devRef .tc main_arg12) = (m ((c.tc : Thread nD τ).loc main_arg12)) := (keepD2 (WE1 m c) main_arg12 (by decide)).trans aE1_arg12
  have aD2_arg13 : WD2 m c (Proc.devRef .tc main_arg13) = (m ((c.tc : Thread nD τ).loc main_arg13)) := (keepD2 (WE1 m c) main_arg13 (by decide)).trans aE1_arg13
  have aD2_arg8 : WD2 m c (Proc.devRef .tc main_arg8) = (m ((c.tc : Thread nD τ).loc main_arg8)) := (keepD2 (WE1 m c) main_arg8 (by decide)).trans aE1_arg8
  have aD2_arg9 : WD2 m c (Proc.devRef .tc main_arg9) = (m ((c.tc : Thread nD τ).loc main_arg9)) := (keepD2 (WE1 m c) main_arg9 (by decide)).trans aE1_arg9
  have aD2_arg14 : WD2 m c (Proc.devRef .tc main_arg14) = (m ((c.tc : Thread nD τ).loc main_arg14)) := (keepD2 (WE1 m c) main_arg14 (by decide)).trans aE1_arg14
  have aD2_arg15 : WD2 m c (Proc.devRef .tc main_arg15) = (m ((c.tc : Thread nD τ).loc main_arg15)) := (keepD2 (WE1 m c) main_arg15 (by decide)).trans aE1_arg15
  have aD2_arg16 : WD2 m c (Proc.devRef .tc main_arg16) = (m ((c.tc : Thread nD τ).loc main_arg16)) := (keepD2 (WE1 m c) main_arg16 (by decide)).trans aE1_arg16
  have aD2_arg17 : WD2 m c (Proc.devRef .tc main_arg17) = (m ((c.tc : Thread nD τ).loc main_arg17)) := (keepD2 (WE1 m c) main_arg17 (by decide)).trans aE1_arg17
  have kE2_v5 : WE2 m c (Proc.devRef .tc main_v5) = Read.val_main_v5 (F := Ideal) (m ((c.tc : Thread nD τ).loc main_arg0)) := (keepE2 (WD2 m c) main_v5 (by decide)).trans kD2_v5
  have kE2_v6 : WE2 m c (Proc.devRef .tc main_v6) = Read.val_main_v6 (F := Ideal) (m ((c.tc : Thread nD τ).loc main_arg0)) := (keepE2 (WD2 m c) main_v6 (by decide)).trans kD2_v6
  have kE2_v31 : WE2 m c (Proc.devRef .tc main_v31) = Read.val_main_v31 (F := Ideal) (m ((c.tc : Thread nD τ).loc main_arg0)) (m ((c.tc : Thread nD τ).loc main_arg2)) := (keepE2 (WD2 m c) main_v31 (by decide)).trans kD2_v31
  have kE2_v59 : WE2 m c (Proc.devRef .tc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := (keepE2 (WD2 m c) main_v59 (by decide)).trans kD2_v59
  have oE2_v87 : WE2 m c (Proc.devRef .tc main_v87) = Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) :=
    outE2_v87 (WD2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) oD2_v76 aD2_arg3 aD2_arg12 aD2_arg13
  have aE2_arg1 : WE2 m c (Proc.devRef .tc main_arg1) = (m ((c.tc : Thread nD τ).loc main_arg1)) := (keepE2 (WD2 m c) main_arg1 (by decide)).trans aD2_arg1
  have aE2_arg3 : WE2 m c (Proc.devRef .tc main_arg3) = (m ((c.tc : Thread nD τ).loc main_arg3)) := (keepE2 (WD2 m c) main_arg3 (by decide)).trans aD2_arg3
  have aE2_arg8 : WE2 m c (Proc.devRef .tc main_arg8) = (m ((c.tc : Thread nD τ).loc main_arg8)) := (keepE2 (WD2 m c) main_arg8 (by decide)).trans aD2_arg8
  have aE2_arg9 : WE2 m c (Proc.devRef .tc main_arg9) = (m ((c.tc : Thread nD τ).loc main_arg9)) := (keepE2 (WD2 m c) main_arg9 (by decide)).trans aD2_arg9
  have aE2_arg14 : WE2 m c (Proc.devRef .tc main_arg14) = (m ((c.tc : Thread nD τ).loc main_arg14)) := (keepE2 (WD2 m c) main_arg14 (by decide)).trans aD2_arg14
  have aE2_arg15 : WE2 m c (Proc.devRef .tc main_arg15) = (m ((c.tc : Thread nD τ).loc main_arg15)) := (keepE2 (WD2 m c) main_arg15 (by decide)).trans aD2_arg15
  have aE2_arg16 : WE2 m c (Proc.devRef .tc main_arg16) = (m ((c.tc : Thread nD τ).loc main_arg16)) := (keepE2 (WD2 m c) main_arg16 (by decide)).trans aD2_arg16
  have aE2_arg17 : WE2 m c (Proc.devRef .tc main_arg17) = (m ((c.tc : Thread nD τ).loc main_arg17)) := (keepE2 (WD2 m c) main_arg17 (by decide)).trans aD2_arg17
  have kD3_v59 : WD3 m c (Proc.devRef .tc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := (keepD3 (WE2 m c) main_v59 (by decide)).trans kE2_v59
  have kD3_v87 : WD3 m c (Proc.devRef .tc main_v87) = Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) := (keepD3 (WE2 m c) main_v87 (by decide)).trans oE2_v87
  have oD3_v104 : WD3 m c (Proc.devRef .tc main_v104) = Read.val_main_v104 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) :=
    outD3_v104 (WE2 m c) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) aE2_arg1 aE2_arg8 aE2_arg9 kE2_v31 kE2_v5 kE2_v6
  have aD3_arg3 : WD3 m c (Proc.devRef .tc main_arg3) = (m ((c.tc : Thread nD τ).loc main_arg3)) := (keepD3 (WE2 m c) main_arg3 (by decide)).trans aE2_arg3
  have aD3_arg14 : WD3 m c (Proc.devRef .tc main_arg14) = (m ((c.tc : Thread nD τ).loc main_arg14)) := (keepD3 (WE2 m c) main_arg14 (by decide)).trans aE2_arg14
  have aD3_arg15 : WD3 m c (Proc.devRef .tc main_arg15) = (m ((c.tc : Thread nD τ).loc main_arg15)) := (keepD3 (WE2 m c) main_arg15 (by decide)).trans aE2_arg15
  have aD3_arg16 : WD3 m c (Proc.devRef .tc main_arg16) = (m ((c.tc : Thread nD τ).loc main_arg16)) := (keepD3 (WE2 m c) main_arg16 (by decide)).trans aE2_arg16
  have aD3_arg17 : WD3 m c (Proc.devRef .tc main_arg17) = (m ((c.tc : Thread nD τ).loc main_arg17)) := (keepD3 (WE2 m c) main_arg17 (by decide)).trans aE2_arg17
  have kE3a_v59 : WE3a m c (Proc.devRef .tc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := (keepE3a (WD3 m c) main_v59 (by decide)).trans kD3_v59
  have kE3a_v104 : WE3a m c (Proc.devRef .tc main_v104) = Read.val_main_v104 (F := Ideal) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) := (keepE3a (WD3 m c) main_v104 (by decide)).trans oD3_v104
  have oE3a_v105 : WE3a m c (Proc.devRef .tc main_v105) = Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) :=
    outE3a_v105 (WD3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) aD3_arg3 kD3_v87
  have aE3a_arg3 : WE3a m c (Proc.devRef .tc main_arg3) = (m ((c.tc : Thread nD τ).loc main_arg3)) := (keepE3a (WD3 m c) main_arg3 (by decide)).trans aD3_arg3
  have aE3a_arg14 : WE3a m c (Proc.devRef .tc main_arg14) = (m ((c.tc : Thread nD τ).loc main_arg14)) := (keepE3a (WD3 m c) main_arg14 (by decide)).trans aD3_arg14
  have aE3a_arg15 : WE3a m c (Proc.devRef .tc main_arg15) = (m ((c.tc : Thread nD τ).loc main_arg15)) := (keepE3a (WD3 m c) main_arg15 (by decide)).trans aD3_arg15
  have aE3a_arg16 : WE3a m c (Proc.devRef .tc main_arg16) = (m ((c.tc : Thread nD τ).loc main_arg16)) := (keepE3a (WD3 m c) main_arg16 (by decide)).trans aD3_arg16
  have aE3a_arg17 : WE3a m c (Proc.devRef .tc main_arg17) = (m ((c.tc : Thread nD τ).loc main_arg17)) := (keepE3a (WD3 m c) main_arg17 (by decide)).trans aD3_arg17
  have kE3b_v59 : WE3b m c (Proc.devRef .tc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := (keepE3b (WE3a m c) main_v59 (by decide)).trans kE3a_v59
  have oE3b_v111 : WE3b m c (Proc.devRef .tc main_v111) = Read.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) :=
    outE3b_v111 (WE3a m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) kE3a_v104 oE3a_v105 aE3a_arg14 aE3a_arg15
  have aE3b_arg3 : WE3b m c (Proc.devRef .tc main_arg3) = (m ((c.tc : Thread nD τ).loc main_arg3)) := (keepE3b (WE3a m c) main_arg3 (by decide)).trans aE3a_arg3
  have aE3b_arg16 : WE3b m c (Proc.devRef .tc main_arg16) = (m ((c.tc : Thread nD τ).loc main_arg16)) := (keepE3b (WE3a m c) main_arg16 (by decide)).trans aE3a_arg16
  have aE3b_arg17 : WE3b m c (Proc.devRef .tc main_arg17) = (m ((c.tc : Thread nD τ).loc main_arg17)) := (keepE3b (WE3a m c) main_arg17 (by decide)).trans aE3a_arg17
  have oF_v116 : WF m c (Proc.devRef .tc main_v116) = Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
    outF_v116 (WE3b m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) kE3b_v59 aE3b_arg3 oE3b_v111
  have aF_arg16 : WF m c (Proc.devRef .tc main_arg16) = (m ((c.tc : Thread nD τ).loc main_arg16)) := (keepF (WE3b m c) main_arg16 (by decide)).trans aE3b_arg16
  have aF_arg17 : WF m c (Proc.devRef .tc main_arg17) = (m ((c.tc : Thread nD τ).loc main_arg17)) := (keepF (WE3b m c) main_arg17 (by decide)).trans aE3b_arg17
  have kG_v116 : WG m c (Proc.devRef .tc main_v116) = Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := (keepG (WF m c) main_v116 (by decide)).trans oF_v116
  have oG_v121 : WG m c (Proc.devRef .tc main_v121) = Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
    outG_v121 (WF m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) oF_v116 aF_arg16 aF_arg17
  exact ⟨oG_v121, (keepG (WF m c) main_v116 (by decide)).trans oF_v116⟩

/-- The operations are the stretches in a row. -/
theorem ops_eq : (ops : List (HloOp τ sig (Elt F))) = segA ++ segB ++ segC ++ segD1 ++ segE1 ++ segD2 ++ segE2 ++ segD3 ++ segE3a ++ segE3b ++ segF ++ segG := rfl

/-- Both result buffers after all the operations, from the launch contents. -/
theorem after_ops (m : (ℓ : Loc nD τ sig) → Buf (Elt Ideal) ℓ) (c : Dev nD) :
    after (ops (F := Ideal)) (launchContents m c) = WG m c := by
  rw [ops_eq]
  simp only [after_append]

theorem kept0 (m : (ℓ : Loc nD τ sig) → Buf (Elt Ideal) ℓ) (c : Dev nD) :
    after (ops (F := Ideal)) (launchContents m c) (Proc.devRef .tc main_arg0) = m ((c.tc : Thread nD τ).loc main_arg0) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept1 (m : (ℓ : Loc nD τ sig) → Buf (Elt Ideal) ℓ) (c : Dev nD) :
    after (ops (F := Ideal)) (launchContents m c) (Proc.devRef .tc main_arg1) = m ((c.tc : Thread nD τ).loc main_arg1) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept2 (m : (ℓ : Loc nD τ sig) → Buf (Elt Ideal) ℓ) (c : Dev nD) :
    after (ops (F := Ideal)) (launchContents m c) (Proc.devRef .tc main_arg2) = m ((c.tc : Thread nD τ).loc main_arg2) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept3 (m : (ℓ : Loc nD τ sig) → Buf (Elt Ideal) ℓ) (c : Dev nD) :
    after (ops (F := Ideal)) (launchContents m c) (Proc.devRef .tc main_arg3) = m ((c.tc : Thread nD τ).loc main_arg3) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept4 (m : (ℓ : Loc nD τ sig) → Buf (Elt Ideal) ℓ) (c : Dev nD) :
    after (ops (F := Ideal)) (launchContents m c) (Proc.devRef .tc main_arg4) = m ((c.tc : Thread nD τ).loc main_arg4) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept5 (m : (ℓ : Loc nD τ sig) → Buf (Elt Ideal) ℓ) (c : Dev nD) :
    after (ops (F := Ideal)) (launchContents m c) (Proc.devRef .tc main_arg5) = m ((c.tc : Thread nD τ).loc main_arg5) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept6 (m : (ℓ : Loc nD τ sig) → Buf (Elt Ideal) ℓ) (c : Dev nD) :
    after (ops (F := Ideal)) (launchContents m c) (Proc.devRef .tc main_arg6) = m ((c.tc : Thread nD τ).loc main_arg6) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept7 (m : (ℓ : Loc nD τ sig) → Buf (Elt Ideal) ℓ) (c : Dev nD) :
    after (ops (F := Ideal)) (launchContents m c) (Proc.devRef .tc main_arg7) = m ((c.tc : Thread nD τ).loc main_arg7) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept8 (m : (ℓ : Loc nD τ sig) → Buf (Elt Ideal) ℓ) (c : Dev nD) :
    after (ops (F := Ideal)) (launchContents m c) (Proc.devRef .tc main_arg8) = m ((c.tc : Thread nD τ).loc main_arg8) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept9 (m : (ℓ : Loc nD τ sig) → Buf (Elt Ideal) ℓ) (c : Dev nD) :
    after (ops (F := Ideal)) (launchContents m c) (Proc.devRef .tc main_arg9) = m ((c.tc : Thread nD τ).loc main_arg9) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept10 (m : (ℓ : Loc nD τ sig) → Buf (Elt Ideal) ℓ) (c : Dev nD) :
    after (ops (F := Ideal)) (launchContents m c) (Proc.devRef .tc main_arg10) = m ((c.tc : Thread nD τ).loc main_arg10) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept11 (m : (ℓ : Loc nD τ sig) → Buf (Elt Ideal) ℓ) (c : Dev nD) :
    after (ops (F := Ideal)) (launchContents m c) (Proc.devRef .tc main_arg11) = m ((c.tc : Thread nD τ).loc main_arg11) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept12 (m : (ℓ : Loc nD τ sig) → Buf (Elt Ideal) ℓ) (c : Dev nD) :
    after (ops (F := Ideal)) (launchContents m c) (Proc.devRef .tc main_arg12) = m ((c.tc : Thread nD τ).loc main_arg12) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept13 (m : (ℓ : Loc nD τ sig) → Buf (Elt Ideal) ℓ) (c : Dev nD) :
    after (ops (F := Ideal)) (launchContents m c) (Proc.devRef .tc main_arg13) = m ((c.tc : Thread nD τ).loc main_arg13) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept14 (m : (ℓ : Loc nD τ sig) → Buf (Elt Ideal) ℓ) (c : Dev nD) :
    after (ops (F := Ideal)) (launchContents m c) (Proc.devRef .tc main_arg14) = m ((c.tc : Thread nD τ).loc main_arg14) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept15 (m : (ℓ : Loc nD τ sig) → Buf (Elt Ideal) ℓ) (c : Dev nD) :
    after (ops (F := Ideal)) (launchContents m c) (Proc.devRef .tc main_arg15) = m ((c.tc : Thread nD τ).loc main_arg15) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept16 (m : (ℓ : Loc nD τ sig) → Buf (Elt Ideal) ℓ) (c : Dev nD) :
    after (ops (F := Ideal)) (launchContents m c) (Proc.devRef .tc main_arg16) = m ((c.tc : Thread nD τ).loc main_arg16) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

theorem kept17 (m : (ℓ : Loc nD τ sig) → Buf (Elt Ideal) ℓ) (c : Dev nD) :
    after (ops (F := Ideal)) (launchContents m c) (Proc.devRef .tc main_arg17) = m ((c.tc : Thread nD τ).loc main_arg17) := by
  rw [after_ops]
  exact (keepG _ _ (by decide)).trans ((keepF _ _ (by decide)).trans ((keepE3b _ _ (by decide)).trans ((keepE3a _ _ (by decide)).trans
    ((keepD3 _ _ (by decide)).trans ((keepE2 _ _ (by decide)).trans ((keepD2 _ _ (by decide)).trans ((keepE1 _ _ (by decide)).trans
    ((keepD1 _ _ (by decide)).trans ((keepC _ _ (by decide)).trans ((keepB _ _ (by decide)).trans (keepA _ _ (by decide))))))))))))

/-- On every device, from any memory with zero counters: every weakly fair execution of the reference's @main
    terminates with its two results at the reference's stage functions of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121) = Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v116) = Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v121).trans ((congrFun (after_ops m c) _).trans (results m c).1),
      (h c main_v116).trans ((congrFun (after_ops m c) _).trans (results m c).2),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c),
      (h c main_arg8).trans (kept8 m c),
      (h c main_arg9).trans (kept9 m c),
      (h c main_arg10).trans (kept10 m c),
      (h c main_arg11).trans (kept11 m c),
      (h c main_arg12).trans (kept12 m c),
      (h c main_arg13).trans (kept13 m c),
      (h c main_arg14).trans (kept14 m c),
      (h c main_arg15).trans (kept15 m c),
      (h c main_arg16).trans (kept16 m c),
      (h c main_arg17).trans (kept17 m c)⟩)
    (run_seq scopedRefs_eq scopedSems_eq defs main (fun _ => ops) main_eq (fun _ => ops_sub) m ρ)

end Cert.ReferenceIdeal.RefRun

end
-- ==== Proof.lean ====
import proofs.«163961_j14181982011590_2_alg».proof.Defs
import proofs.«163961_j14181982011590_2_alg».proof.Proof.Gen.Kernel
import proofs.«163961_j14181982011590_2_alg».proof.Proof.Gen.KernelIdeal
import proofs.«163961_j14181982011590_2_alg».proof.Proof.Gen.ReferenceIdeal
import proofs.«163961_j14181982011590_2_alg».proof.Proof.Gen.Pre_finite_inputs
import proofs.«163961_j14181982011590_2_alg».proof.Proof.FrameK
import proofs.«163961_j14181982011590_2_alg».proof.Proof.FrameKI
import proofs.«163961_j14181982011590_2_alg».proof.Proof.KValue
import proofs.«163961_j14181982011590_2_alg».proof.Proof.Bridge
import proofs.«163961_j14181982011590_2_alg».proof.Proof.RefValue
import proofs.«163961_j14181982011590_2_alg».proof.Proof.RefRun

/-!
# A gated recurrent step on a graph: the fused kernel against the plain reference

Both programs normalise the graph's edge weights (self loops added, symmetric 1/√deg scaling), run three graph
convolutions — one per gate of a gated recurrent unit — join each with the hidden state, apply a dense layer
and the logistic function or tanh, form the new hidden state z · h + (1 − z) · h̃ and an output max(h', 0) · W + b.

The reference projects the node features with each gate's matrix and then aggregates over the edges; the
kernel aggregates the 64 features once on the host, and inside one pass over tiles of 2000 rows multiplies
the aggregated tile by the three matrices laid side by side, then does the whole gated step for the tile.
On the extended reals every rounding to a shorter float is the identity and every matrix product an exact
sum, so the two differ only by the order "aggregate, then project" against "project, then aggregate": equal
because every feature, edge weight and projection entry is a real number (the precondition), so that products
distribute over the finite sums. Everything after the three convolutions is the same function of the same
rows on both sides.

The three frames: the two kernel programs run their one region from the host prefix's contents, every tile
loaded and stored whole; the reference is host operations only, read stretch by stretch.
-/

set_option maxRecDepth 16384

noncomputable section

open Idealize.ShloMosaic Idealize.ShloMosaic.TcCoe Idealize.SL.Sem Idealize.ShloMosaic.ValueIdx

namespace Cert.Proof.Claims

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.HFrame.frame m ρ

theorem frame_ki : Cert.frame_KernelIdeal := fun m ρ _ => Cert.KernelIdeal.HFrame.frame m ρ

theorem frame_ri : Cert.frame_ReferenceIdeal := fun m ρ _ =>
  (θ_run Cert.ReferenceIdeal.defs _ _).mono (fun _ h c => (h c).2.2) (Cert.ReferenceIdeal.RefRun.run m ρ)

/-- From memories agreeing on the arguments both programs end with the kernel's two arrays: the kernel by its
    run read tile by tile, the reference because its results are, entry by entry, the same row functions. -/
theorem algebraic : Cert.algebraic_KernelIdeal_ReferenceIdeal := by
  intro m ρ m' ρ' hpre hagree
  refine ⟨fun c => Cert.KernelIdeal.KValue.yArr m c, fun c => Cert.KernelIdeal.KValue.hArr m c,
    Cert.KernelIdeal.KValue.run m ρ, ?_⟩
  refine (θ_run Cert.ReferenceIdeal.defs _ _).mono (fun r h c => ⟨(h c).1.trans ?_, (h c).2.1.trans ?_, (h c).2.2⟩)
    (Cert.ReferenceIdeal.RefRun.run m' ρ')
  · funext i
    obtain ⟨n, j, rfl⟩ : ∃ (n : Fin 50000) (j : Fin 64), i = ix2 n j := ⟨i 0, i 1, eq_ix2 i⟩
    refine (Cert.ReferenceIdeal.RefValue.y_apply (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) n j).trans ?_
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    exact (Cert.KernelIdeal.Bridge.yArr_apply m hpre c n j).symm
  · funext i
    obtain ⟨n, j, rfl⟩ : ∃ (n : Fin 50000) (j : Fin 128), i = ix2 n j := ⟨i 0, i 1, eq_ix2 i⟩
    refine (Cert.ReferenceIdeal.RefValue.h_apply (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) n j).trans ?_
    obtain ⟨e0, e1, e2, e3, e4, e5, e6, e7, e8, e9, e10, e11, e12, e13, e14, e15, e16, e17⟩ := hagree c
    rw [e0, e1, e2, e3, e4, e5, e6, e7, e8, e9, e10, e11, e12, e13, e14, e15]
    exact (Cert.KernelIdeal.Bridge.hArr_apply m hpre c n j).symm

end Cert.Proof.Claims

/-- The certificate: the three frames, the (empty) idealization ledger, and the equality of results. -/
theorem Cert.Proof.claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial,
    Cert.Proof.Claims.algebraic⟩

end
